-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S3072x1024 : Shape := ⟨2, ![3072, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S2x2048x1024 .f32) (main_arg1 : FVec F S3072x1024 .f32) (main_arg2 : FVec F S1024x1024 .f32) (main_arg3 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S2x2048x1024 : Shape := ⟨3, ![2, 2048, 1024]⟩
abbrev S3072x1024 : Shape := ⟨2, ![3072, 1024]⟩
abbrev S1024x1024 : Shape := ⟨2, ![1024, 1024]⟩
abbrev S1024 : Shape := ⟨1, ![1024]⟩
abbrev S4096x1024 : Shape := ⟨2, ![4096, 1024]⟩
abbrev S4096x3072 : Shape := ⟨2, ![4096, 3072]⟩
abbrev S512x1024 : Shape := ⟨2, ![512, 1024]⟩
abbrev S2x2048x3x16x64 : Shape := ⟨5, ![2, 2048, 3, 16, 64]⟩
abbrev S1x256x1x16x64 : Shape := ⟨5, ![1, 256, 1, 16, 64]⟩
abbrev S1x2048x1x16x64 : Shape := ⟨5, ![1, 2048, 1, 16, 64]⟩
abbrev S1x256x1024 : Shape := ⟨3, ![1, 256, 1024]⟩
abbrev S1x256x1x1x64 : Shape := ⟨5, ![1, 256, 1, 1, 64]⟩
abbrev S256x64 : Shape := ⟨2, ![256, 64]⟩
abbrev S1x2048x1x1x64 : Shape := ⟨5, ![1, 2048, 1, 1, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩
abbrev S1x1024 : Shape := ⟨2, ![1, 1024]⟩

abbrev nBuf : Space → Nat
  | .hbm => 12
  | .vmem => 20
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S4096x1024, .f32⟩
  | .hbm, ⟨5, _⟩ => ⟨S4096x3072, .bf16⟩
  | .hbm, ⟨6, _⟩ => ⟨S2x2048x3x16x64, .bf16⟩
  | .hbm, ⟨7, _⟩ => ⟨S2x2048x1024, .bf16⟩
  | .hbm, ⟨8, _⟩ => ⟨S4096x1024, .bf16⟩
  | .hbm, ⟨9, _⟩ => ⟨S1x1024, .f32⟩
  | .hbm, ⟨10, _⟩ => ⟨S4096x1024, .f32⟩
  | .hbm, ⟨11, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S512x1024, .bf16⟩
  | .local _ .vmem, ⟨5, _⟩ => ⟨S512x1024, .bf16⟩
  | .local _ .vmem, ⟨6, _⟩ => ⟨S1x256x1x16x64, .bf16⟩
  | .local _ .vmem, ⟨7, _⟩ => ⟨S1x256x1x16x64, .bf16⟩
  | .local _ .vmem, ⟨8, _⟩ => ⟨S1x2048x1x16x64, .bf16⟩
  | .local _ .vmem, ⟨9, _⟩ => ⟨S1x2048x1x16x64, .bf16⟩
  | .local _ .vmem, ⟨10, _⟩ => ⟨S1x2048x1x16x64, .bf16⟩
  | .local _ .vmem, ⟨11, _⟩ => ⟨S1x2048x1x16x64, .bf16⟩
  | .local _ .vmem, ⟨12, _⟩ => ⟨S1x256x1024, .bf16⟩
  | .local _ .vmem, ⟨13, _⟩ => ⟨S1x256x1024, .bf16⟩
  | .local _ .vmem, ⟨14, _⟩ => ⟨S512x1024, .bf16⟩
  | .local _ .vmem, ⟨15, _⟩ => ⟨S512x1024, .bf16⟩
  | .local _ .vmem, ⟨16, _⟩ => ⟨S1024x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 8], ![false, false]⟩

def cc1_transform_0 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc1_transform_1 (i : grid1.Coords) : Fin 5 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![arg0.toNat, c0_i32.toNat, c1_i32.toNat, c0_i32_0.toNat, c0_i32_1.toNat]

def cc1_transform_2 (i : grid1.Coords) : Fin 5 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  let c0_i32_1 : BitVec 32 := 0#32
  let c0_i32_2 : BitVec 32 := 0#32
  ![arg0.toNat, c0_i32.toNat, c2_i32.toNat, c0_i32_0.toNat, c0_i32_1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1x16x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1x16x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1x16x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![8, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  shapeCasts_S2x2048x1024_S4096x1024 : S2x2048x1024.ShapeCasts S4096x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  packedbf16_S512x1024_S512x1024_0_0 : (Rect.unit (s := S512x1024) ![0, 0] S512x1024.size inb_S512x1024_S512x1024_0_0).PackedRows (EltTy.packing .bf16)
  shapeCasts_S4096x3072_S2x2048x3x16x64 : S4096x3072.ShapeCasts S2x2048x3x16x64
  inb_S1x256x1x16x64_S1x256x1x1x64_0_0_0_0_0 : ∀ a, (![0, 0, 0, 0, 0] : Fin 5 → Nat) a + S1x256x1x1x64.size a ≤ S1x256x1x16x64.size a
  h_S1x256x1x1x64 : 0 < S1x256x1x1x64.numel
  shapeCasts_S1x256x1x1x64_S256x64 : S1x256x1x1x64.ShapeCasts S256x64
  inb_S1x2048x1x16x64_S1x2048x1x1x64_0_0_0_0_0 : ∀ a, (![0, 0, 0, 0, 0] : Fin 5 → Nat) a + S1x2048x1x1x64.size a ≤ S1x2048x1x16x64.size a
  h_S1x2048x1x1x64 : 0 < S1x2048x1x1x64.numel
  shapeCasts_S1x2048x1x1x64_S2048x64 : S1x2048x1x1x64.ShapeCasts S2048x64
  reduces_S256x2048_S256 : S256x2048.Reduces [1] S256
  shapeCasts_S256_S256x1 : S256.ShapeCasts S256x1
  broadcasts_S256x1_S256x2048 : S256x1.Broadcasts S256x2048
  inb_S1x256x1x16x64_S1x256x1x1x64_0_0_0_1_0 : ∀ a, (![0, 0, 0, 1, 0] : Fin 5 → Nat) a + S1x256x1x1x64.size a ≤ S1x256x1x16x64.size a
  inb_S1x2048x1x16x64_S1x2048x1x1x64_0_0_0_1_0 : ∀ a, (![0, 0, 0, 1, 0] : Fin 5 → Nat) a + S1x2048x1x1x64.size a ≤ S1x2048x1x16x64.size a
  inb_S1x256x1x16x64_S1x256x1x1x64_0_0_0_2_0 : ∀ a, (![0, 0, 0, 2, 0] : Fin 5 → Nat) a + S1x256x1x1x64.size a ≤ S1x256x1x16x64.size a
  inb_S1x2048x1x16x64_S1x2048x1x1x64_0_0_0_2_0 : ∀ a, (![0, 0, 0, 2, 0] : Fin 5 → Nat) a + S1x2048x1x1x64.size a ≤ S1x2048x1x16x64.size a
  inb_S1x256x1x16x64_S1x256x1x1x64_0_0_0_3_0 : ∀ a, (![0, 0, 0, 3, 0] : Fin 5 → Nat) a + S1x256x1x1x64.size a ≤ S1x256x1x16x64.size a
  inb_S1x2048x1x16x64_S1x2048x1x1x64_0_0_0_3_0 : ∀ a, (![0, 0, 0, 3, 0] : Fin 5 → Nat) a + S1x2048x1x1x64.size a ≤ S1x2048x1x16x64.size a
  inb_S1x256x1x16x64_S1x256x1x1x64_0_0_0_4_0 : ∀ a, (![0, 0, 0, 4, 0] : Fin 5 → Nat) a + S1x256x1x1x64.size a ≤ S1x256x1x16x64.size a
  inb_S1x2048x1x16x64_S1x2048x1x1x64_0_0_0_4_0 : ∀ a, (![0, 0, 0, 4, 0] : Fin 5 → Nat) a + S1x2048x1x1x64.size a ≤ S1x2048x1x16x64.size a
  inb_S1x256x1x16x64_S1x256x1x1x64_0_0_0_5_0 : ∀ a, (![0, 0, 0, 5, 0] : Fin 5 → Nat) a + S1x256x1x1x64.size a ≤ S1x256x1x16x64.size a
  inb_S1x2048x1x16x64_S1x2048x1x1x64_0_0_0_5_0 : ∀ a, (![0, 0, 0, 5, 0] : Fin 5 → Nat) a + S1x2048x1x1x64.size a ≤ S1x2048x1x16x64.size a
  inb_S1x256x1x16x64_S1x256x1x1x64_0_0_0_6_0 : ∀ a, (![0, 0, 0, 6, 0] : Fin 5 → Nat) a + S1x256x1x1x64.size a ≤ S1x256x1x16x64.size a
  inb_S1x2048x1x16x64_S1x2048x1x1x64_0_0_0_6_0 : ∀ a, (![0, 0, 0, 6, 0] : Fin 5 → Nat) a + S1x2048x1x1x64.size a ≤ S1x2048x1x16x64.size a
  inb_S1x256x1x16x64_S1x256x1x1x64_0_0_0_7_0 : ∀ a, (![0, 0, 0, 7, 0] : Fin 5 → Nat) a + S1x256x1x1x64.size a ≤ S1x256x1x16x64.size a
  inb_S1x2048x1x16x64_S1x2048x1x1x64_0_0_0_7_0 : ∀ a, (![0, 0, 0, 7, 0] : Fin 5 → Nat) a + S1x2048x1x1x64.size a ≤ S1x2048x1x16x64.size a
  inb_S1x256x1x16x64_S1x256x1x1x64_0_0_0_8_0 : ∀ a, (![0, 0, 0, 8, 0] : Fin 5 → Nat) a + S1x256x1x1x64.size a ≤ S1x256x1x16x64.size a
  inb_S1x2048x1x16x64_S1x2048x1x1x64_0_0_0_8_0 : ∀ a, (![0, 0, 0, 8, 0] : Fin 5 → Nat) a + S1x2048x1x1x64.size a ≤ S1x2048x1x16x64.size a
  inb_S1x256x1x16x64_S1x256x1x1x64_0_0_0_9_0 : ∀ a, (![0, 0, 0, 9, 0] : Fin 5 → Nat) a + S1x256x1x1x64.size a ≤ S1x256x1x16x64.size a
  inb_S1x2048x1x16x64_S1x2048x1x1x64_0_0_0_9_0 : ∀ a, (![0, 0, 0, 9, 0] : Fin 5 → Nat) a + S1x2048x1x1x64.size a ≤ S1x2048x1x16x64.size a
  inb_S1x256x1x16x64_S1x256x1x1x64_0_0_0_10_0 : ∀ a, (![0, 0, 0, 10, 0] : Fin 5 → Nat) a + S1x256x1x1x64.size a ≤ S1x256x1x16x64.size a
  inb_S1x2048x1x16x64_S1x2048x1x1x64_0_0_0_10_0 : ∀ a, (![0, 0, 0, 10, 0] : Fin 5 → Nat) a + S1x2048x1x1x64.size a ≤ S1x2048x1x16x64.size a
  inb_S1x256x1x16x64_S1x256x1x1x64_0_0_0_11_0 : ∀ a, (![0, 0, 0, 11, 0] : Fin 5 → Nat) a + S1x256x1x1x64.size a ≤ S1x256x1x16x64.size a
  inb_S1x2048x1x16x64_S1x2048x1x1x64_0_0_0_11_0 : ∀ a, (![0, 0, 0, 11, 0] : Fin 5 → Nat) a + S1x2048x1x1x64.size a ≤ S1x2048x1x16x64.size a
  inb_S1x256x1x16x64_S1x256x1x1x64_0_0_0_12_0 : ∀ a, (![0, 0, 0, 12, 0] : Fin 5 → Nat) a + S1x256x1x1x64.size a ≤ S1x256x1x16x64.size a
  inb_S1x2048x1x16x64_S1x2048x1x1x64_0_0_0_12_0 : ∀ a, (![0, 0, 0, 12, 0] : Fin 5 → Nat) a + S1x2048x1x1x64.size a ≤ S1x2048x1x16x64.size a
  inb_S1x256x1x16x64_S1x256x1x1x64_0_0_0_13_0 : ∀ a, (![0, 0, 0, 13, 0] : Fin 5 → Nat) a + S1x256x1x1x64.size a ≤ S1x256x1x16x64.size a
  inb_S1x2048x1x16x64_S1x2048x1x1x64_0_0_0_13_0 : ∀ a, (![0, 0, 0, 13, 0] : Fin 5 → Nat) a + S1x2048x1x1x64.size a ≤ S1x2048x1x16x64.size a
  inb_S1x256x1x16x64_S1x256x1x1x64_0_0_0_14_0 : ∀ a, (![0, 0, 0, 14, 0] : Fin 5 → Nat) a + S1x256x1x1x64.size a ≤ S1x256x1x16x64.size a
  inb_S1x2048x1x16x64_S1x2048x1x1x64_0_0_0_14_0 : ∀ a, (![0, 0, 0, 14, 0] : Fin 5 → Nat) a + S1x2048x1x1x64.size a ≤ S1x2048x1x16x64.size a
  inb_S1x256x1x16x64_S1x256x1x1x64_0_0_0_15_0 : ∀ a, (![0, 0, 0, 15, 0] : Fin 5 → Nat) a + S1x256x1x1x64.size a ≤ S1x256x1x16x64.size a
  inb_S1x2048x1x16x64_S1x2048x1x1x64_0_0_0_15_0 : ∀ a, (![0, 0, 0, 15, 0] : Fin 5 → Nat) a + S1x2048x1x1x64.size a ≤ S1x2048x1x16x64.size a
  concatenates_S256x64_S256x64_S256x64_S256x64_S256x64_S256x64_S256x64_S256x64_S256x64_S256x64_S256x64_S256x64_S256x64_S256x64_S256x64_S256x64_S256x1024_d1 : Shape.Concatenates [S256x64, S256x64, S256x64, S256x64, S256x64, S256x64, S256x64, S256x64, S256x64, S256x64, S256x64, S256x64, S256x64, S256x64, S256x64, S256x64] S256x1024 1
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  packedbf16_S1x256x1024_S1x256x1024_0_0_0 : (Rect.unit (s := S1x256x1024) ![0, 0, 0] S1x256x1024.size inb_S1x256x1024_S1x256x1024_0_0_0).PackedRows (EltTy.packing .bf16)
  shapeCasts_S1024_S1x1024 : S1024.ShapeCasts S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S4096x1024_S2x2048x1024 : S4096x1024.ShapeCasts S2x2048x1024
  dot_S512x1024_S1024x1024_S512x1024_1_1_0_0_n_n_wf : DotDims.WF S512x1024 S1024x1024 S512x1024 [1] [1] [0] [0] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S3072x1024.size a
  hwx0_1 : ∀ i : grid0.Coords, EltTy.bits .f32 = 32 ∨ (Rect.block (s := S3072x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x3072.size a
  hwx0_2 : ∀ i : grid0.Coords, EltTy.bits .bf16 = 32 ∨ (Rect.block (s := S4096x3072) S512x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1x16x64.size a ≤ S2x2048x3x16x64.size a
  hwx1_0 : ∀ i : grid1.Coords, EltTy.bits .bf16 = 32 ∨ (Rect.block (s := S2x2048x3x16x64) S1x256x1x16x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1x16x64.size a ≤ S2x2048x3x16x64.size a
  hwx1_1 : ∀ i : grid1.Coords, EltTy.bits .bf16 = 32 ∨ (Rect.block (s := S2x2048x3x16x64) S1x2048x1x16x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1x16x64.size a ≤ S2x2048x3x16x64.size a
  hwx1_2 : ∀ i : grid1.Coords, EltTy.bits .bf16 = 32 ∨ (Rect.block (s := S2x2048x3x16x64) S1x2048x1x16x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x1024.size a ≤ S2x2048x1024.size a
  hwx1_3 : ∀ i : grid1.Coords, EltTy.bits .bf16 = 32 ∨ (Rect.block (s := S2x2048x1024) S1x256x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .f32 = 32 ∨ (Rect.block (s := S4096x1024) S512x1024.size (cc2_transform_3 i) (hinb2_3 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S1x256x1x16x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x2048x1x16x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x2048x1x16x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x256x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v4) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S1024x1024.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v5) S1x1024.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S3072x1024 : Shape := ⟨2, ![3072, 1024]⟩
abbrev S1024x1024 : Shape := ⟨2, ![1024, 1024]⟩
abbrev S1024 : Shape := ⟨1, ![1024]⟩
abbrev S2x2048x3072 : Shape := ⟨3, ![2, 2048, 3072]⟩
abbrev S2x2048x3x16x64 : Shape := ⟨5, ![2, 2048, 3, 16, 64]⟩
abbrev S3x2x16x2048x64 : Shape := ⟨5, ![3, 2, 16, 2048, 64]⟩
abbrev S1x2x16x2048x64 : Shape := ⟨5, ![1, 2, 16, 2048, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩
abbrev S2x2048x16x64 : Shape := ⟨4, ![2, 2048, 16, 64]⟩
abbrev S1x1x1024 : Shape := ⟨3, ![1, 1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S2x2048x3072, .f32⟩
  | .hbm, ⟨5, _⟩ => ⟨S2x2048x3x16x64, .f32⟩
  | .hbm, ⟨6, _⟩ => ⟨S3x2x16x2048x64, .f32⟩
  | .hbm, ⟨7, _⟩ => ⟨S1x2x16x2048x64, .f32⟩
  | .hbm, ⟨8, _⟩ => ⟨S2x16x2048x64, .f32⟩
  | .hbm, ⟨9, _⟩ => ⟨S1x2x16x2048x64, .f32⟩
  | .hbm, ⟨10, _⟩ => ⟨S2x16x2048x64, .f32⟩
  | .hbm, ⟨11, _⟩ => ⟨S1x2x16x2048x64, .f32⟩
  | .hbm, ⟨12, _⟩ => ⟨S2x16x2048x64, .f32⟩
  | .hbm, ⟨13, _⟩ => ⟨S2x16x2048x2048, .f32⟩
  | .hbm, ⟨14, _⟩ => ⟨S_, .f32⟩
  | .hbm, ⟨15, _⟩ => ⟨S2x16x2048x2048, .f32⟩
  | .hbm, ⟨16, _⟩ => ⟨S2x16x2048x2048, .f32⟩
  | .hbm, ⟨17, _⟩ => ⟨S_, .f32⟩
  | .hbm, ⟨18, _⟩ => ⟨S2x16x2048, .f32⟩
  | .hbm, ⟨19, _⟩ => ⟨S_, .f32⟩
  | .hbm, ⟨20, _⟩ => ⟨S2x16x2048, .f32⟩
  | .hbm, ⟨21, _⟩ => ⟨S2x16x2048, .f32⟩
  | .hbm, ⟨22, _⟩ => ⟨S2x16x2048x1, .f32⟩
  | .hbm, ⟨23, _⟩ => ⟨S2x16x2048x2048, .f32⟩
  | .hbm, ⟨24, _⟩ => ⟨S2x16x2048x2048, .f32⟩
  | .hbm, ⟨25, _⟩ => ⟨S2x16x2048x2048, .f32⟩
  | .hbm, ⟨26, _⟩ => ⟨S_, .f32⟩
  | .hbm, ⟨27, _⟩ => ⟨S2x16x2048, .f32⟩
  | .hbm, ⟨28, _⟩ => ⟨S2x16x2048x1, .f32⟩
  | .hbm, ⟨29, _⟩ => ⟨S2x16x2048x2048, .f32⟩
  | .hbm, ⟨30, _⟩ => ⟨S2x16x2048x2048, .f32⟩
  | .hbm, ⟨31, _⟩ => ⟨S2x16x2048x64, .f32⟩
  | .hbm, ⟨32, _⟩ => ⟨S2x2048x16x64, .f32⟩
  | .hbm, ⟨33, _⟩ => ⟨S2x2048x1024, .f32⟩
  | .hbm, ⟨34, _⟩ => ⟨S2x2048x1024, .f32⟩
  | .hbm, ⟨35, _⟩ => ⟨S1x1x1024, .f32⟩
  | .hbm, ⟨36, _⟩ => ⟨S2x2048x1024, .f32⟩
  | .hbm, ⟨37, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]

class Facts₀ : Prop where
  shapeCasts_S2x2048x3072_S2x2048x3x16x64 : S2x2048x3072.ShapeCasts S2x2048x3x16x64
  transposes_S2x2048x3x16x64_S3x2x16x2048x64_2_0_3_1_4 : S2x2048x3x16x64.Transposes [2, 0, 3, 1, 4] S3x2x16x2048x64
  slices_S3x2x16x2048x64_S1x2x16x2048x64_0_0_0_0_0 : S3x2x16x2048x64.Slices ![0, 0, 0, 0, 0] S1x2x16x2048x64
  shapeCasts_S1x2x16x2048x64_S2x16x2048x64 : S1x2x16x2048x64.ShapeCasts S2x16x2048x64
  slices_S3x2x16x2048x64_S1x2x16x2048x64_1_0_0_0_0 : S3x2x16x2048x64.Slices ![1, 0, 0, 0, 0] S1x2x16x2048x64
  slices_S3x2x16x2048x64_S1x2x16x2048x64_2_0_0_0_0 : S3x2x16x2048x64.Slices ![2, 0, 0, 0, 0] S1x2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_1_01_0_n_n_wf : DotDims.WF S2x2048x1024 S1024x1024 S2x2048x1024 [2] [1] [0, 1] [0] [] []

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.QkvProjBits.lean ====
/-
  The first region: the projection of the 4096 token rows onto the 3072 query/key/value columns, one 512×1024 block
  of the result per grid point — the point's 512 rows of the input against the point's 1024 rows of the weight,
  contracted over the 1024 features.
-/
import proofs.«140581_j58600533786988_2_alg».proof.Proof.Gen.Kernel.Launch
import proofs.«140581_j58600533786988_2_alg».proof.Proof.Gen.Kernel.Skeleton
import proofs.«140581_j58600533786988_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.QkvProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
/-- The projection body's three accesses: the whole 512×1024 row block, the whole 1024×1024 weight block, the
    whole 512×1024 result block. -/
abbrev rA : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0

/-- What one grid point leaves in the result block: the row block times the transposed weight block. -/
def outBlk (a : Vec F S512x1024 .f32) (w : Vec F S1024x1024 .f32) : Vec F S512x1024 .bf16 :=
  View.canon [⟨rA, k0_pay1 (View.ld a rA) (View.ld w rW)⟩]

theorem outBlk_cover (p : Vec F S512x1024 .bf16) (y : S512x1024.Idx) :
    ∃ pc ∈ ([⟨rA, p⟩] : List (View.Piece (Elt F) S512x1024 .bf16)), y ∈ pc.1.set :=
  View.cover_of_tiled [⟨rA, p⟩] S512x1024.size (by rfl) y

set_option maxHeartbeats 1000000 in
/-- The body on whole staging buffers: the two inputs are read and kept, the result buffer (whatever it held) ends
    at `outBlk` of the inputs. -/
theorem sound_mm (c : Dev nD) (E : Set ℕ) (i : grid0.Coords)
    (arg2 : Memref sig .tc .vmem S512x1024 .f32) (harg2 : arg2.IsWhole)
    (arg3 : Memref sig .tc .vmem S1024x1024 .f32) (harg3 : arg3.IsWhole)
    (arg4 : Memref sig .tc .vmem S512x1024 .bf16) (harg4 : arg4.IsWhole)
    (a : Vec F S512x1024 .f32) (w : Vec F S1024x1024 .f32) (K : PUnit → sProp 𝕄) :
    iprop(owns (c : Thread nD τ) arg2 fullShare a ∗ owns (c : Thread nD τ) arg3 fullShare w
        ∗ (∃ d, owns (c : Thread nD τ) arg4 fullShare d)
        ∗ (iprop(owns (c : Thread nD τ) arg2 fullShare a ∗ owns (c : Thread nD τ) arg3 fullShare w
            ∗ owns (c : Thread nD τ) arg4 fullShare (outBlk a w)) -∗ K ⟨⟩))
      ⊢ wp frame (wpE (defs₀ (F := F)) Variants.none c none) E (cc0__mm_kernel i arg2 harg2 arg3 harg3 arg4 harg4) K := by
  simp only [cc0__mm_kernel_eq_skeleton]; unfold cc0__mm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outBlk_cover _)

/-! ## The proof data at the contents `V` the region is entered with -/

section Data
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- After the body at point `t`: the two inputs' buffers still hold their blocks, the result's holds `outBlk` of them. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => outBlk (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = outBlk (iblk V c 0 t) (iblk V c 1 t) := by dsimp only [dat]

/-- An input's staging buffer holds its block at every point, whether or not the point fetched it: a point that
    does not fetch has the block index of the point before. -/
theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_mm c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W0, bigSep_W0]
  exact sound_body V c t

end Data

end Cert.Kernel.QkvProj

end
-- ==== Proof.AttnRunBits.lean ====
/-
  The second region: attention. One grid point holds one batch's 256 query rows against that batch's 2048 key and value
  rows; for each of the 16 heads the scores are the query rows against the key rows over the head's 64 features, scaled,
  normalised along the keys by the exponential of the difference from the row's maximum over the row's sum of those, and
  multiplied into the value rows; the 16 heads' 64 columns are laid side by side in the 1024 result columns.
-/
import proofs.«140581_j58600533786988_2_alg».proof.Proof.Gen.Kernel.Launch
import proofs.«140581_j58600533786988_2_alg».proof.Proof.Gen.Kernel.Skeleton
import proofs.«140581_j58600533786988_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- What the body's one store leaves in the result buffer, as pieces, with the proof that on whole staging buffers — the
    query, key and value blocks at their contents, the result's at anything — the body runs to the continuation holding
    the three inputs as they were and the result buffer with those pieces written. The pieces are found by the run. -/
noncomputable def attnRun (c : Dev nD) (i : grid1.Coords)
    (arg2 : Memref sig .tc .vmem S1x256x1x16x64 .bf16) (harg2 : arg2.IsWhole)
    (arg3 : Memref sig .tc .vmem S1x2048x1x16x64 .bf16) (harg3 : arg3.IsWhole)
    (arg4 : Memref sig .tc .vmem S1x2048x1x16x64 .bf16) (harg4 : arg4.IsWhole)
    (arg5 : Memref sig .tc .vmem S1x256x1024 .bf16) (harg5 : arg5.IsWhole)
    (xq : Vec F S1x256x1x16x64 .bf16) (xk : Vec F S1x2048x1x16x64 .bf16) (xv : Vec F S1x2048x1x16x64 .bf16) :
    { L : List (View.Piece (Elt F) S1x256x1024 .bf16) //
      ∀ (E : Set ℕ) (K : PUnit → sProp 𝕄),
        iprop(owns (c : Thread nD τ) arg2 fullShare xq ∗ owns (c : Thread nD τ) arg3 fullShare xk
            ∗ owns (c : Thread nD τ) arg4 fullShare xv ∗ (∃ d, owns (c : Thread nD τ) arg5 fullShare d)
            ∗ (iprop(owns (c : Thread nD τ) arg2 fullShare xq ∗ owns (c : Thread nD τ) arg3 fullShare xk
                ∗ owns (c : Thread nD τ) arg4 fullShare xv
                ∗ (∃ f, arg5.view.loc (c : Thread nD τ) ↦[arg5.view.set]{fullShare} arg5.view.writes (Elt F) f L)) -∗ K ⟨⟩))
          ⊢ wp frame (wpE (defs₀ (F := F)) Variants.none c none) E (cc1__attn_kernel i arg2 harg2 arg3 harg3 arg4 harg4 arg5 harg5) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0
    obtain rfl := harg3.eq_unread hf1
    obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Attn

end
-- ==== Proof.AttnBits.lean ====
/-
  The second region: attention. One grid point holds one batch's 256 query rows against that batch's 2048 key and value
  rows; for each of the 16 heads the scores are the query rows against the key rows over the head's 64 features, scaled,
  normalised along the keys by the exponential of the difference from the row's maximum over the row's sum of those, and
  multiplied into the value rows; the 16 heads' 64 columns are laid side by side in the 1024 result columns.
-/
import proofs.«140581_j58600533786988_2_alg».proof.Proof.Gen.Kernel.Launch
import proofs.«140581_j58600533786988_2_alg».proof.Proof.Gen.Kernel.Skeleton
import proofs.«140581_j58600533786988_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«140581_j58600533786988_2_alg».proof.Proof.AttnRunBits

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What the body leaves in the result buffer -/

/-- The result window's staging view (either buffer: the contents read back do not depend on which). -/
abbrev VO : View sig .tc .vmem S1x256x1024 .bf16 := (Memref.whole cc1_stg3_0 : Memref sig .tc .vmem S1x256x1024 .bf16).view

/-- The run's pieces tile the result block, so they cover it. -/
theorem attn_cover (c : Dev nD) (i : grid1.Coords)
    (arg2 : Memref sig .tc .vmem S1x256x1x16x64 .bf16) (harg2 : arg2.IsWhole)
    (arg3 : Memref sig .tc .vmem S1x2048x1x16x64 .bf16) (harg3 : arg3.IsWhole)
    (arg4 : Memref sig .tc .vmem S1x2048x1x16x64 .bf16) (harg4 : arg4.IsWhole)
    (arg5 : Memref sig .tc .vmem S1x256x1024 .bf16) (harg5 : arg5.IsWhole)
    (xq : Vec F S1x256x1x16x64 .bf16) (xk : Vec F S1x2048x1x16x64 .bf16) (xv : Vec F S1x2048x1x16x64 .bf16) (y : S1x256x1024.Idx) :
    ∃ pc ∈ (attnRun c i arg2 harg2 arg3 harg3 arg4 harg4 arg5 harg5 xq xk xv).1, y ∈ pc.1.set :=
  View.cover_of_tiledL (attnRun c i arg2 harg2 arg3 harg3 arg4 harg4 arg5 harg5 xq xk xv).1 S1x256x1024.size (by sl_kernel_rfl) y

/-- What one grid point leaves in the result block: the run's pieces read back. -/
def attnOut (c : Dev nD) (i : grid1.Coords)
    (arg2 : Memref sig .tc .vmem S1x256x1x16x64 .bf16) (harg2 : arg2.IsWhole)
    (arg3 : Memref sig .tc .vmem S1x2048x1x16x64 .bf16) (harg3 : arg3.IsWhole)
    (arg4 : Memref sig .tc .vmem S1x2048x1x16x64 .bf16) (harg4 : arg4.IsWhole)
    (arg5 : Memref sig .tc .vmem S1x256x1024 .bf16) (harg5 : arg5.IsWhole)
    (xq : Vec F S1x256x1x16x64 .bf16) (xk : Vec F S1x2048x1x16x64 .bf16) (xv : Vec F S1x2048x1x16x64 .bf16) : Vec F S1x256x1024 .bf16 :=
  VO.read (Elt F) (VO.writes (Elt F) VO.junk (attnRun c i arg2 harg2 arg3 harg3 arg4 harg4 arg5 harg5 xq xk xv).1)

/-! ## The proof data at the contents `V` the region is entered with -/

section Data
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What point `t` leaves in the result block, at the point's staging buffers and input blocks. -/
def outAt (c : Dev nD) (t : Fin cfg1.N) : Vec F S1x256x1024 .bf16 :=
  attnOut c (grid1.coords t) (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_3.stage (cfg1.slots t 3)) (hstage1_3 ((cfg1.slots t 3).cast nbuf1_3))
    (iblk V c 0 t) (iblk V c 1 t) (iblk V c 2 t)

/-- The three input windows read ONE array (the projection's result): each holds a third part of it — the left half, and
    the two halves of the right half. -/
def qShare : Fin cfg1.W → PosShare TreeShare
  | ⟨0, _⟩ => fullShare.left
  | ⟨1, _⟩ => fullShare.right.left
  | ⟨2, _⟩ => fullShare.right.right
  | ⟨3, _⟩ => fullShare

/-- After the body at point `t`: the query, key and value buffers still hold their blocks, the result's holds `outAt`. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outAt V c t
  Φ _ := Pipeline.ΦA spec1 c
  q := qShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = outAt V c t := by dsimp only [dat]

/-- An input's staging buffer holds its block at every point, whether or not the point fetched it. -/
theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).Φ t.succ = (dat V c).Φ t.castSucc from rfl,
    show (dat V c).owesAt () t.succ = (dat V c).owesAt () t.castSucc from rfl,
    after_0, after_1, after_2, after_3]
  unfold outAt attnOut
  iintro ⟨HΦ, Ho, ⟨%d0, H0⟩, ⟨%d1, H1⟩, ⟨%d2, H2⟩, ⟨%d3, H3⟩⟩
  iapply ((attnRun c (grid1.coords t) _ _ _ _ _ _ _ _ (iblk V c 0 t) (iblk V c 1 t) (iblk V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (attn_cover c _ _ _ _ _ _ _ _ _ _ _ _)

/-- The library's body obligation, at every point. -/
theorem body_obligation (c : Dev nD) : BodyObligation (dat (F := F) V c) (defs₀ (F := F)) Variants.none () Set.univ := fun t => by
  rw [bigSep_W1, bigSep_W1]
  exact sound_body V c t

end Data

end Cert.Kernel.Attn

end
-- ==== Proof.OutProjBits.lean ====
/-
  The third region: the output projection — one 512×1024 block of the result per grid point, the point's 512 rows of the
  attention output against all 1024 rows of the projection weight, contracted over the 1024 features, plus the bias.
-/
import proofs.«140581_j58600533786988_2_alg».proof.Proof.Gen.Kernel.Launch
import proofs.«140581_j58600533786988_2_alg».proof.Proof.Gen.Kernel.Skeleton
import proofs.«140581_j58600533786988_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.OutProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
/-- The body's accesses: the whole 512×1024 row block, the whole 1024×1024 weight block, the whole 1×1024 bias row, the
    whole 512×1024 result block. -/
abbrev rA : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0
abbrev rB : Rect S1x1024 := Rect.unit (s := S1x1024) ![0, 0] S1x1024.size inb_S1x1024_S1x1024_0_0

/-- What one grid point leaves in the result block: the row block times the transposed weight block, plus the bias row
    on every row. -/
def outBlk (a : Vec F S512x1024 .bf16) (w : Vec F S1024x1024 .f32) (b : Vec F S1x1024 .f32) : Vec F S512x1024 .f32 :=
  View.canon [⟨rA, k2_pay1 (View.ld a rA) (View.ld w rW) (View.ld b rB)⟩]

theorem outBlk_cover (p : Vec F S512x1024 .f32) (y : S512x1024.Idx) :
    ∃ pc ∈ ([⟨rA, p⟩] : List (View.Piece (Elt F) S512x1024 .f32)), y ∈ pc.1.set :=
  View.cover_of_tiled [⟨rA, p⟩] S512x1024.size (by rfl) y

set_option maxHeartbeats 1000000 in
/-- The body on whole staging buffers: the three inputs are read and kept, the result buffer (whatever it held) ends
    at `outBlk` of the inputs. -/
theorem sound_mm (c : Dev nD) (E : Set ℕ) (i : grid2.Coords)
    (arg2 : Memref sig .tc .vmem S512x1024 .bf16) (harg2 : arg2.IsWhole)
    (arg3 : Memref sig .tc .vmem S1024x1024 .f32) (harg3 : arg3.IsWhole)
    (arg4 : Memref sig .tc .vmem S1x1024 .f32) (harg4 : arg4.IsWhole)
    (arg5 : Memref sig .tc .vmem S512x1024 .f32) (harg5 : arg5.IsWhole)
    (a : Vec F S512x1024 .bf16) (w : Vec F S1024x1024 .f32) (b : Vec F S1x1024 .f32) (K : PUnit → sProp 𝕄) :
    iprop(owns (c : Thread nD τ) arg2 fullShare a ∗ owns (c : Thread nD τ) arg3 fullShare w
        ∗ owns (c : Thread nD τ) arg4 fullShare b
        ∗ (∃ d, owns (c : Thread nD τ) arg5 fullShare d)
        ∗ (iprop(owns (c : Thread nD τ) arg2 fullShare a ∗ owns (c : Thread nD τ) arg3 fullShare w
            ∗ owns (c : Thread nD τ) arg4 fullShare b
            ∗ owns (c : Thread nD τ) arg5 fullShare (outBlk a w b)) -∗ K ⟨⟩))
      ⊢ wp frame (wpE (defs₀ (F := F)) Variants.none c none) E (cc2__mm_bias_kernel i arg2 harg2 arg3 harg3 arg4 harg4 arg5 harg5) K := by
  simp only [cc2__mm_bias_kernel_eq_skeleton]; unfold cc2__mm_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outBlk_cover _)

/-! ## The proof data at the contents `V` the region is entered with -/

section Data
variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- After the body at point `t`: the three inputs' buffers still hold their blocks, the result's holds `outBlk` of them. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => outBlk (iblk V c 0 t) (iblk V c 1 t) (iblk V c 2 t)
  Φ _ := Pipeline.ΦA spec2 c
  q _ := fullShare
  owed _ := 0

theorem A_eq (c : Dev nD) (w : Fin cfg2.W) : (dat V c).A w = V c (Pipeline.arrRef spec2 w) := by
  dsimp only [dat]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = outBlk (iblk V c 0 t) (iblk V c 1 t) (iblk V c 2 t) := by dsimp only [dat]

/-- An input's staging buffer holds its block at every point, whether or not the point fetched it. -/
theorem before_0 (c : Dev nD) (t : Fin cfg2.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg2.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg2.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-- What the body is called with at point `t`, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t))

theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_mm c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W2, bigSep_W2]
  exact sound_body V c t

end Data

end Cert.Kernel.OutProj

end
-- ==== Proof.RunBits.lean ====
/-
  The whole program as three regions among reshapes: the arrays between the regions, each region entered from the
  buffers' contents before it and left at the contents with its result array written, and the run of @main.
-/
import proofs.«140581_j58600533786988_2_alg».proof.Proof.Gen.Kernel.Regions
import proofs.«140581_j58600533786988_2_alg».proof.Proof.QkvProjBits
import proofs.«140581_j58600533786988_2_alg».proof.Proof.AttnBits
import proofs.«140581_j58600533786988_2_alg».proof.Proof.OutProjBits

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The arrays between the regions

The program is: reshape the tokens to [4096, 1024]; project (region 0); reshape the projection to
[2, 2048, 3, 16, 64]; attend (region 1); reshape the heads' outputs to [4096, 1024] and the bias to [1, 1024]; project out
(region 2); reshape to [2, 2048, 1024]. Each region's result array ends at what its grid points wrote back. -/

/-- The buffers' contents when region 0 is entered, read at the TensorCore's references. -/
abbrev U1 : (c : Dev nD) → (b : Ref sig .tc) → Buf (Elt F) ((c : Thread nD τ).loc b) := fun c b => V1 m c b
/-- What region 0 leaves in the projection's array. -/
def o1 (c : Dev nD) : Buf (Elt F) ((c : Thread nD τ).loc main_v1) := (QkvProj.dat (U1 m) c).arrAt 2 cfg0.N
/-- The buffers after region 0, then after the reshape to five axes (region 1's entry). -/
abbrev W2 (c : Dev nD) : Valuation τ sig (Elt F) := Function.update (V1 m c) main_v1 (o1 m c)
abbrev W3 (c : Dev nD) : Valuation τ sig (Elt F) := StableHlo.after hostOps1 (W2 m c)
abbrev U3 : (c : Dev nD) → (b : Ref sig .tc) → Buf (Elt F) ((c : Thread nD τ).loc b) := fun c b => W3 m c b
/-- What region 1 leaves in the attention output's array. -/
def o3 (c : Dev nD) : Buf (Elt F) ((c : Thread nD τ).loc main_v3) := (Attn.dat (U3 m) c).arrAt 3 cfg1.N
abbrev W4 (c : Dev nD) : Valuation τ sig (Elt F) := Function.update (W3 m c) main_v3 (o3 m c)
abbrev W5 (c : Dev nD) : Valuation τ sig (Elt F) := StableHlo.after hostOps2 (W4 m c)
abbrev U5 : (c : Dev nD) → (b : Ref sig .tc) → Buf (Elt F) ((c : Thread nD τ).loc b) := fun c b => W5 m c b
/-- What region 2 leaves in the result's array. -/
def o6 (c : Dev nD) : Buf (Elt F) ((c : Thread nD τ).loc main_v6) := (OutProj.dat (U5 m) c).arrAt 3 cfg2.N
abbrev W6 (c : Dev nD) : Valuation τ sig (Elt F) := Function.update (W5 m c) main_v6 (o6 m c)
abbrev W7 (c : Dev nD) : Valuation τ sig (Elt F) := StableHlo.after hostOps3 (W6 m c)

/-- The regions' results as the family the conditional frame is stated over: a reference's contents after any item are
    the region's result if the reference is a region's result array (the launch contents elsewhere: never read). -/
def outs : Outs (F := F) := fun _ r c =>
  if h1 : r = main_v1 then h1 ▸ o1 m c
  else if h3 : r = main_v3 then h3 ▸ o3 m c
  else if h6 : r = main_v6 then h6 ▸ o6 m c
  else m ((c : Thread nD τ).loc r)

theorem outs_v1 (J : ℕ) (c : Dev nD) : outs m J main_v1 c = o1 m c := by
  unfold outs; rw [dif_pos rfl]
theorem outs_v3 (J : ℕ) (c : Dev nD) : outs m J main_v3 c = o3 m c := by
  unfold outs; rw [dif_neg (by decide), dif_pos rfl]
theorem outs_v6 (J : ℕ) (c : Dev nD) : outs m J main_v6 c = o6 m c := by
  unfold outs; rw [dif_neg (by decide), dif_neg (by decide), dif_pos rfl]

theorem V2_eq (c : Dev nD) : V2 m (outs m) c = W2 m c := by
  show Function.update (V1 m c) main_v1 (outs m 2 main_v1 c) = _; rw [outs_v1]
theorem V3_eq (c : Dev nD) : V3 m (outs m) c = W3 m c := by
  show StableHlo.after hostOps1 (V2 m (outs m) c) = _; rw [V2_eq]
theorem V4_eq (c : Dev nD) : V4 m (outs m) c = W4 m c := by
  show Function.update (V3 m (outs m) c) main_v3 (outs m 4 main_v3 c) = _; rw [outs_v3, V3_eq]
theorem V5_eq (c : Dev nD) : V5 m (outs m) c = W5 m c := by
  show StableHlo.after hostOps2 (V4 m (outs m) c) = _; rw [V4_eq]
theorem V6_eq (c : Dev nD) : V6 m (outs m) c = W6 m c := by
  show Function.update (V5 m (outs m) c) main_v6 (outs m 6 main_v6 c) = _; rw [outs_v6, V5_eq]
theorem V7_eq (c : Dev nD) : V7 m (outs m) c = W7 m c := by
  show StableHlo.after hostOps3 (V6 m (outs m) c) = _; rw [V6_eq]

theorem W2_of (c : Dev nD) (r : Ref sig .tc) (h : r ≠ main_v1) : W2 m c r = V1 m c r := by
  simp only [W2, Function.update_of_ne (StableHlo.devRef_ne_of_ne h : (Proc.devRef .tc r : DevRef τ sig) ≠ Proc.devRef .tc main_v1)]
theorem W2_self (c : Dev nD) : W2 m c main_v1 = o1 m c := by
  simp only [W2, Function.update_self]
theorem W4_of (c : Dev nD) (r : Ref sig .tc) (h : r ≠ main_v3) : W4 m c r = W3 m c r := by
  simp only [W4, Function.update_of_ne (StableHlo.devRef_ne_of_ne h : (Proc.devRef .tc r : DevRef τ sig) ≠ Proc.devRef .tc main_v3)]
theorem W4_self (c : Dev nD) : W4 m c main_v3 = o3 m c := by
  simp only [W4, Function.update_self]
theorem W6_of (c : Dev nD) (r : Ref sig .tc) (h : r ≠ main_v6) : W6 m c r = W5 m c r := by
  simp only [W6, Function.update_of_ne (StableHlo.devRef_ne_of_ne h : (Proc.devRef .tc r : DevRef τ sig) ≠ Proc.devRef .tc main_v6)]
theorem W6_self (c : Dev nD) : W6 m c main_v6 = o6 m c := by
  simp only [W6, Function.update_self]

/-! ## The proof data family and what rides beside the buffers -/

/-- Every region's proof data, each at its region's entry contents. -/
def pdats : (p : Fin 3) → (c : Dev nD) → Dat τ (Elt F) Unit ℕ (UR sig nD τ) ℕ (cfgs p) c
  | ⟨0, _⟩ => fun c => QkvProj.dat (U1 m) c
  | ⟨1, _⟩ => fun c => Attn.dat (U3 m) c
  | ⟨2, _⟩ => fun c => OutProj.dat (U5 m) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers, through every item: the generator register at some state, and nothing owed. -/
abbrev R (c : Dev nD) : sProp 𝕄 := iprop((∃ r, prngReg c r) ∗ ∃ W, owes (c : Thread nD τ) (0 : CellTallies nD τ sig Unit) W)
abbrev E : Fin 4 → Dev nD → sProp 𝕄 := fun _ c => R (F := F) c

/-! ## Region 0 -/

theorem hF0 (c : Dev nD) (w : Fin cfg0.W) : (QkvProj.dat (U1 m) c).arrAt w cfg0.N = W2 m c (Pipeline.arrRef spec0 w) := by
  match w with
  | ⟨0, _⟩ => exact ((QkvProj.dat (U1 m) c).arrAt_in 0 rfl _).trans ((QkvProj.A_eq (U1 m) c 0).trans (W2_of m c _ (by decide)).symm)
  | ⟨1, _⟩ => exact ((QkvProj.dat (U1 m) c).arrAt_in 1 rfl _).trans ((QkvProj.A_eq (U1 m) c 1).trans (W2_of m c _ (by decide)).symm)
  | ⟨2, _⟩ => exact (W2_self m c).symm

theorem hrest0 (c : Dev nD) : ∀ b : Ref sig .tc, b ∉ Finset.univ.image (Pipeline.arrRef spec0) → W2 m c b = V1 m c b :=
  fun b hb => W2_of m c b fun e => hb (Finset.mem_image.mpr ⟨2, Finset.mem_univ _, e.symm⟩)

set_option backward.isDefEq.respectTransparency.types false in
/-- Region 0 between the buffers at `V1` and at `W2`: its three arrays are taken out of the buffers at entry and put back,
    the result array at what the grid points wrote, at exit; the generator register goes through the invariant. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (QkvProj.body_obligation (U1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (fun b => W2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1: three windows on one array

The query, key and value windows all read the projection's array. The array, held whole, is dealt to the three windows in
three parts of its share — the left half, and the two halves of the right half — and collected again at the end: no
window writes it, so the three parts still hold the same contents. -/

/-- A buffer held whole is the same buffer held in the three parts of the whole share. -/
theorem thirds {ℓ : Loc nD τ sig} (f : Buf (Elt F) ℓ) :
    (ℓ ↦{fullShare} f : sProp 𝕄) ⊣⊢ iprop((ℓ ↦{fullShare.left} f) ∗ (ℓ ↦{fullShare.right.left} f) ∗ (ℓ ↦{fullShare.right.right} f)) :=
  (pointsTo_share (PosShare.mem_left_op_right fullShare)).trans
    ⟨sep_mono .rfl (pointsTo_share (PosShare.mem_left_op_right fullShare.right)).1,
     sep_mono .rfl (pointsTo_share (PosShare.mem_left_op_right fullShare.right)).2⟩

/-- Region 1's arrays at contents `Fa`, window by window. -/
theorem arrays1_eq (c : Dev nD) (Fa : (w : Fin cfg1.W) → Buf (Elt F) ((cfg1.win w).arr.view.loc (c : Thread nD τ))) :
    ((Attn.dat (U3 m) c).arrays Fa : sProp 𝕄)
      = iprop((((c : Thread nD τ).loc main_v2) ↦{fullShare.left} Fa 0) ∗ (((c : Thread nD τ).loc main_v2) ↦{fullShare.right.left} Fa 1)
          ∗ (((c : Thread nD τ).loc main_v2) ↦{fullShare.right.right} Fa 2) ∗ (((c : Thread nD τ).loc main_v3) ↦{fullShare} Fa 3)) := by
  unfold Dat.arrays
  rw [bigSep_W1, (arr_whole1 0).set_eq_univ, (arr_whole1 3).set_eq_univ]
  rfl

/-- The two buffers behind region 1's four windows, each whole. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v2) ↦{fullShare} V main_v2) ∗ (((c : Thread nD τ).loc main_v3) ↦{fullShare} V main_v3)) := by
  unfold Pipeline.arrBufs
  rw [bigSep_eq_bigSepL_of_eq [main_v2, main_v3] (by decide) (by decide)]
  rfl

/-- ENTRY: the buffers at `W3` are region 1's arrays at their entry contents, beside the rest. -/
theorem hsplit1 (c : Dev nD) :
    (StableHlo.held (c : Thread nD τ) (Pipeline.ucRefs τ sig) (W3 m c) : sProp 𝕄)
      ⊢ iprop((Attn.dat (U3 m) c).arrays ((Attn.dat (U3 m) c).arrAt · 0)
          ∗ Pipeline.unscopedRest (Ix := Unit) (Name := ℕ) (U := UR sig nD τ) (Lvl := ℕ) spec1 c (U3 m c)) := by
  have hs : (unscopedBufs c (U3 m c) : sProp 𝕄)
      = iprop(Pipeline.arrBufs (Ix := Unit) (Name := ℕ) (U := UR sig nD τ) (Lvl := ℕ) spec1 c (U3 m c)
          ∗ Pipeline.unscopedRest (Ix := Unit) (Name := ℕ) (U := UR sig nD τ) (Lvl := ℕ) spec1 c (U3 m c)) :=
    Pipeline.unscopedBufs_split₀ (Ix := Unit) (Name := ℕ) (U := UR sig nD τ) (Lvl := ℕ) cfgs 1 winFacts₀1.arr_unscoped c (U3 m c)
  rw [← Pipeline.unscopedBufs_held c (W3 m c), hs, arrBufs1_eq, arrays1_eq]
  iintro ⟨⟨H2, H3⟩, Hr⟩
  isplitr [Hr]
  swap; · iexact Hr
  ihave H := (thirds (F := F) (U3 m c main_v2)).1 $$ H2
  icases H with ⟨Ha, Hb, Hc⟩
  isplitl [Ha]; · iexact Ha
  isplitl [Hb]; · iexact Hb
  isplitl [Hc]; · iexact Hc
  iexact H3

/-- EXIT: region 1's arrays at their final contents, beside the rest, are the buffers at `W4`. -/
theorem hjoin1 (c : Dev nD) :
    iprop((Attn.dat (U3 m) c).arrays ((Attn.dat (U3 m) c).arrAt · cfg1.N)
        ∗ Pipeline.unscopedRest (Ix := Unit) (Name := ℕ) (U := UR sig nD τ) (Lvl := ℕ) spec1 c (U3 m c))
      ⊢ (StableHlo.held (c : Thread nD τ) (Pipeline.ucRefs τ sig) (W4 m c) : sProp 𝕄) := by
  have hs : (unscopedBufs c (fun b => W4 m c b) : sProp 𝕄)
      = iprop(Pipeline.arrBufs (Ix := Unit) (Name := ℕ) (U := UR sig nD τ) (Lvl := ℕ) spec1 c (fun b => W4 m c b)
          ∗ Pipeline.unscopedRest (Ix := Unit) (Name := ℕ) (U := UR sig nD τ) (Lvl := ℕ) spec1 c (fun b => W4 m c b)) :=
    Pipeline.unscopedBufs_split₀ (Ix := Unit) (Name := ℕ) (U := UR sig nD τ) (Lvl := ℕ) cfgs 1 winFacts₀1.arr_unscoped c (fun b => W4 m c b)
  have hrest : (Pipeline.unscopedRest (Ix := Unit) (Name := ℕ) (U := UR sig nD τ) (Lvl := ℕ) spec1 c (fun b => W4 m c b) : sProp 𝕄)
      = Pipeline.unscopedRest (Ix := Unit) (Name := ℕ) (U := UR sig nD τ) (Lvl := ℕ) spec1 c (U3 m c) := by
    unfold Pipeline.unscopedRest
    exact bigSep_congr fun b hb => by
      show ((((c : Thread nD τ).loc b) ↦{fullShare} W4 m c b : sProp 𝕄)) = _
      rw [W4_of m c b fun e => (Finset.mem_sdiff.mp hb).2 (Finset.mem_image.mpr ⟨3, Finset.mem_univ _, e.symm⟩)]
  have e0 : (Attn.dat (U3 m) c).arrAt 0 cfg1.N = U3 m c main_v2 := ((Attn.dat (U3 m) c).arrAt_in 0 rfl _).trans (Attn.A_eq (U3 m) c 0)
  have e1 : (Attn.dat (U3 m) c).arrAt 1 cfg1.N = U3 m c main_v2 := ((Attn.dat (U3 m) c).arrAt_in 1 rfl _).trans (Attn.A_eq (U3 m) c 1)
  have e2 : (Attn.dat (U3 m) c).arrAt 2 cfg1.N = U3 m c main_v2 := ((Attn.dat (U3 m) c).arrAt_in 2 rfl _).trans (Attn.A_eq (U3 m) c 2)
  rw [← Pipeline.unscopedBufs_held c (W4 m c), hs, hrest, arrBufs1_eq, arrays1_eq, e0, e1, e2,
    W4_of m c main_v2 (by decide), W4_self]
  iintro ⟨⟨Ha, Hb, Hc, H3⟩, Hr⟩
  isplitr [Hr]
  swap; · iexact Hr
  isplitr [H3]
  swap; · iexact H3
  iapply (thirds (F := F) (U3 m c main_v2)).2
  isplitl [Ha]; · iexact Ha
  isplitl [Hb]; · iexact Hb
  iexact Hc

set_option backward.isDefEq.respectTransparency.types false in
/-- Region 1 between the buffers at `W3` and at `W4`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Attn.body_obligation (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    iintro ⟨⟨Hub, Hp, HO⟩, -, -⟩
    ihave H := hsplit1 m c $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hj : iprop((pdats m 1 c).arrays ((pdats m 1 c).arrAt · cfg1.N)
          ∗ Pipeline.unscopedRest (Ix := Unit) (Name := ℕ) (U := UR sig nD τ) (Lvl := ℕ) spec1 c (U3 m c))
        ⊢ (StableHlo.held (c : Thread nD τ) (Pipeline.ucRefs τ sig) (W4 m c) : sProp 𝕄) := hjoin1 m c
    iintro ⟨Ha, HO, HY, Hrest⟩
    imodintro
    isplitl [Ha Hrest]
    · iapply hj; isplitl [Ha] <;> iassumption
    isplitl [HY]; · iexact HY
    unfold Pipeline.Dat.owesAt Pipeline.owesWithin
    icases HO with ⟨%W, -, HO⟩; iexists W; iexact HO

/-! ## Region 2 -/

theorem hF2 (c : Dev nD) (w : Fin cfg2.W) : (OutProj.dat (U5 m) c).arrAt w cfg2.N = W6 m c (Pipeline.arrRef spec2 w) := by
  match w with
  | ⟨0, _⟩ => exact ((OutProj.dat (U5 m) c).arrAt_in 0 rfl _).trans ((OutProj.A_eq (U5 m) c 0).trans (W6_of m c _ (by decide)).symm)
  | ⟨1, _⟩ => exact ((OutProj.dat (U5 m) c).arrAt_in 1 rfl _).trans ((OutProj.A_eq (U5 m) c 1).trans (W6_of m c _ (by decide)).symm)
  | ⟨2, _⟩ => exact ((OutProj.dat (U5 m) c).arrAt_in 2 rfl _).trans ((OutProj.A_eq (U5 m) c 2).trans (W6_of m c _ (by decide)).symm)
  | ⟨3, _⟩ => exact (W6_self m c).symm

theorem hrest2 (c : Dev nD) : ∀ b : Ref sig .tc, b ∉ Finset.univ.image (Pipeline.arrRef spec2) → W6 m c b = W5 m c b :=
  fun b hb => W6_of m c b fun e => hb (Finset.mem_image.mpr ⟨3, Finset.mem_univ _, e.symm⟩)

set_option backward.isDefEq.respectTransparency.types false in
/-- Region 2 between the buffers at `W5` and at `W6`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (OutProj.body_obligation (U5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U5 m c) (fun b => W6 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its seven items, and the run -/

/-- A stretch of host operations as an item: over the unscoped buffers from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The seven items in order: reshape, region 0, reshape, region 1, two reshapes, region 2, reshape. -/
abbrev items : List (Pipeline.Seg (pcfgs (F := F)) adm (pdats m) () defs₀ 𝒱₀ L lv) :=
  [ .host (hseg hostOps0 hostOps0_sub hostOps0_fresh (V0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

theorem main_items (c : Dev nD) : main (F := F) c = Pipeline.Seg.run (items m) := (main_chain c).trans (by chain_rfl)

/-- An unscoped TensorCore reference is among those the items hold. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

variable (ρ : Dev nD → PrngReg)

set_option backward.isDefEq.respectTransparency.types false in
/-- THE RUN: from any memory with zero counters every weakly fair execution of @main terminates, nothing faulting, and
    the final memory holds every unscoped buffer at the last contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (W7 m c) ∗ ∃ r, prngReg c r))
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-! ## What the run says of the arguments and of the result -/

theorem W7_arg0 (c : Dev nD) : W7 m c main_arg0 = m ((c : Thread nD τ).loc main_arg0) :=
  (congrFun (V7_eq m c) _).symm.trans (V7_main_arg0 m (outs m) c)
theorem W7_arg1 (c : Dev nD) : W7 m c main_arg1 = m ((c : Thread nD τ).loc main_arg1) :=
  (congrFun (V7_eq m c) _).symm.trans (V7_main_arg1 m (outs m) c)
theorem W7_arg2 (c : Dev nD) : W7 m c main_arg2 = m ((c : Thread nD τ).loc main_arg2) :=
  (congrFun (V7_eq m c) _).symm.trans (V7_main_arg2 m (outs m) c)
theorem W7_arg3 (c : Dev nD) : W7 m c main_arg3 = m ((c : Thread nD τ).loc main_arg3) :=
  (congrFun (V7_eq m c) _).symm.trans (V7_main_arg3 m (outs m) c)

/-- The run ends with the result array at `W7`'s and every argument array as launched. -/
theorem run_result : θ_run defs (onTc (τ := τ) (main (F := F))) ⟨m, fun _ => 0, ρ⟩ (fun r => ∀ c : Dev nD,
      r.2.mem ((c.tc : Thread nD τ).loc main_v7) = W7 m c main_v7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v7 (by decide)),
     (h c _ (mem_uc main_arg0 (by decide))).trans (W7_arg0 m c),
     (h c _ (mem_uc main_arg1 (by decide))).trans (W7_arg1 m c),
     (h c _ (mem_uc main_arg2 (by decide))).trans (W7_arg2 m c),
     (h c _ (mem_uc main_arg3 (by decide))).trans (W7_arg3 m c)⟩) (run_all m ρ)

/-- The frame: the run ends with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_result m ρ)

end Cert.Kernel.Run

end
-- ==== Proof.QkvProj.lean ====
/-
  The first region: the projection of the 4096 token rows onto the 3072 query/key/value columns, one 512×1024 block
  of the result per grid point — the point's 512 rows of the input against the point's 1024 rows of the weight,
  contracted over the 1024 features.
-/
import proofs.«140581_j58600533786988_2_alg».proof.Proof.Gen.KernelIdeal.Launch
import proofs.«140581_j58600533786988_2_alg».proof.Proof.Gen.KernelIdeal.Skeleton
import proofs.«140581_j58600533786988_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.QkvProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
/-- The projection body's three accesses: the whole 512×1024 row block, the whole 1024×1024 weight block, the
    whole 512×1024 result block. -/
abbrev rA : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0

/-- What one grid point leaves in the result block: the row block times the transposed weight block. -/
def outBlk (a : Vec F S512x1024 .f32) (w : Vec F S1024x1024 .f32) : Vec F S512x1024 .bf16 :=
  View.canon [⟨rA, k0_pay1 (View.ld a rA) (View.ld w rW)⟩]

theorem outBlk_cover (p : Vec F S512x1024 .bf16) (y : S512x1024.Idx) :
    ∃ pc ∈ ([⟨rA, p⟩] : List (View.Piece (Elt F) S512x1024 .bf16)), y ∈ pc.1.set :=
  View.cover_of_tiled [⟨rA, p⟩] S512x1024.size (by rfl) y

set_option maxHeartbeats 1000000 in
/-- The body on whole staging buffers: the two inputs are read and kept, the result buffer (whatever it held) ends
    at `outBlk` of the inputs. -/
theorem sound_mm (c : Dev nD) (E : Set ℕ) (i : grid0.Coords)
    (arg2 : Memref sig .tc .vmem S512x1024 .f32) (harg2 : arg2.IsWhole)
    (arg3 : Memref sig .tc .vmem S1024x1024 .f32) (harg3 : arg3.IsWhole)
    (arg4 : Memref sig .tc .vmem S512x1024 .bf16) (harg4 : arg4.IsWhole)
    (a : Vec F S512x1024 .f32) (w : Vec F S1024x1024 .f32) (K : PUnit → sProp 𝕄) :
    iprop(owns (c : Thread nD τ) arg2 fullShare a ∗ owns (c : Thread nD τ) arg3 fullShare w
        ∗ (∃ d, owns (c : Thread nD τ) arg4 fullShare d)
        ∗ (iprop(owns (c : Thread nD τ) arg2 fullShare a ∗ owns (c : Thread nD τ) arg3 fullShare w
            ∗ owns (c : Thread nD τ) arg4 fullShare (outBlk a w)) -∗ K ⟨⟩))
      ⊢ wp frame (wpE (defs₀ (F := F)) Variants.none c none) E (cc0__mm_kernel i arg2 harg2 arg3 harg3 arg4 harg4) K := by
  simp only [cc0__mm_kernel_eq_skeleton]; unfold cc0__mm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outBlk_cover _)

/-! ## The proof data at the contents `V` the region is entered with -/

section Data
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- After the body at point `t`: the two inputs' buffers still hold their blocks, the result's holds `outBlk` of them. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => outBlk (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = outBlk (iblk V c 0 t) (iblk V c 1 t) := by dsimp only [dat]

/-- An input's staging buffer holds its block at every point, whether or not the point fetched it: a point that
    does not fetch has the block index of the point before. -/
theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_mm c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W0, bigSep_W0]
  exact sound_body V c t

end Data

end Cert.KernelIdeal.QkvProj

end
-- ==== Proof.AttnRun.lean ====
/-
  The second region: attention. One grid point holds one batch's 256 query rows against that batch's 2048 key and value
  rows; for each of the 16 heads the scores are the query rows against the key rows over the head's 64 features, scaled,
  normalised along the keys by the exponential of the difference from the row's maximum over the row's sum of those, and
  multiplied into the value rows; the 16 heads' 64 columns are laid side by side in the 1024 result columns.
-/
import proofs.«140581_j58600533786988_2_alg».proof.Proof.Gen.KernelIdeal.Launch
import proofs.«140581_j58600533786988_2_alg».proof.Proof.Gen.KernelIdeal.Skeleton
import proofs.«140581_j58600533786988_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- What the body's one store leaves in the result buffer, as pieces, with the proof that on whole staging buffers — the
    query, key and value blocks at their contents, the result's at anything — the body runs to the continuation holding
    the three inputs as they were and the result buffer with those pieces written. The pieces are found by the run. -/
noncomputable def attnRun (c : Dev nD) (i : grid1.Coords)
    (arg2 : Memref sig .tc .vmem S1x256x1x16x64 .bf16) (harg2 : arg2.IsWhole)
    (arg3 : Memref sig .tc .vmem S1x2048x1x16x64 .bf16) (harg3 : arg3.IsWhole)
    (arg4 : Memref sig .tc .vmem S1x2048x1x16x64 .bf16) (harg4 : arg4.IsWhole)
    (arg5 : Memref sig .tc .vmem S1x256x1024 .bf16) (harg5 : arg5.IsWhole)
    (xq : Vec F S1x256x1x16x64 .bf16) (xk : Vec F S1x2048x1x16x64 .bf16) (xv : Vec F S1x2048x1x16x64 .bf16) :
    { L : List (View.Piece (Elt F) S1x256x1024 .bf16) //
      ∀ (E : Set ℕ) (K : PUnit → sProp 𝕄),
        iprop(owns (c : Thread nD τ) arg2 fullShare xq ∗ owns (c : Thread nD τ) arg3 fullShare xk
            ∗ owns (c : Thread nD τ) arg4 fullShare xv ∗ (∃ d, owns (c : Thread nD τ) arg5 fullShare d)
            ∗ (iprop(owns (c : Thread nD τ) arg2 fullShare xq ∗ owns (c : Thread nD τ) arg3 fullShare xk
                ∗ owns (c : Thread nD τ) arg4 fullShare xv
                ∗ (∃ f, arg5.view.loc (c : Thread nD τ) ↦[arg5.view.set]{fullShare} arg5.view.writes (Elt F) f L)) -∗ K ⟨⟩))
          ⊢ wp frame (wpE (defs₀ (F := F)) Variants.none c none) E (cc1__attn_kernel i arg2 harg2 arg3 harg3 arg4 harg4 arg5 harg5) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0
    obtain rfl := harg3.eq_unread hf1
    obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Attn

end
-- ==== Proof.Attn.lean ====
/-
  The second region: attention. One grid point holds one batch's 256 query rows against that batch's 2048 key and value
  rows; for each of the 16 heads the scores are the query rows against the key rows over the head's 64 features, scaled,
  normalised along the keys by the exponential of the difference from the row's maximum over the row's sum of those, and
  multiplied into the value rows; the 16 heads' 64 columns are laid side by side in the 1024 result columns.
-/
import proofs.«140581_j58600533786988_2_alg».proof.Proof.Gen.KernelIdeal.Launch
import proofs.«140581_j58600533786988_2_alg».proof.Proof.Gen.KernelIdeal.Skeleton
import proofs.«140581_j58600533786988_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«140581_j58600533786988_2_alg».proof.Proof.AttnRun

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What the body leaves in the result buffer -/

/-- The result window's staging view (either buffer: the contents read back do not depend on which). -/
abbrev VO : View sig .tc .vmem S1x256x1024 .bf16 := (Memref.whole cc1_stg3_0 : Memref sig .tc .vmem S1x256x1024 .bf16).view

/-- The run's pieces tile the result block, so they cover it. -/
theorem attn_cover (c : Dev nD) (i : grid1.Coords)
    (arg2 : Memref sig .tc .vmem S1x256x1x16x64 .bf16) (harg2 : arg2.IsWhole)
    (arg3 : Memref sig .tc .vmem S1x2048x1x16x64 .bf16) (harg3 : arg3.IsWhole)
    (arg4 : Memref sig .tc .vmem S1x2048x1x16x64 .bf16) (harg4 : arg4.IsWhole)
    (arg5 : Memref sig .tc .vmem S1x256x1024 .bf16) (harg5 : arg5.IsWhole)
    (xq : Vec F S1x256x1x16x64 .bf16) (xk : Vec F S1x2048x1x16x64 .bf16) (xv : Vec F S1x2048x1x16x64 .bf16) (y : S1x256x1024.Idx) :
    ∃ pc ∈ (attnRun c i arg2 harg2 arg3 harg3 arg4 harg4 arg5 harg5 xq xk xv).1, y ∈ pc.1.set :=
  View.cover_of_tiledL (attnRun c i arg2 harg2 arg3 harg3 arg4 harg4 arg5 harg5 xq xk xv).1 S1x256x1024.size (by sl_kernel_rfl) y

/-- What one grid point leaves in the result block: the run's pieces read back. -/
def attnOut (c : Dev nD) (i : grid1.Coords)
    (arg2 : Memref sig .tc .vmem S1x256x1x16x64 .bf16) (harg2 : arg2.IsWhole)
    (arg3 : Memref sig .tc .vmem S1x2048x1x16x64 .bf16) (harg3 : arg3.IsWhole)
    (arg4 : Memref sig .tc .vmem S1x2048x1x16x64 .bf16) (harg4 : arg4.IsWhole)
    (arg5 : Memref sig .tc .vmem S1x256x1024 .bf16) (harg5 : arg5.IsWhole)
    (xq : Vec F S1x256x1x16x64 .bf16) (xk : Vec F S1x2048x1x16x64 .bf16) (xv : Vec F S1x2048x1x16x64 .bf16) : Vec F S1x256x1024 .bf16 :=
  VO.read (Elt F) (VO.writes (Elt F) VO.junk (attnRun c i arg2 harg2 arg3 harg3 arg4 harg4 arg5 harg5 xq xk xv).1)

/-! ## The proof data at the contents `V` the region is entered with -/

section Data
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What point `t` leaves in the result block, at the point's staging buffers and input blocks. -/
def outAt (c : Dev nD) (t : Fin cfg1.N) : Vec F S1x256x1024 .bf16 :=
  attnOut c (grid1.coords t) (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_3.stage (cfg1.slots t 3)) (hstage1_3 ((cfg1.slots t 3).cast nbuf1_3))
    (iblk V c 0 t) (iblk V c 1 t) (iblk V c 2 t)

/-- The three input windows read ONE array (the projection's result): each holds a third part of it — the left half, and
    the two halves of the right half. -/
def qShare : Fin cfg1.W → PosShare TreeShare
  | ⟨0, _⟩ => fullShare.left
  | ⟨1, _⟩ => fullShare.right.left
  | ⟨2, _⟩ => fullShare.right.right
  | ⟨3, _⟩ => fullShare

/-- After the body at point `t`: the query, key and value buffers still hold their blocks, the result's holds `outAt`. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outAt V c t
  Φ _ := Pipeline.ΦA spec1 c
  q := qShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = outAt V c t := by dsimp only [dat]

/-- An input's staging buffer holds its block at every point, whether or not the point fetched it. -/
theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).Φ t.succ = (dat V c).Φ t.castSucc from rfl,
    show (dat V c).owesAt () t.succ = (dat V c).owesAt () t.castSucc from rfl,
    after_0, after_1, after_2, after_3]
  unfold outAt attnOut
  iintro ⟨HΦ, Ho, ⟨%d0, H0⟩, ⟨%d1, H1⟩, ⟨%d2, H2⟩, ⟨%d3, H3⟩⟩
  iapply ((attnRun c (grid1.coords t) _ _ _ _ _ _ _ _ (iblk V c 0 t) (iblk V c 1 t) (iblk V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (attn_cover c _ _ _ _ _ _ _ _ _ _ _ _)

/-- The library's body obligation, at every point. -/
theorem body_obligation (c : Dev nD) : BodyObligation (dat (F := F) V c) (defs₀ (F := F)) Variants.none () Set.univ := fun t => by
  rw [bigSep_W1, bigSep_W1]
  exact sound_body V c t

end Data

end Cert.KernelIdeal.Attn

end
-- ==== Proof.OutProj.lean ====
/-
  The third region: the output projection — one 512×1024 block of the result per grid point, the point's 512 rows of the
  attention output against all 1024 rows of the projection weight, contracted over the 1024 features, plus the bias.
-/
import proofs.«140581_j58600533786988_2_alg».proof.Proof.Gen.KernelIdeal.Launch
import proofs.«140581_j58600533786988_2_alg».proof.Proof.Gen.KernelIdeal.Skeleton
import proofs.«140581_j58600533786988_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.OutProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
/-- The body's accesses: the whole 512×1024 row block, the whole 1024×1024 weight block, the whole 1×1024 bias row, the
    whole 512×1024 result block. -/
abbrev rA : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0
abbrev rB : Rect S1x1024 := Rect.unit (s := S1x1024) ![0, 0] S1x1024.size inb_S1x1024_S1x1024_0_0

/-- What one grid point leaves in the result block: the row block times the transposed weight block, plus the bias row
    on every row. -/
def outBlk (a : Vec F S512x1024 .bf16) (w : Vec F S1024x1024 .f32) (b : Vec F S1x1024 .f32) : Vec F S512x1024 .f32 :=
  View.canon [⟨rA, k2_pay1 (View.ld a rA) (View.ld w rW) (View.ld b rB)⟩]

theorem outBlk_cover (p : Vec F S512x1024 .f32) (y : S512x1024.Idx) :
    ∃ pc ∈ ([⟨rA, p⟩] : List (View.Piece (Elt F) S512x1024 .f32)), y ∈ pc.1.set :=
  View.cover_of_tiled [⟨rA, p⟩] S512x1024.size (by rfl) y

set_option maxHeartbeats 1000000 in
/-- The body on whole staging buffers: the three inputs are read and kept, the result buffer (whatever it held) ends
    at `outBlk` of the inputs. -/
theorem sound_mm (c : Dev nD) (E : Set ℕ) (i : grid2.Coords)
    (arg2 : Memref sig .tc .vmem S512x1024 .bf16) (harg2 : arg2.IsWhole)
    (arg3 : Memref sig .tc .vmem S1024x1024 .f32) (harg3 : arg3.IsWhole)
    (arg4 : Memref sig .tc .vmem S1x1024 .f32) (harg4 : arg4.IsWhole)
    (arg5 : Memref sig .tc .vmem S512x1024 .f32) (harg5 : arg5.IsWhole)
    (a : Vec F S512x1024 .bf16) (w : Vec F S1024x1024 .f32) (b : Vec F S1x1024 .f32) (K : PUnit → sProp 𝕄) :
    iprop(owns (c : Thread nD τ) arg2 fullShare a ∗ owns (c : Thread nD τ) arg3 fullShare w
        ∗ owns (c : Thread nD τ) arg4 fullShare b
        ∗ (∃ d, owns (c : Thread nD τ) arg5 fullShare d)
        ∗ (iprop(owns (c : Thread nD τ) arg2 fullShare a ∗ owns (c : Thread nD τ) arg3 fullShare w
            ∗ owns (c : Thread nD τ) arg4 fullShare b
            ∗ owns (c : Thread nD τ) arg5 fullShare (outBlk a w b)) -∗ K ⟨⟩))
      ⊢ wp frame (wpE (defs₀ (F := F)) Variants.none c none) E (cc2__mm_bias_kernel i arg2 harg2 arg3 harg3 arg4 harg4 arg5 harg5) K := by
  simp only [cc2__mm_bias_kernel_eq_skeleton]; unfold cc2__mm_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outBlk_cover _)

/-! ## The proof data at the contents `V` the region is entered with -/

section Data
variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- After the body at point `t`: the three inputs' buffers still hold their blocks, the result's holds `outBlk` of them. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => outBlk (iblk V c 0 t) (iblk V c 1 t) (iblk V c 2 t)
  Φ _ := Pipeline.ΦA spec2 c
  q _ := fullShare
  owed _ := 0

theorem A_eq (c : Dev nD) (w : Fin cfg2.W) : (dat V c).A w = V c (Pipeline.arrRef spec2 w) := by
  dsimp only [dat]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = outBlk (iblk V c 0 t) (iblk V c 1 t) (iblk V c 2 t) := by dsimp only [dat]

/-- An input's staging buffer holds its block at every point, whether or not the point fetched it. -/
theorem before_0 (c : Dev nD) (t : Fin cfg2.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg2.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg2.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-- What the body is called with at point `t`, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t))

theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_mm c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W2, bigSep_W2]
  exact sound_body V c t

end Data

end Cert.KernelIdeal.OutProj

end
-- ==== Proof.Run.lean ====
/-
  The whole program as three regions among reshapes: the arrays between the regions, each region entered from the
  buffers' contents before it and left at the contents with its result array written, and the run of @main.
-/
import proofs.«140581_j58600533786988_2_alg».proof.Proof.Gen.KernelIdeal.Regions
import proofs.«140581_j58600533786988_2_alg».proof.Proof.QkvProj
import proofs.«140581_j58600533786988_2_alg».proof.Proof.Attn
import proofs.«140581_j58600533786988_2_alg».proof.Proof.OutProj

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The arrays between the regions

The program is: reshape the tokens to [4096, 1024]; project (region 0); reshape the projection to
[2, 2048, 3, 16, 64]; attend (region 1); reshape the heads' outputs to [4096, 1024] and the bias to [1, 1024]; project out
(region 2); reshape to [2, 2048, 1024]. Each region's result array ends at what its grid points wrote back. -/

/-- The buffers' contents when region 0 is entered, read at the TensorCore's references. -/
abbrev U1 : (c : Dev nD) → (b : Ref sig .tc) → Buf (Elt F) ((c : Thread nD τ).loc b) := fun c b => V1 m c b
/-- What region 0 leaves in the projection's array. -/
def o1 (c : Dev nD) : Buf (Elt F) ((c : Thread nD τ).loc main_v1) := (QkvProj.dat (U1 m) c).arrAt 2 cfg0.N
/-- The buffers after region 0, then after the reshape to five axes (region 1's entry). -/
abbrev W2 (c : Dev nD) : Valuation τ sig (Elt F) := Function.update (V1 m c) main_v1 (o1 m c)
abbrev W3 (c : Dev nD) : Valuation τ sig (Elt F) := StableHlo.after hostOps1 (W2 m c)
abbrev U3 : (c : Dev nD) → (b : Ref sig .tc) → Buf (Elt F) ((c : Thread nD τ).loc b) := fun c b => W3 m c b
/-- What region 1 leaves in the attention output's array. -/
def o3 (c : Dev nD) : Buf (Elt F) ((c : Thread nD τ).loc main_v3) := (Attn.dat (U3 m) c).arrAt 3 cfg1.N
abbrev W4 (c : Dev nD) : Valuation τ sig (Elt F) := Function.update (W3 m c) main_v3 (o3 m c)
abbrev W5 (c : Dev nD) : Valuation τ sig (Elt F) := StableHlo.after hostOps2 (W4 m c)
abbrev U5 : (c : Dev nD) → (b : Ref sig .tc) → Buf (Elt F) ((c : Thread nD τ).loc b) := fun c b => W5 m c b
/-- What region 2 leaves in the result's array. -/
def o6 (c : Dev nD) : Buf (Elt F) ((c : Thread nD τ).loc main_v6) := (OutProj.dat (U5 m) c).arrAt 3 cfg2.N
abbrev W6 (c : Dev nD) : Valuation τ sig (Elt F) := Function.update (W5 m c) main_v6 (o6 m c)
abbrev W7 (c : Dev nD) : Valuation τ sig (Elt F) := StableHlo.after hostOps3 (W6 m c)

/-- The regions' results as the family the conditional frame is stated over: a reference's contents after any item are
    the region's result if the reference is a region's result array (the launch contents elsewhere: never read). -/
def outs : Outs (F := F) := fun _ r c =>
  if h1 : r = main_v1 then h1 ▸ o1 m c
  else if h3 : r = main_v3 then h3 ▸ o3 m c
  else if h6 : r = main_v6 then h6 ▸ o6 m c
  else m ((c : Thread nD τ).loc r)

theorem outs_v1 (J : ℕ) (c : Dev nD) : outs m J main_v1 c = o1 m c := by
  unfold outs; rw [dif_pos rfl]
theorem outs_v3 (J : ℕ) (c : Dev nD) : outs m J main_v3 c = o3 m c := by
  unfold outs; rw [dif_neg (by decide), dif_pos rfl]
theorem outs_v6 (J : ℕ) (c : Dev nD) : outs m J main_v6 c = o6 m c := by
  unfold outs; rw [dif_neg (by decide), dif_neg (by decide), dif_pos rfl]

theorem V2_eq (c : Dev nD) : V2 m (outs m) c = W2 m c := by
  show Function.update (V1 m c) main_v1 (outs m 2 main_v1 c) = _; rw [outs_v1]
theorem V3_eq (c : Dev nD) : V3 m (outs m) c = W3 m c := by
  show StableHlo.after hostOps1 (V2 m (outs m) c) = _; rw [V2_eq]
theorem V4_eq (c : Dev nD) : V4 m (outs m) c = W4 m c := by
  show Function.update (V3 m (outs m) c) main_v3 (outs m 4 main_v3 c) = _; rw [outs_v3, V3_eq]
theorem V5_eq (c : Dev nD) : V5 m (outs m) c = W5 m c := by
  show StableHlo.after hostOps2 (V4 m (outs m) c) = _; rw [V4_eq]
theorem V6_eq (c : Dev nD) : V6 m (outs m) c = W6 m c := by
  show Function.update (V5 m (outs m) c) main_v6 (outs m 6 main_v6 c) = _; rw [outs_v6, V5_eq]
theorem V7_eq (c : Dev nD) : V7 m (outs m) c = W7 m c := by
  show StableHlo.after hostOps3 (V6 m (outs m) c) = _; rw [V6_eq]

theorem W2_of (c : Dev nD) (r : Ref sig .tc) (h : r ≠ main_v1) : W2 m c r = V1 m c r := by
  simp only [W2, Function.update_of_ne (StableHlo.devRef_ne_of_ne h : (Proc.devRef .tc r : DevRef τ sig) ≠ Proc.devRef .tc main_v1)]
theorem W2_self (c : Dev nD) : W2 m c main_v1 = o1 m c := by
  simp only [W2, Function.update_self]
theorem W4_of (c : Dev nD) (r : Ref sig .tc) (h : r ≠ main_v3) : W4 m c r = W3 m c r := by
  simp only [W4, Function.update_of_ne (StableHlo.devRef_ne_of_ne h : (Proc.devRef .tc r : DevRef τ sig) ≠ Proc.devRef .tc main_v3)]
theorem W4_self (c : Dev nD) : W4 m c main_v3 = o3 m c := by
  simp only [W4, Function.update_self]
theorem W6_of (c : Dev nD) (r : Ref sig .tc) (h : r ≠ main_v6) : W6 m c r = W5 m c r := by
  simp only [W6, Function.update_of_ne (StableHlo.devRef_ne_of_ne h : (Proc.devRef .tc r : DevRef τ sig) ≠ Proc.devRef .tc main_v6)]
theorem W6_self (c : Dev nD) : W6 m c main_v6 = o6 m c := by
  simp only [W6, Function.update_self]

/-! ## The proof data family and what rides beside the buffers -/

/-- Every region's proof data, each at its region's entry contents. -/
def pdats : (p : Fin 3) → (c : Dev nD) → Dat τ (Elt F) Unit ℕ (UR sig nD τ) ℕ (cfgs p) c
  | ⟨0, _⟩ => fun c => QkvProj.dat (U1 m) c
  | ⟨1, _⟩ => fun c => Attn.dat (U3 m) c
  | ⟨2, _⟩ => fun c => OutProj.dat (U5 m) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers, through every item: the generator register at some state, and nothing owed. -/
abbrev R (c : Dev nD) : sProp 𝕄 := iprop((∃ r, prngReg c r) ∗ ∃ W, owes (c : Thread nD τ) (0 : CellTallies nD τ sig Unit) W)
abbrev E : Fin 4 → Dev nD → sProp 𝕄 := fun _ c => R (F := F) c

/-! ## Region 0 -/

theorem hF0 (c : Dev nD) (w : Fin cfg0.W) : (QkvProj.dat (U1 m) c).arrAt w cfg0.N = W2 m c (Pipeline.arrRef spec0 w) := by
  match w with
  | ⟨0, _⟩ => exact ((QkvProj.dat (U1 m) c).arrAt_in 0 rfl _).trans ((QkvProj.A_eq (U1 m) c 0).trans (W2_of m c _ (by decide)).symm)
  | ⟨1, _⟩ => exact ((QkvProj.dat (U1 m) c).arrAt_in 1 rfl _).trans ((QkvProj.A_eq (U1 m) c 1).trans (W2_of m c _ (by decide)).symm)
  | ⟨2, _⟩ => exact (W2_self m c).symm

theorem hrest0 (c : Dev nD) : ∀ b : Ref sig .tc, b ∉ Finset.univ.image (Pipeline.arrRef spec0) → W2 m c b = V1 m c b :=
  fun b hb => W2_of m c b fun e => hb (Finset.mem_image.mpr ⟨2, Finset.mem_univ _, e.symm⟩)

set_option backward.isDefEq.respectTransparency.types false in
/-- Region 0 between the buffers at `V1` and at `W2`: its three arrays are taken out of the buffers at entry and put back,
    the result array at what the grid points wrote, at exit; the generator register goes through the invariant. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (QkvProj.body_obligation (U1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (fun b => W2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1: three windows on one array

The query, key and value windows all read the projection's array. The array, held whole, is dealt to the three windows in
three parts of its share — the left half, and the two halves of the right half — and collected again at the end: no
window writes it, so the three parts still hold the same contents. -/

/-- A buffer held whole is the same buffer held in the three parts of the whole share. -/
theorem thirds {ℓ : Loc nD τ sig} (f : Buf (Elt F) ℓ) :
    (ℓ ↦{fullShare} f : sProp 𝕄) ⊣⊢ iprop((ℓ ↦{fullShare.left} f) ∗ (ℓ ↦{fullShare.right.left} f) ∗ (ℓ ↦{fullShare.right.right} f)) :=
  (pointsTo_share (PosShare.mem_left_op_right fullShare)).trans
    ⟨sep_mono .rfl (pointsTo_share (PosShare.mem_left_op_right fullShare.right)).1,
     sep_mono .rfl (pointsTo_share (PosShare.mem_left_op_right fullShare.right)).2⟩

/-- Region 1's arrays at contents `Fa`, window by window. -/
theorem arrays1_eq (c : Dev nD) (Fa : (w : Fin cfg1.W) → Buf (Elt F) ((cfg1.win w).arr.view.loc (c : Thread nD τ))) :
    ((Attn.dat (U3 m) c).arrays Fa : sProp 𝕄)
      = iprop((((c : Thread nD τ).loc main_v2) ↦{fullShare.left} Fa 0) ∗ (((c : Thread nD τ).loc main_v2) ↦{fullShare.right.left} Fa 1)
          ∗ (((c : Thread nD τ).loc main_v2) ↦{fullShare.right.right} Fa 2) ∗ (((c : Thread nD τ).loc main_v3) ↦{fullShare} Fa 3)) := by
  unfold Dat.arrays
  rw [bigSep_W1, (arr_whole1 0).set_eq_univ, (arr_whole1 3).set_eq_univ]
  rfl

/-- The two buffers behind region 1's four windows, each whole. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v2) ↦{fullShare} V main_v2) ∗ (((c : Thread nD τ).loc main_v3) ↦{fullShare} V main_v3)) := by
  unfold Pipeline.arrBufs
  rw [bigSep_eq_bigSepL_of_eq [main_v2, main_v3] (by decide) (by decide)]
  rfl

/-- ENTRY: the buffers at `W3` are region 1's arrays at their entry contents, beside the rest. -/
theorem hsplit1 (c : Dev nD) :
    (StableHlo.held (c : Thread nD τ) (Pipeline.ucRefs τ sig) (W3 m c) : sProp 𝕄)
      ⊢ iprop((Attn.dat (U3 m) c).arrays ((Attn.dat (U3 m) c).arrAt · 0)
          ∗ Pipeline.unscopedRest (Ix := Unit) (Name := ℕ) (U := UR sig nD τ) (Lvl := ℕ) spec1 c (U3 m c)) := by
  have hs : (unscopedBufs c (U3 m c) : sProp 𝕄)
      = iprop(Pipeline.arrBufs (Ix := Unit) (Name := ℕ) (U := UR sig nD τ) (Lvl := ℕ) spec1 c (U3 m c)
          ∗ Pipeline.unscopedRest (Ix := Unit) (Name := ℕ) (U := UR sig nD τ) (Lvl := ℕ) spec1 c (U3 m c)) :=
    Pipeline.unscopedBufs_split₀ (Ix := Unit) (Name := ℕ) (U := UR sig nD τ) (Lvl := ℕ) cfgs 1 winFacts₀1.arr_unscoped c (U3 m c)
  rw [← Pipeline.unscopedBufs_held c (W3 m c), hs, arrBufs1_eq, arrays1_eq]
  iintro ⟨⟨H2, H3⟩, Hr⟩
  isplitr [Hr]
  swap; · iexact Hr
  ihave H := (thirds (F := F) (U3 m c main_v2)).1 $$ H2
  icases H with ⟨Ha, Hb, Hc⟩
  isplitl [Ha]; · iexact Ha
  isplitl [Hb]; · iexact Hb
  isplitl [Hc]; · iexact Hc
  iexact H3

/-- EXIT: region 1's arrays at their final contents, beside the rest, are the buffers at `W4`. -/
theorem hjoin1 (c : Dev nD) :
    iprop((Attn.dat (U3 m) c).arrays ((Attn.dat (U3 m) c).arrAt · cfg1.N)
        ∗ Pipeline.unscopedRest (Ix := Unit) (Name := ℕ) (U := UR sig nD τ) (Lvl := ℕ) spec1 c (U3 m c))
      ⊢ (StableHlo.held (c : Thread nD τ) (Pipeline.ucRefs τ sig) (W4 m c) : sProp 𝕄) := by
  have hs : (unscopedBufs c (fun b => W4 m c b) : sProp 𝕄)
      = iprop(Pipeline.arrBufs (Ix := Unit) (Name := ℕ) (U := UR sig nD τ) (Lvl := ℕ) spec1 c (fun b => W4 m c b)
          ∗ Pipeline.unscopedRest (Ix := Unit) (Name := ℕ) (U := UR sig nD τ) (Lvl := ℕ) spec1 c (fun b => W4 m c b)) :=
    Pipeline.unscopedBufs_split₀ (Ix := Unit) (Name := ℕ) (U := UR sig nD τ) (Lvl := ℕ) cfgs 1 winFacts₀1.arr_unscoped c (fun b => W4 m c b)
  have hrest : (Pipeline.unscopedRest (Ix := Unit) (Name := ℕ) (U := UR sig nD τ) (Lvl := ℕ) spec1 c (fun b => W4 m c b) : sProp 𝕄)
      = Pipeline.unscopedRest (Ix := Unit) (Name := ℕ) (U := UR sig nD τ) (Lvl := ℕ) spec1 c (U3 m c) := by
    unfold Pipeline.unscopedRest
    exact bigSep_congr fun b hb => by
      show ((((c : Thread nD τ).loc b) ↦{fullShare} W4 m c b : sProp 𝕄)) = _
      rw [W4_of m c b fun e => (Finset.mem_sdiff.mp hb).2 (Finset.mem_image.mpr ⟨3, Finset.mem_univ _, e.symm⟩)]
  have e0 : (Attn.dat (U3 m) c).arrAt 0 cfg1.N = U3 m c main_v2 := ((Attn.dat (U3 m) c).arrAt_in 0 rfl _).trans (Attn.A_eq (U3 m) c 0)
  have e1 : (Attn.dat (U3 m) c).arrAt 1 cfg1.N = U3 m c main_v2 := ((Attn.dat (U3 m) c).arrAt_in 1 rfl _).trans (Attn.A_eq (U3 m) c 1)
  have e2 : (Attn.dat (U3 m) c).arrAt 2 cfg1.N = U3 m c main_v2 := ((Attn.dat (U3 m) c).arrAt_in 2 rfl _).trans (Attn.A_eq (U3 m) c 2)
  rw [← Pipeline.unscopedBufs_held c (W4 m c), hs, hrest, arrBufs1_eq, arrays1_eq, e0, e1, e2,
    W4_of m c main_v2 (by decide), W4_self]
  iintro ⟨⟨Ha, Hb, Hc, H3⟩, Hr⟩
  isplitr [Hr]
  swap; · iexact Hr
  isplitr [H3]
  swap; · iexact H3
  iapply (thirds (F := F) (U3 m c main_v2)).2
  isplitl [Ha]; · iexact Ha
  isplitl [Hb]; · iexact Hb
  iexact Hc

set_option backward.isDefEq.respectTransparency.types false in
/-- Region 1 between the buffers at `W3` and at `W4`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Attn.body_obligation (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    iintro ⟨⟨Hub, Hp, HO⟩, -, -⟩
    ihave H := hsplit1 m c $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hj : iprop((pdats m 1 c).arrays ((pdats m 1 c).arrAt · cfg1.N)
          ∗ Pipeline.unscopedRest (Ix := Unit) (Name := ℕ) (U := UR sig nD τ) (Lvl := ℕ) spec1 c (U3 m c))
        ⊢ (StableHlo.held (c : Thread nD τ) (Pipeline.ucRefs τ sig) (W4 m c) : sProp 𝕄) := hjoin1 m c
    iintro ⟨Ha, HO, HY, Hrest⟩
    imodintro
    isplitl [Ha Hrest]
    · iapply hj; isplitl [Ha] <;> iassumption
    isplitl [HY]; · iexact HY
    unfold Pipeline.Dat.owesAt Pipeline.owesWithin
    icases HO with ⟨%W, -, HO⟩; iexists W; iexact HO

/-! ## Region 2 -/

theorem hF2 (c : Dev nD) (w : Fin cfg2.W) : (OutProj.dat (U5 m) c).arrAt w cfg2.N = W6 m c (Pipeline.arrRef spec2 w) := by
  match w with
  | ⟨0, _⟩ => exact ((OutProj.dat (U5 m) c).arrAt_in 0 rfl _).trans ((OutProj.A_eq (U5 m) c 0).trans (W6_of m c _ (by decide)).symm)
  | ⟨1, _⟩ => exact ((OutProj.dat (U5 m) c).arrAt_in 1 rfl _).trans ((OutProj.A_eq (U5 m) c 1).trans (W6_of m c _ (by decide)).symm)
  | ⟨2, _⟩ => exact ((OutProj.dat (U5 m) c).arrAt_in 2 rfl _).trans ((OutProj.A_eq (U5 m) c 2).trans (W6_of m c _ (by decide)).symm)
  | ⟨3, _⟩ => exact (W6_self m c).symm

theorem hrest2 (c : Dev nD) : ∀ b : Ref sig .tc, b ∉ Finset.univ.image (Pipeline.arrRef spec2) → W6 m c b = W5 m c b :=
  fun b hb => W6_of m c b fun e => hb (Finset.mem_image.mpr ⟨3, Finset.mem_univ _, e.symm⟩)

set_option backward.isDefEq.respectTransparency.types false in
/-- Region 2 between the buffers at `W5` and at `W6`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (OutProj.body_obligation (U5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U5 m c) (fun b => W6 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its seven items, and the run -/

/-- A stretch of host operations as an item: over the unscoped buffers from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The seven items in order: reshape, region 0, reshape, region 1, two reshapes, region 2, reshape. -/
abbrev items : List (Pipeline.Seg (pcfgs (F := F)) adm (pdats m) () defs₀ 𝒱₀ L lv) :=
  [ .host (hseg hostOps0 hostOps0_sub hostOps0_fresh (V0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

theorem main_items (c : Dev nD) : main (F := F) c = Pipeline.Seg.run (items m) := (main_chain c).trans (by chain_rfl)

/-- An unscoped TensorCore reference is among those the items hold. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

variable (ρ : Dev nD → PrngReg)

set_option backward.isDefEq.respectTransparency.types false in
/-- THE RUN: from any memory with zero counters every weakly fair execution of @main terminates, nothing faulting, and
    the final memory holds every unscoped buffer at the last contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (W7 m c) ∗ ∃ r, prngReg c r))
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-! ## What the run says of the arguments and of the result -/

theorem W7_arg0 (c : Dev nD) : W7 m c main_arg0 = m ((c : Thread nD τ).loc main_arg0) :=
  (congrFun (V7_eq m c) _).symm.trans (V7_main_arg0 m (outs m) c)
theorem W7_arg1 (c : Dev nD) : W7 m c main_arg1 = m ((c : Thread nD τ).loc main_arg1) :=
  (congrFun (V7_eq m c) _).symm.trans (V7_main_arg1 m (outs m) c)
theorem W7_arg2 (c : Dev nD) : W7 m c main_arg2 = m ((c : Thread nD τ).loc main_arg2) :=
  (congrFun (V7_eq m c) _).symm.trans (V7_main_arg2 m (outs m) c)
theorem W7_arg3 (c : Dev nD) : W7 m c main_arg3 = m ((c : Thread nD τ).loc main_arg3) :=
  (congrFun (V7_eq m c) _).symm.trans (V7_main_arg3 m (outs m) c)

/-- The run ends with the result array at `W7`'s and every argument array as launched. -/
theorem run_result : θ_run defs (onTc (τ := τ) (main (F := F))) ⟨m, fun _ => 0, ρ⟩ (fun r => ∀ c : Dev nD,
      r.2.mem ((c.tc : Thread nD τ).loc main_v7) = W7 m c main_v7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v7 (by decide)),
     (h c _ (mem_uc main_arg0 (by decide))).trans (W7_arg0 m c),
     (h c _ (mem_uc main_arg1 (by decide))).trans (W7_arg1 m c),
     (h c _ (mem_uc main_arg2 (by decide))).trans (W7_arg2 m c),
     (h c _ (mem_uc main_arg3 (by decide))).trans (W7_arg3 m c)⟩) (run_all m ρ)

/-- The frame: the run ends with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_result m ρ)

end Cert.KernelIdeal.Run

end
-- ==== Proof.LibRowDot.lean ====
/-
  General facts, at the exact instance (floats as extended reals), about a matrix product whose two operands are both
  contracted along their SECOND axis (x of [M, K] against w of [N, K], the product x · wᵀ of [M, N]), read at an index
  written by its coordinates, and about one row broadcast down a matrix.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibRowDot

open Idealize.ShloMosaic Idealize.ShloMosaic.ValueIdx

variable {α : Type} {M K N : Nat}

/-- A matrix product of an [M, K] matrix by the transpose of an [N, K] matrix into the zero accumulator, read at
    (p, q): the sum over the contracted coordinate k of x(p, k) · w(q, k). The four hypotheses say which operand
    coordinate each of the product's index maps takes from the output index and which from the contraction index. -/
theorem matmul_zero_rr {φ₁ φ₂ : FTy} (D : DotDims ⟨2, ![M, K]⟩ ⟨2, ![N, K]⟩ ⟨2, ![M, N]⟩) (hr : D.contr.rank = 1)
    (hs : D.contr.size ⟨0, by omega⟩ = K)
    (hl0 : ∀ (i : (⟨2, ![M, N]⟩ : Shape).Idx) (c : D.contr.Idx), (D.lhsIdx i c 0).val = (i 0).val)
    (hl1 : ∀ (i : (⟨2, ![M, N]⟩ : Shape).Idx) (c : D.contr.Idx), (D.lhsIdx i c 1).val = (c ⟨0, by omega⟩).val)
    (hr0 : ∀ (i : (⟨2, ![M, N]⟩ : Shape).Idx) (c : D.contr.Idx), (D.rhsIdx i c 0).val = (i 1).val)
    (hr1 : ∀ (i : (⟨2, ![M, N]⟩ : Shape).Idx) (c : D.contr.Idx), (D.rhsIdx i c 1).val = (c ⟨0, by omega⟩).val)
    (prec : Option ContractPrecision)
    (x : FVec Ideal ⟨2, ![M, K]⟩ φ₁) (w : FVec Ideal ⟨2, ![N, K]⟩ φ₂) (p : Fin M) (q : Fin N) :
    matmul D prec x w (constant ⟨2, ![M, N]⟩ .f32 0x00000000#32) (ix2 p q) = ∑ k : Fin K, x (ix2 p k) * w (ix2 q k) := by
  refine (Ideal.matmul_constant_zero_apply D prec x w (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 q k := funext fun a => Fin.ext (by
    match a with
    | ⟨0, _⟩ => exact hr0 _ _
    | ⟨1, _⟩ => exact (hr1 _ _).trans hk)
  rw [el, er]

/-- A [1, N] row, cast to its own shape and broadcast down to [M, N], reads at (p, q) the row at (0, q). -/
theorem rowDown_rc (v : (⟨2, ![1, N]⟩ : Shape).Idx → α) (h1 : (⟨2, ![1, N]⟩ : Shape).ShapeCasts ⟨2, ![1, N]⟩)
    (h2 : (⟨2, ![1, N]⟩ : Shape).Broadcasts ⟨2, ![M, N]⟩) (p : Fin M) (q : Fin N) :
    broadcastTo ⟨2, ![M, N]⟩ (shapeCast ⟨2, ![1, N]⟩ v h1) h2 (ix2 p q) = v (ix2 (0 : Fin 1) q) := by
  rw [shapeCast_self]
  exact broadcastTo_1b_ab_apply v h2 p q

end Cert.LibRowDot

end
-- ==== Proof.QkvProjValue.lean ====
/-
  The first region's result array as one function of the arrays the region is entered with: every entry (r, o) of the
  [4096, 3072] result is the sum over the 1024 features k of input(r, k) · weight(o, k). Each grid point writes the
  512 × 1024 block of that function its block index names, and the 24 blocks tile the array.
-/
import proofs.«140581_j58600533786988_2_alg».proof.Proof.QkvProj
import proofs.«140581_j58600533786988_2_alg».proof.Proof.LibRowDot
import Idealize.ShloMosaic.Lib.Pipeline.Value
import Idealize.ShloMosaic.Lib.ValueIdx

set_option maxRecDepth 16384

noncomputable section

namespace Cert.KernelIdeal.QkvProjValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.QkvProj

theorem hz : (![0, 0] : Fin 2 → Nat) = fun _ => 0 := funext fun a => by fin_cases a <;> rfl

/-- The body's payload at (p, q): row p of the row block against row q of the weight block, over the 1024 features
    (the format changes are the identity on extended reals, the accumulator is zero). -/
theorem pay_apply (x : Vec Ideal S512x1024 .f32) (w : Vec Ideal S1024x1024 .f32) (p : Fin 512) (q : Fin 1024) :
    k0_pay1 x w (ix2 p q) = ∑ k : Fin 1024, x (ix2 p k) * w (ix2 q k) := by
  unfold k0_pay1
  refine (Cert.LibRowDot.matmul_zero_rr dot_S512x1024_S1024x1024_S512x1024_1_1_0_0_n_n rfl rfl
    (fun _ _ => rfl) (fun i c => DotDims.lhsIdx_val_of_single _ rfl i c) (fun _ _ => rfl)
    (fun i c => DotDims.rhsIdx_val_of_single _ rfl i c) none _ _ p q).trans ?_
  rw [shapeCast_self]
  rfl

/-- The printed block index maps, decided over the 24 grid points: the input's row block is the result's row block, the
    weight's row block is the result's column block, both inputs take all 1024 features, and the result's block indices
    stay in their ranges. -/
theorem idx_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7 ∧ win0_2.index t (1 : Fin 2) ≤ 2 :=
  (by decide +kernel : ∀ t : Fin grid0.N, _)

/-- Every one of the 8 × 3 blocks of the result is some grid point's. -/
theorem idx_onto : ∀ (q0 : Fin 8) (q1 : Fin 3), ∃ t : Fin cfg0.N, win0_2.index t = ![q0.val, q1.val] :=
  (by decide +kernel : ∀ (q0 : Fin 8) (q1 : Fin 3), ∃ t : Fin grid0.N, win0_2.index t = ![q0.val, q1.val])

/-- Rows of `x` against rows of `w`: entry (r, o) is the sum over the shared second coordinate k of x(r, k) · w(o, k). -/
def rowDot {M N K : Nat} (x : (⟨2, ![M, K]⟩ : Shape).Idx → EReal) (w : (⟨2, ![N, K]⟩ : Shape).Idx → EReal) :
    (⟨2, ![M, N]⟩ : Shape).Idx → EReal := fun i =>
  ∑ k : Fin K, x (ix2 ⟨(i 0).val, idx2_lt0 i⟩ k) * w (ix2 ⟨(i 1).val, idx2_lt1 i⟩ k)

theorem rowDot_apply {M N K : Nat} (x : (⟨2, ![M, K]⟩ : Shape).Idx → EReal) (w : (⟨2, ![N, K]⟩ : Shape).Idx → EReal)
    (r : Fin M) (o : Fin N) : rowDot x w (ix2 r o) = ∑ k : Fin K, x (ix2 r k) * w (ix2 o k) := rfl

/-- A sum of products read along two families of indices is `rowDot` at `i` once the families run along row `i 0` of `x`
    and row `i 1` of `w`. -/
theorem sum_eq_rowDot {M N K : Nat} (x : (⟨2, ![M, K]⟩ : Shape).Idx → EReal) (w : (⟨2, ![N, K]⟩ : Shape).Idx → EReal)
    (i : (⟨2, ![M, N]⟩ : Shape).Idx) (ex : Fin K → (⟨2, ![M, K]⟩ : Shape).Idx) (ew : Fin K → (⟨2, ![N, K]⟩ : Shape).Idx)
    (hx0 : ∀ k, (ex k 0).val = (i 0).val) (hx1 : ∀ k, (ex k 1).val = k.val)
    (hw0 : ∀ k, (ew k 0).val = (i 1).val) (hw1 : ∀ k, (ew k 1).val = k.val) :
    ∑ k : Fin K, x (ex k) * w (ew k) = rowDot x w i := by
  unfold rowDot
  refine Finset.sum_congr rfl fun k _ => ?_
  have a : ex k = ix2 ⟨(i 0).val, idx2_lt0 i⟩ k := funext fun a => Fin.ext (by
    match a with
    | ⟨0, _⟩ => exact hx0 k
    | ⟨1, _⟩ => exact hx1 k)
  have b : ew k = ix2 ⟨(i 1).val, idx2_lt1 i⟩ k := funext fun a => Fin.ext (by
    match a with
    | ⟨0, _⟩ => exact hw0 k
    | ⟨1, _⟩ => exact hw1 k)
  rw [a, b]

section Value
variable (V : (c : Dev nD) → (b : Ref sig .tc) → Buf (Elt Ideal) ((c : Thread nD τ).loc b))

/-- The result array as one function of the input and the weight the region is entered with: entry (r, o) is row r of
    the input against row o of the weight. -/
def G (c : Dev nD) : S4096x3072.Idx → EReal := rowDot (M := 4096) (N := 3072) (K := 1024) (V c main_v0) (V c main_arg1)

/-- What grid point `t` writes back is block `t` of `G`. -/
theorem flushed_eq (c : Dev nD) (t : Fin cfg0.N) :
    (dat (F := Ideal) V c).flushed 2 t = ((cfg0.win 2).blk t).view.read (Elt Ideal) (G V c) := by
  show (cfg0.win 2).cut (grid0.coords t) ((dat (F := Ideal) V c).after 2 t) = _
  rw [after_2]
  unfold outBlk
  rw [View.canon_unit_zero hz]
  simp only [View.ld_unit_zero (S := S512x1024) hz, View.ld_unit_zero (S := S1024x1024) hz]
  obtain ⟨e0, e1, e2, e3, e4, e5⟩ := idx_facts t
  have key : ∀ (p : Fin 512) (q : Fin 1024),
      k0_pay1 (iblk V c 0 t) (iblk V c 1 t) (ix2 p q) = G V c (((cfg0.win 2).blk t).view.emb (ix2 p q)) := by
    intro p q
    refine (pay_apply (iblk V c 0 t) (iblk V c 1 t) p q).trans ?_
    refine sum_eq_rowDot (M := 4096) (N := 3072) (K := 1024) (V c main_v0) (V c main_arg1)
      (((cfg0.win 2).blk t).view.emb (ix2 p q))
      (fun k => ((cfg0.win 0).blk t).view.emb (ix2 p k)) (fun k => ((cfg0.win 1).blk t).view.emb (ix2 q k)) ?_ ?_ ?_ ?_
    · intro k; show win0_0.index t (0 : Fin 2) * 512 + 1 * p.val = win0_2.index t (0 : Fin 2) * 512 + 1 * p.val; omega
    · intro k; show win0_0.index t (1 : Fin 2) * 1024 + 1 * k.val = k.val; omega
    · intro k; show win0_1.index t (0 : Fin 2) * 1024 + 1 * q.val = win0_2.index t (1 : Fin 2) * 1024 + 1 * q.val; omega
    · intro k; show win0_1.index t (1 : Fin 2) * 1024 + 1 * k.val = k.val; omega
  funext j
  exact (congrArg _ (eq_ix2 j)).trans ((key (j 0) (j 1)).trans (congrArg (fun y => G V c (((cfg0.win 2).blk t).view.emb y)) (eq_ix2 j).symm))

/-- An index of the result array is in point `t`'s block iff each coordinate is in the block's range on its axis. -/
theorem mem_blk (t : Fin cfg0.N) (i : S4096x3072.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v1).slice (win0_2.rect t)).set ↔ _
  rw [View.set_slice_whole, Rect.mem_set_unit]
  exact Iff.rfl

/-- The 24 blocks tile the array: entry (r, o) is in the block of the point with block index (r / 512, o / 1024). -/
theorem cover (i : S4096x3072.Idx) :
    ∃ t : Fin cfg0.N, (cfg0.win 2).flush t = true ∧ i ∈ ((cfg0.win 2).blk t).view.set := by
  have hi0 : (i 0).val < 4096 := (i 0).isLt
  have hi1 : (i 1).val < 3072 := (i 1).isLt
  obtain ⟨t, ht⟩ := idx_onto ⟨(i 0).val / 512, by omega⟩ ⟨(i 1).val / 1024, by omega⟩
  have q0 : win0_2.index t (0 : Fin 2) = (i 0).val / 512 := congrFun ht 0
  have q1 : win0_2.index t (1 : Fin 2) = (i 1).val / 1024 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- The result array after the region: every entry (r, o) is row r of the input against row o of the weight. -/
theorem final (c : Dev nD) : (dat (F := Ideal) V c).arrAt 2 cfg0.N = G V c :=
  (dat (F := Ideal) V c).arrAt_eq_of_cover 2 (G V c) (fun t _ => flushed_eq V c t) cover

/-- The same, read at an entry. -/
theorem final_apply (c : Dev nD) (r : Fin 4096) (o : Fin 3072) :
    (dat (F := Ideal) V c).arrAt 2 cfg0.N (ix2 r o)
      = rowDot (M := 4096) (N := 3072) (K := 1024) (V c main_v0) (V c main_arg1) (ix2 r o) :=
  congrFun (final V c) (ix2 r o)

end Value

end Cert.KernelIdeal.QkvProjValue

end
-- ==== Proof.OutProjValue.lean ====
/-
  The third region's result array as one function of the arrays the region is entered with: every entry (r, j) of the
  [4096, 1024] result is the sum over the 1024 features k of input(r, k) · weight(j, k), plus bias(0, j). Each grid
  point writes the 512 × 1024 block of that function its block index names, and the 8 blocks tile the array.
-/
import proofs.«140581_j58600533786988_2_alg».proof.Proof.OutProj
import proofs.«140581_j58600533786988_2_alg».proof.Proof.LibRowDot
import proofs.«140581_j58600533786988_2_alg».proof.Proof.QkvProjValue
import Idealize.ShloMosaic.Lib.Pipeline.Value
import Idealize.ShloMosaic.Lib.ValueIdx

set_option maxRecDepth 16384

noncomputable section

namespace Cert.KernelIdeal.OutProjValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.OutProj
open Cert.KernelIdeal.QkvProjValue (rowDot rowDot_apply sum_eq_rowDot)

theorem hz : (![0, 0] : Fin 2 → Nat) = fun _ => 0 := funext fun a => by fin_cases a <;> rfl

/-- The body's payload at (p, q): row p of the row block against row q of the weight block, over the 1024 features,
    plus the bias row at q (the format change is the identity on extended reals, the accumulator is zero). -/
theorem pay_apply (x : Vec Ideal S512x1024 .bf16) (w : Vec Ideal S1024x1024 .f32) (b : Vec Ideal S1x1024 .f32)
    (p : Fin 512) (q : Fin 1024) :
    k2_pay1 x w b (ix2 p q) = (∑ k : Fin 1024, x (ix2 p k) * w (ix2 q k)) + b (ix2 (0 : Fin 1) q) := by
  unfold k2_pay1
  refine (addf_apply _ _ _).trans ?_
  refine congrArg₂ (· + ·) ?_ ?_
  · refine (Cert.LibRowDot.matmul_zero_rr dot_S512x1024_S1024x1024_S512x1024_1_1_0_0_n_n rfl rfl
      (fun _ _ => rfl) (fun i c => DotDims.lhsIdx_val_of_single _ rfl i c) (fun _ _ => rfl)
      (fun i c => DotDims.rhsIdx_val_of_single _ rfl i c) none _ _ p q).trans ?_
    rw [shapeCast_self]
    rfl
  · exact Cert.LibRowDot.rowDown_rc b shapeCasts_S1x1024_S1x1024 broadcasts_S1x1024_S512x1024 p q

/-- The printed block index maps, decided over the 8 grid points: the input's row block is the result's row block, the
    weight and the bias are whole (block index zero on both axes), the result has one column block, and its row block
    index stays in its range. -/
theorem idx_facts : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) ≤ 7 ∧ win2_3.index t (1 : Fin 2) = 0 :=
  (by decide +kernel : ∀ t : Fin grid2.N, _)

/-- Every one of the 8 row blocks of the result is some grid point's. -/
theorem idx_onto : ∀ (q0 : Fin 8), ∃ t : Fin cfg2.N, win2_3.index t = ![q0.val, 0] :=
  (by decide +kernel : ∀ (q0 : Fin 8), ∃ t : Fin grid2.N, win2_3.index t = ![q0.val, 0])

/-- Rows of `x` against rows of `w`, plus the one-row array `b` on every row: entry (r, j) is
    Σ_k x(r, k) · w(j, k) + b(0, j). -/
def rowDotBias {M N K : Nat} (x : (⟨2, ![M, K]⟩ : Shape).Idx → EReal) (w : (⟨2, ![N, K]⟩ : Shape).Idx → EReal)
    (b : (⟨2, ![1, N]⟩ : Shape).Idx → EReal) : (⟨2, ![M, N]⟩ : Shape).Idx → EReal := fun i =>
  rowDot x w i + b (ix2 (0 : Fin 1) ⟨(i 1).val, idx2_lt1 i⟩)

theorem rowDotBias_apply {M N K : Nat} (x : (⟨2, ![M, K]⟩ : Shape).Idx → EReal) (w : (⟨2, ![N, K]⟩ : Shape).Idx → EReal)
    (b : (⟨2, ![1, N]⟩ : Shape).Idx → EReal) (r : Fin M) (j : Fin N) :
    rowDotBias x w b (ix2 r j) = (∑ k : Fin K, x (ix2 r k) * w (ix2 j k)) + b (ix2 (0 : Fin 1) j) := rfl

section Value
variable (V : (c : Dev nD) → (b : Ref sig .tc) → Buf (Elt Ideal) ((c : Thread nD τ).loc b))

/-- The result array as one function of the input, the weight and the bias row the region is entered with. -/
def G (c : Dev nD) : S4096x1024.Idx → EReal :=
  rowDotBias (M := 4096) (N := 1024) (K := 1024) (V c main_v4) (V c main_arg2) (V c main_v5)

/-- What grid point `t` writes back is block `t` of `G`. -/
theorem flushed_eq (c : Dev nD) (t : Fin cfg2.N) :
    (dat (F := Ideal) V c).flushed 3 t = ((cfg2.win 3).blk t).view.read (Elt Ideal) (G V c) := by
  show (cfg2.win 3).cut (grid2.coords t) ((dat (F := Ideal) V c).after 3 t) = _
  rw [after_3]
  unfold outBlk
  rw [View.canon_unit_zero hz]
  simp only [View.ld_unit_zero (S := S512x1024) hz, View.ld_unit_zero (S := S1024x1024) hz,
    View.ld_unit_zero (S := S1x1024) hz]
  obtain ⟨e0, e1, e2, e3, e4, e5, e6, e7⟩ := idx_facts t
  have key : ∀ (p : Fin 512) (q : Fin 1024),
      k2_pay1 (iblk V c 0 t) (iblk V c 1 t) (iblk V c 2 t) (ix2 p q)
        = G V c (((cfg2.win 3).blk t).view.emb (ix2 p q)) := by
    intro p q
    refine (pay_apply (iblk V c 0 t) (iblk V c 1 t) (iblk V c 2 t) p q).trans ?_
    refine congrArg₂ (· + ·) ?_ ?_
    · refine sum_eq_rowDot (M := 4096) (N := 1024) (K := 1024) (V c main_v4) (V c main_arg2)
        (((cfg2.win 3).blk t).view.emb (ix2 p q))
        (fun k => ((cfg2.win 0).blk t).view.emb (ix2 p k)) (fun k => ((cfg2.win 1).blk t).view.emb (ix2 q k)) ?_ ?_ ?_ ?_
      · intro k; show win2_0.index t (0 : Fin 2) * 512 + 1 * p.val = win2_3.index t (0 : Fin 2) * 512 + 1 * p.val; omega
      · intro k; show win2_0.index t (1 : Fin 2) * 1024 + 1 * k.val = k.val; omega
      · intro k; show win2_1.index t (0 : Fin 2) * 1024 + 1 * q.val = win2_3.index t (1 : Fin 2) * 1024 + 1 * q.val; omega
      · intro k; show win2_1.index t (1 : Fin 2) * 1024 + 1 * k.val = k.val; omega
    · show (V c main_v5 : S1x1024.Idx → EReal) (((cfg2.win 2).blk t).view.emb (ix2 (0 : Fin 1) q))
          = (V c main_v5 : S1x1024.Idx → EReal) (ix2 (0 : Fin 1) ⟨((((cfg2.win 3).blk t).view.emb (ix2 p q)) 1).val, idx2_lt1 _⟩)
      refine congrArg (V c main_v5 : S1x1024.Idx → EReal) (funext fun a => Fin.ext ?_)
      match a with
      | ⟨0, _⟩ => show win2_2.index t (0 : Fin 2) * 1 + 1 * 0 = 0; omega
      | ⟨1, _⟩ => show win2_2.index t (1 : Fin 2) * 1024 + 1 * q.val = win2_3.index t (1 : Fin 2) * 1024 + 1 * q.val; omega
  funext j
  exact (congrArg _ (eq_ix2 j)).trans ((key (j 0) (j 1)).trans (congrArg (fun y => G V c (((cfg2.win 3).blk t).view.emb y)) (eq_ix2 j).symm))

/-- An index of the result array is in point `t`'s block iff each coordinate is in the block's range on its axis. -/
theorem mem_blk (t : Fin cfg2.N) (i : S4096x1024.Idx) :
    i ∈ ((cfg2.win 3).blk t).view.set ↔ ∀ a : Fin 2, win2_3.index t a * S512x1024.size a ≤ (i a).val
      ∧ (i a).val < win2_3.index t a * S512x1024.size a + S512x1024.size a := by
  show i ∈ ((View.whole main_v6).slice (win2_3.rect t)).set ↔ _
  rw [View.set_slice_whole, Rect.mem_set_unit]
  exact Iff.rfl

/-- The 8 blocks tile the array: entry (r, j) is in the block of the point with block index (r / 512, 0). -/
theorem cover (i : S4096x1024.Idx) :
    ∃ t : Fin cfg2.N, (cfg2.win 3).flush t = true ∧ i ∈ ((cfg2.win 3).blk t).view.set := by
  have hi0 : (i 0).val < 4096 := (i 0).isLt
  have hi1 : (i 1).val < 1024 := (i 1).isLt
  obtain ⟨t, ht⟩ := idx_onto ⟨(i 0).val / 512, by omega⟩
  have q0 : win2_3.index t (0 : Fin 2) = (i 0).val / 512 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 1024 ≤ (i 1).val ∧ (i 1).val < win2_3.index t (1 : Fin 2) * 1024 + 1024; omega

/-- The result array after the region: every entry (r, j) is row r of the input against row j of the weight, plus the
    bias at j. -/
theorem final (c : Dev nD) : (dat (F := Ideal) V c).arrAt 3 cfg2.N = G V c :=
  (dat (F := Ideal) V c).arrAt_eq_of_cover 3 (G V c) (fun t _ => flushed_eq V c t) cover

/-- The same, read at an entry. -/
theorem final_apply (c : Dev nD) (r : Fin 4096) (j : Fin 1024) :
    (dat (F := Ideal) V c).arrAt 3 cfg2.N (ix2 r j)
      = rowDotBias (M := 4096) (N := 1024) (K := 1024) (V c main_v4) (V c main_arg2) (V c main_v5) (ix2 r j) :=
  congrFun (final V c) (ix2 r j)

end Value

end Cert.KernelIdeal.OutProjValue

end
-- ==== Proof.LibDense.lean ====
/-
  General facts, at the exact instance (floats as extended reals), about the operations a dense layer and a row softmax
  are made of, each read at an index written by its coordinates:
  a matrix product into a zero accumulator is the sum over the contracted axis of the products of the row's and the
  column's entries; a vector cast to one row and broadcast down the rows is the vector at the column; a vector cast
  to one column and broadcast along the rows is the vector at the row; a sum and a maximum over the second axis of a
  matrix are the sum and the maximum of the row's entries.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibDense

open Idealize.ShloMosaic Idealize.ShloMosaic.ValueIdx

variable {α : Type} {M K N : Nat}

/-- A matrix product of an [M, K] by a [K, N] matrix into the zero accumulator, read at (p, q): the sum over the
    contracted coordinate k of x(p, k) · w(k, q). The four hypotheses say which operand coordinate each of the
    product's index maps takes from the output index and which from the contraction index. -/
theorem matmul_zero_rc {φ₁ φ₂ : FTy} (D : DotDims ⟨2, ![M, K]⟩ ⟨2, ![K, N]⟩ ⟨2, ![M, N]⟩) (hr : D.contr.rank = 1)
    (hs : D.contr.size ⟨0, by omega⟩ = K)
    (hl0 : ∀ (i : (⟨2, ![M, N]⟩ : Shape).Idx) (c : D.contr.Idx), (D.lhsIdx i c 0).val = (i 0).val)
    (hl1 : ∀ (i : (⟨2, ![M, N]⟩ : Shape).Idx) (c : D.contr.Idx), (D.lhsIdx i c 1).val = (c ⟨0, by omega⟩).val)
    (hr0 : ∀ (i : (⟨2, ![M, N]⟩ : Shape).Idx) (c : D.contr.Idx), (D.rhsIdx i c 0).val = (c ⟨0, by omega⟩).val)
    (hr1 : ∀ (i : (⟨2, ![M, N]⟩ : Shape).Idx) (c : D.contr.Idx), (D.rhsIdx i c 1).val = (i 1).val)
    (prec : Option ContractPrecision)
    (x : FVec Ideal ⟨2, ![M, K]⟩ φ₁) (w : FVec Ideal ⟨2, ![K, N]⟩ φ₂) (p : Fin M) (q : Fin N) :
    matmul D prec x w (constant ⟨2, ![M, N]⟩ .f32 0x00000000#32) (ix2 p q) = ∑ k : Fin K, x (ix2 p k) * w (ix2 k q) := by
  refine (Ideal.matmul_constant_zero_apply D prec x w (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- An [N] vector cast to one row [1, N] and broadcast to [M, N] reads, at (p, q), the vector at q. -/
theorem rowBroadcast_rc (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (p : Fin M) (q : Fin N) :
    broadcastTo ⟨2, ![M, N]⟩ (shapeCast ⟨2, ![1, N]⟩ b h1) h2 (ix2 p q) = b (ix1 q) :=
  (broadcastTo_1b_ab_apply _ h2 p q).trans (shapeCast_a_1a_apply b h1 0 q)

/-- An [M] vector cast to one column [M, 1] reads, at (p, u), the vector at p. -/
theorem shapeCast_a_a1_apply (v : (⟨1, ![M]⟩ : Shape).Idx → α) (h : (⟨1, ![M]⟩ : Shape).ShapeCasts ⟨2, ![M, 1]⟩)
    (p : Fin M) (u : Fin 1) : shapeCast ⟨2, ![M, 1]⟩ v h (ix2 p u) = v (ix1 p) :=
  shapeCast_apply v h _ _ (by
    have hu : u.val = 0 := by omega
    rw [Shape.rowMajor_val_two, Shape.rowMajor_val_one]
    show p.val = p.val * 1 + u.val
    omega)

/-- An [M, 1] column cast to the [M] vector reads, at p, the column at (p, 0). -/
theorem shapeCast_a1_a_apply (v : (⟨2, ![M, 1]⟩ : Shape).Idx → α) (h : (⟨2, ![M, 1]⟩ : Shape).ShapeCasts ⟨1, ![M]⟩)
    (p : Fin M) : shapeCast ⟨1, ![M]⟩ v h (ix1 p) = v (ix2 p (0 : Fin 1)) :=
  shapeCast_apply v h _ _ (by
    rw [Shape.rowMajor_val_two, Shape.rowMajor_val_one]
    show p.val * 1 + 0 = p.val
    omega)

/-- An [M, 1] column broadcast along the rows to [M, N] reads, at (p, q), the column at (p, 0). -/
theorem broadcastTo_a1_ab_apply (v : (⟨2, ![M, 1]⟩ : Shape).Idx → α) (h : (⟨2, ![M, 1]⟩ : Shape).Broadcasts ⟨2, ![M, N]⟩)
    (p : Fin M) (q : Fin N) : broadcastTo ⟨2, ![M, N]⟩ v h (ix2 p q) = v (ix2 p (0 : Fin 1)) := by
  refine broadcastTo_apply v h (ix2 p q) (ix2 p (0 : Fin 1)) fun ax => ?_
  match ax with
  | ⟨0, _⟩ =>
    show p.val = if M = 1 then 0 else p.val
    split
    · have := p.isLt; omega
    · rfl
  | ⟨1, _⟩ => rfl

/-- An [M] vector cast to one column and broadcast along the rows to [M, N] reads, at (p, q), the vector at p. -/
theorem colBroadcast_rc (v : (⟨1, ![M]⟩ : Shape).Idx → α) (h1 : (⟨1, ![M]⟩ : Shape).ShapeCasts ⟨2, ![M, 1]⟩)
    (h2 : (⟨2, ![M, 1]⟩ : Shape).Broadcasts ⟨2, ![M, N]⟩) (p : Fin M) (q : Fin N) :
    broadcastTo ⟨2, ![M, N]⟩ (shapeCast ⟨2, ![M, 1]⟩ v h1) h2 (ix2 p q) = v (ix1 p) :=
  (broadcastTo_a1_ab_apply _ h2 p q).trans (shapeCast_a_a1_apply v h1 p 0)

/-- The index of an [M, N] matrix that drops to p when the second axis is reduced, with k put on that axis, is (p, k). -/
theorem lift_row (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- The sum over the second axis of an [M, N] matrix, read at row p: the sum of the row's entries. -/
theorem rowSum_apply (src : FVec Ideal ⟨2, ![M, N]⟩ .f32) (h : (⟨2, ![M, N]⟩ : Shape).Reduces [1] ⟨1, ![M]⟩)
    (hφ : FKind.Formats .f32) (hacc : (0x00000000#32 : BitVec 32) = 0x00000000#32) (p : Fin M) :
    multiReduction .add [1] ⟨1, ![M]⟩ src 0x00000000#32 h hφ hacc (ix1 p) = ∑ k : Fin N, src (ix2 p k) := by
  refine (Ideal.multiReduction_add_single src 0x00000000#32 h hφ hacc (ix1 p)).trans ?_
  exact Finset.sum_congr rfl fun k _ => congrArg src (lift_row h p k)

/-- The maximum over the second axis of an [M, N] matrix, read at row p: the fold of max, from minus infinity's
    pattern, over the row's entries. -/
theorem rowMax_apply (src : FVec Ideal ⟨2, ![M, N]⟩ .f32) (h : (⟨2, ![M, N]⟩ : Shape).Reduces [1] ⟨1, ![M]⟩)
    (hφ : FKind.Formats .f32) (hacc : (0xFF800000#32 : BitVec 32) = 0xFF800000#32) (p : Fin M) :
    multiReduction .maximumf [1] ⟨1, ![M]⟩ src 0xFF800000#32 h hφ hacc (ix1 p)
      = (Finset.univ : Finset (Fin N)).fold max (Ideal.ofBits .f32 0xFF800000#32) (fun k => src (ix2 p k)) := by
  refine (Ideal.multiReduction_maximumf_single src 0xFF800000#32 h hφ hacc (ix1 p)).trans ?_
  have e : (src ∘ h.lift (ix1 p)) = fun k => src (ix2 p k) := funext fun k => congrArg src (lift_row h p k)
  rw [e]
  rfl

/-- The host's reduction by maximum over the second axis of an [M, N] matrix, read at row p: the same fold, from the
    initial value's one element. -/
theorem hostRowMax_apply {u : Shape} (x : (⟨2, ![M, N]⟩ : Shape).Idx → EReal) (init : u.Idx → EReal)
    (h' : (⟨2, ![M, N]⟩ : Shape).ReducesTo [1] ⟨1, ![M]⟩) (h : (⟨2, ![M, N]⟩ : Shape).Reduces [1] ⟨1, ![M]⟩)
    (hu : 0 < u.numel) (p : Fin M) :
    Host.reduce (FloatOps.maximumf (F := Ideal) (φ := .f32)) x init h' hu (ix1 p)
      = (Finset.univ : Finset (Fin N)).fold max (init (Shape.Idx.first hu)) (fun k => x (ix2 p k)) := by
  refine (Host.reduce_eq_fold_single _ x init h' h hu (ix1 p)).trans ?_
  have e : (x ∘ h.lift (ix1 p)) = fun k => x (ix2 p k) := funext fun k => congrArg x (lift_row h p k)
  rw [e]
  rfl

/-! ## What a dense layer and a row softmax compute -/

/-- The f32 zero word's value (the rectifier's threshold and the sums' initial value). -/
abbrev zeroWord : EReal := Ideal.ofBits .f32 0x00000000#32

/-- Minus infinity's f32 word's value (the maximum's initial value). -/
abbrev negInfWord : EReal := Ideal.ofBits .f32 0xFF800000#32

/-- An affine map's entry: at (r, j), the sum over k of x(r, k) · w(k, j), plus b(j). -/
def affine (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => ∑ k : Fin K, x (ix2 (n0 := M) (n1 := K) ⟨(i 0).val, (i 0).isLt⟩ k) * w (ix2 (n0 := K) (n1 := N) k ⟨(i 1).val, (i 1).isLt⟩)
    + b (ix1 (n := N) ⟨(i 1).val, (i 1).isLt⟩)

theorem affine_apply (x : (⟨2, ![M, K]⟩ : Shape).Idx → EReal) (w : (⟨2, ![K, N]⟩ : Shape).Idx → EReal)
    (b : (⟨1, ![N]⟩ : Shape).Idx → EReal) (p : Fin M) (q : Fin N) :
    affine x w b (ix2 p q) = ∑ k : Fin K, x (ix2 p k) * w (ix2 k q) + b (ix1 q) := rfl

/-- One dense layer with the rectifier: the affine map's entry or the zero word's value, whichever is larger. -/
def layer (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => max (affine x w b i) zeroWord

theorem layer_apply (x : (⟨2, ![M, K]⟩ : Shape).Idx → EReal) (w : (⟨2, ![K, N]⟩ : Shape).Idx → EReal)
    (b : (⟨1, ![N]⟩ : Shape).Idx → EReal) (p : Fin M) (q : Fin N) :
    layer x w b (ix2 p q) = max (∑ k : Fin K, x (ix2 p k) * w (ix2 k q) + b (ix1 q)) zeroWord := rfl

/-- A row's largest logit as both programs take it: the fold of max from minus infinity's word over the row, once more
    against that word. -/
def rowTop (l : Fin N → EReal) : EReal := max negInfWord ((Finset.univ : Finset (Fin N)).fold max negInfWord l)

/-- A softmax row as both programs compute it: each logit less the row's largest, exponentiated, over the sum of those
    exponentials (the exact quotient of extended reals). -/
def softmaxRow (l : Fin N → EReal) (v : Fin N) : EReal :=
  Ideal.div (Ideal.exp (l v - rowTop l)) (∑ u : Fin N, Ideal.exp (l u - rowTop l))

end Cert.LibDense

end
-- ==== Proof.Spec.lean ====
/-
  What the attention layer computes, entry by entry, over the extended reals.
  From the tokens x [2, 2048, 1024], the stacked projection weight [3072, 1024] (query, key and value rows, each 16 heads
  of 64 features), the output weight [1024, 1024] and the bias [1024]:
    proj(b, n, o)     = Σ_c x(b, n, c) · w_qkv(o, c)
    logit(b, h, n, m) = (Σ_d proj(b, n, q-column (h, d)) · proj(b, m, k-column (h, d))) · (the f32 word of 0.125)
    head(b, h, n, d)  = Σ_m softmax over m of logit(b, h, n, ·) at m, times proj(b, m, v-column (h, d))
    out(b, n, j)      = Σ_c head(b, c / 64, n, c % 64) · w_proj(j, c) + bias(j).
-/
import proofs.«140581_j58600533786988_2_alg».proof.Proof.LibDense

noncomputable section

namespace Cert.AttnSpec

open Idealize.ShloMosaic Idealize.ShloMosaic.ValueIdx Cert.LibDense

variable (x : (⟨3, ![2, 2048, 1024]⟩ : Shape).Idx → EReal) (wqkv : (⟨2, ![3072, 1024]⟩ : Shape).Idx → EReal)
  (wp : (⟨2, ![1024, 1024]⟩ : Shape).Idx → EReal) (bias : (⟨1, ![1024]⟩ : Shape).Idx → EReal)

/-- The projection's column of group `g` (0 query, 1 key, 2 value), head `h`, feature `d`: g · 1024 + h · 64 + d. -/
def col (g : Fin 3) (h : Fin 16) (d : Fin 64) : Fin 3072 := ⟨g.val * 1024 + h.val * 64 + d.val, by omega⟩

/-- The stacked projection of token (b, n) at column o. -/
def proj (b : Fin 2) (n : Fin 2048) (o : Fin 3072) : EReal := ∑ c : Fin 1024, x (ix3 b n c) * wqkv (ix2 o c)

/-- The scale both programs apply to the scores, as the kernel's f32 word (0.125). -/
abbrev eighth : EReal := Ideal.ofBits .f32 0x3E000000#32

/-- The scaled score of query row n against key row m in head h of batch b. -/
def logit (b : Fin 2) (h : Fin 16) (n m : Fin 2048) : EReal :=
  (∑ d : Fin 64, proj x wqkv b n (col 0 h d) * proj x wqkv b m (col 1 h d)) * eighth

/-- Head h's output for query row n, feature d: the softmax weights of the row against the value rows. -/
def head (b : Fin 2) (h : Fin 16) (n : Fin 2048) (d : Fin 64) : EReal :=
  ∑ m : Fin 2048, softmaxRow (logit x wqkv b h n) m * proj x wqkv b m (col 2 h d)

/-- The heads laid side by side: feature c of token (b, n) belongs to head c / 64, feature c % 64. -/
def merged (b : Fin 2) (n : Fin 2048) (c : Fin 1024) : EReal :=
  head x wqkv b ⟨c.val / 64, by omega⟩ n ⟨c.val % 64, by omega⟩

/-- The layer's result at (b, n, j). -/
def out (b : Fin 2) (n : Fin 2048) (j : Fin 1024) : EReal :=
  (∑ c : Fin 1024, merged x wqkv b n c * wp (ix2 j c)) + bias (ix1 j)

/-- The layer's result as one array. -/
def G : (⟨3, ![2, 2048, 1024]⟩ : Shape).Idx → EReal :=
  fun i => out x wqkv wp bias ⟨(i 0).val, (i 0).isLt⟩ ⟨(i 1).val, (i 1).isLt⟩ ⟨(i 2).val, (i 2).isLt⟩

theorem G_apply (b : Fin 2) (n : Fin 2048) (j : Fin 1024) :
    G x wqkv wp bias (ix3 b n j) = out x wqkv wp bias b n j := rfl

end Cert.AttnSpec

end
-- ==== Proof.AttnHead.lean ====
/-
  One attention head, entry by entry, over the extended reals.
  For query rows q [256, 64] and key and value rows k, v [2048, 64]: the scores are q · kᵀ scaled by one eighth; each
  score row is normalised by the exponential of its difference from the row's maximum over the row's sum of those
  exponentials; the head's result is those weights times v. Read at (n, d) it is
    Σ_m softmax over m of ((Σ_e q(n, e) · k(m, e)) · 1/8) at m, times v(m, d).
-/
import proofs.«140581_j58600533786988_2_alg».proof.Proof.Gen.KernelIdeal.Skeleton
import proofs.«140581_j58600533786988_2_alg».proof.Proof.LibDense
import proofs.«140581_j58600533786988_2_alg».proof.Proof.LibRowDot
import proofs.«140581_j58600533786988_2_alg».proof.Proof.Spec

noncomputable section

namespace Cert.KernelIdeal.AttnValue

open Idealize.ShloMosaic Idealize.ShloMosaic.ValueIdx
open Cert.KernelIdeal Cert.KernelIdeal.Gen Cert.LibDense Cert.LibRowDot

/-! ## The two matrix products' index maps -/

/-- The scores' product: [256, 64] by the transpose of [2048, 64]. -/
abbrev D1 : DotDims S256x64 S2048x64 S256x2048 := dot_S256x64_S2048x64_S256x2048_1_1_0_0_n_n
/-- The weighted sum's product: [256, 2048] by [2048, 64]. -/
abbrev D2 : DotDims S256x2048 S2048x64 S256x64 := dot_S256x2048_S2048x64_S256x64_1_0_0_1_n_n

theorem D1_rank : D1.contr.rank = 1 := rfl
theorem D1_size : D1.contr.size ⟨0, by rw [D1_rank]; omega⟩ = 64 := rfl
theorem D1_l0 (i : S256x2048.Idx) (c : D1.contr.Idx) : (D1.lhsIdx i c 0).val = (i 0).val := rfl
theorem D1_l1 (i : S256x2048.Idx) (c : D1.contr.Idx) : (D1.lhsIdx i c 1).val = (c ⟨0, by rw [D1_rank]; omega⟩).val := rfl
theorem D1_r0 (i : S256x2048.Idx) (c : D1.contr.Idx) : (D1.rhsIdx i c 0).val = (i 1).val := rfl
theorem D1_r1 (i : S256x2048.Idx) (c : D1.contr.Idx) : (D1.rhsIdx i c 1).val = (c ⟨0, by rw [D1_rank]; omega⟩).val := rfl

theorem D2_rank : D2.contr.rank = 1 := rfl
theorem D2_size : D2.contr.size ⟨0, by rw [D2_rank]; omega⟩ = 2048 := rfl
theorem D2_l0 (i : S256x64.Idx) (c : D2.contr.Idx) : (D2.lhsIdx i c 0).val = (i 0).val := rfl
theorem D2_l1 (i : S256x64.Idx) (c : D2.contr.Idx) : (D2.lhsIdx i c 1).val = (c ⟨0, by rw [D2_rank]; omega⟩).val := rfl
theorem D2_r0 (i : S256x64.Idx) (c : D2.contr.Idx) : (D2.rhsIdx i c 0).val = (c ⟨0, by rw [D2_rank]; omega⟩).val := rfl
theorem D2_r1 (i : S256x64.Idx) (c : D2.contr.Idx) : (D2.rhsIdx i c 1).val = (i 1).val := rfl

/-! ## The head's stages -/

/-- The scaled scores: q · kᵀ into the zero accumulator, times the word of one eighth. -/
def scores (q : FVec Ideal S256x64 .bf16) (k : FVec Ideal S2048x64 .bf16) : FVec Ideal S256x2048 .f32 :=
  mulf (matmul D1 none q k (constant (F := Ideal) S256x2048 .f32 0x00000000#32))
    (broadcast S256x2048 (Scalar.ofBits (F := Ideal) .f32 0x3E000000#32))

/-- A [256] vector laid as a column and repeated along each row of [256, 2048]. -/
def colOf (r : FVec Ideal S256 .f32) : FVec Ideal S256x2048 .f32 :=
  broadcastTo S256x2048 (shapeCast S256x1 r shapeCasts_S256_S256x1) broadcasts_S256x1_S256x2048

/-- Each row's maximum, folded from minus infinity's word. -/
def rowMaxOf (s : FVec Ideal S256x2048 .f32) : FVec Ideal S256 .f32 :=
  multiReduction (F := Ideal) .maximumf [1] S256 s 0xFF800000#32 reduces_S256x2048_S256 (.inl rfl) rfl

/-- Each row's sum, from the zero word. -/
def rowSumOf (s : FVec Ideal S256x2048 .f32) : FVec Ideal S256 .f32 :=
  multiReduction (F := Ideal) .add [1] S256 s 0x00000000#32 reduces_S256x2048_S256 (.inl rfl) rfl

/-- The exponential of each score less its row's maximum. -/
def expo (s : FVec Ideal S256x2048 .f32) : FVec Ideal S256x2048 .f32 := exp (subf s (colOf (rowMaxOf s)))

/-- The softmax weights: each exponential over its row's sum of exponentials. -/
def weights (s : FVec Ideal S256x2048 .f32) : FVec Ideal S256x2048 .bf16 :=
  truncf .bf16 (divf (expo s) (colOf (rowSumOf (expo s)))) bitsLt_bf16_f32

/-- One head: the weights of the scaled scores, times the value rows, into the zero accumulator. -/
def headExpr (q : FVec Ideal S256x64 .bf16) (k v : FVec Ideal S2048x64 .bf16) : FVec Ideal S256x64 .f32 :=
  matmul D2 none (weights (scores q k)) v (constant (F := Ideal) S256x64 .f32 0x00000000#32)

/-! ## The stages read at an index -/

theorem scores_apply (q : FVec Ideal S256x64 .bf16) (k : FVec Ideal S2048x64 .bf16) (n : Fin 256) (m : Fin 2048) :
    scores q k (ix2 n m) = (∑ e : Fin 64, q (ix2 n e) * k (ix2 m e)) * Cert.AttnSpec.eighth := by
  unfold scores
  refine (mulf_apply _ _ _).trans ?_
  exact congrArg (· * Cert.AttnSpec.eighth) (matmul_zero_rr D1 D1_rank D1_size D1_l0 D1_l1 D1_r0 D1_r1 none q k n m)

theorem colOf_apply (r : FVec Ideal S256 .f32) (n : Fin 256) (m : Fin 2048) : colOf r (ix2 n m) = r (ix1 n) :=
  colBroadcast_rc r _ _ n m

/-- Minus infinity's word is the least extended real. -/
theorem negInfWord_eq_bot : (Ideal.ofBits .f32 0xFF800000#32 : EReal) = ⊥ := by simp [Ideal.ofBits, Ideal.ieee]

/-- So the maximum against it once more changes nothing: a row's top is its fold. -/
theorem rowTop_eq_fold {N : Nat} (l : Fin N → EReal) :
    rowTop l = (Finset.univ : Finset (Fin N)).fold max (Ideal.ofBits .f32 0xFF800000#32) l := by
  unfold rowTop negInfWord
  rw [negInfWord_eq_bot]
  exact max_eq_right bot_le

theorem rowMaxOf_apply (s : FVec Ideal S256x2048 .f32) (n : Fin 256) :
    rowMaxOf s (ix1 n) = rowTop (fun m' : Fin 2048 => s (ix2 n m')) :=
  (rowMax_apply s _ _ _ n).trans (rowTop_eq_fold _).symm

theorem rowSumOf_apply (s : FVec Ideal S256x2048 .f32) (n : Fin 256) :
    rowSumOf s (ix1 n) = ∑ u : Fin 2048, s (ix2 n u) := rowSum_apply s _ _ _ n

theorem expo_apply (s : FVec Ideal S256x2048 .f32) (n : Fin 256) (m : Fin 2048) :
    expo s (ix2 n m) = Ideal.exp (s (ix2 n m) - rowTop (fun m' : Fin 2048 => s (ix2 n m'))) := by
  show Ideal.exp (s (ix2 n m) - colOf (rowMaxOf s) (ix2 n m)) = _
  rw [colOf_apply, rowMaxOf_apply]

theorem weights_apply (s : FVec Ideal S256x2048 .f32) (n : Fin 256) (m : Fin 2048) :
    weights s (ix2 n m) = softmaxRow (fun m' : Fin 2048 => s (ix2 n m')) m := by
  show Ideal.div (expo s (ix2 n m)) (colOf (rowSumOf (expo s)) (ix2 n m)) = _
  rw [colOf_apply, rowSumOf_apply]
  simp only [expo_apply]
  rfl

/-- THE HEAD AT (n, d): the softmax weights of row n's scaled scores against the value rows' column d. -/
theorem headExpr_apply (q : FVec Ideal S256x64 .bf16) (k v : FVec Ideal S2048x64 .bf16) (n : Fin 256) (d : Fin 64) :
    headExpr q k v (ix2 n d)
      = ∑ m : Fin 2048, softmaxRow (fun m' : Fin 2048 => (∑ e : Fin 64, q (ix2 n e) * k (ix2 m' e)) * Cert.AttnSpec.eighth) m
          * v (ix2 m d) := by
  unfold headExpr
  refine (matmul_zero_rc D2 D2_rank D2_size D2_l0 D2_l1 D2_r0 D2_r1 none (weights (scores q k)) v n d).trans ?_
  refine Finset.sum_congr rfl fun m _ => ?_
  rw [weights_apply]
  simp only [scores_apply]

end Cert.KernelIdeal.AttnValue

end
-- ==== Proof.AttnBlock.lean ====
/-
  The attention region's result block, entry by entry.
  One grid point's staging blocks hold 256 query rows and 2048 key and value rows, each row 16 heads of 64 features.
  Head h's rows are the rectangle at head coordinate h, cast to a matrix; the body computes the head expression of each
  head's three matrices, lays the sixteen [256, 64] results side by side along the columns, and casts the [256, 1024]
  matrix to the [1, 256, 1024] block. So the block at (0, r, h · 64 + d) is head h's expression at (r, d).
-/
import proofs.«140581_j58600533786988_2_alg».proof.Proof.Attn
import proofs.«140581_j58600533786988_2_alg».proof.Proof.AttnHead
import Idealize.ShloMosaic.Lib.Pipeline.Value

set_option maxRecDepth 16384

noncomputable section

namespace Cert.KernelIdeal.AttnValue

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Attn Cert.LibDense Cert.LibRowDot

/-! ## A head's rows out of a staging block -/

/-- A [1, 256, 1, 1, 64] array cast to [256, 64] reads, at (n, e), the array at (0, n, 0, 0, e). -/
theorem cast256_apply {α : Type} (x : S1x256x1x1x64.Idx → α) (h : S1x256x1x1x64.ShapeCasts S256x64) (n : Fin 256) (e : Fin 64) :
    shapeCast S256x64 x h (ix2 n e) = x (ix5 (0 : Fin 1) n (0 : Fin 1) (0 : Fin 1) e) :=
  shapeCast_apply x h _ _ (by
    rw [Shape.rowMajor_val_five, Shape.rowMajor_val_two]
    show ((((0 : Nat) * 256 + n.val) * 1 + 0) * 1 + 0) * 64 + e.val = n.val * 64 + e.val
    omega)

/-- A [1, 2048, 1, 1, 64] array cast to [2048, 64] reads, at (m, e), the array at (0, m, 0, 0, e). -/
theorem cast2048_apply {α : Type} (x : S1x2048x1x1x64.Idx → α) (h : S1x2048x1x1x64.ShapeCasts S2048x64) (m : Fin 2048) (e : Fin 64) :
    shapeCast S2048x64 x h (ix2 m e) = x (ix5 (0 : Fin 1) m (0 : Fin 1) (0 : Fin 1) e) :=
  shapeCast_apply x h _ _ (by
    rw [Shape.rowMajor_val_five, Shape.rowMajor_val_two]
    show ((((0 : Nat) * 2048 + m.val) * 1 + 0) * 1 + 0) * 64 + e.val = m.val * 64 + e.val
    omega)

/-- Head h's rectangle lies inside the query block … -/
theorem inbQ (h : Fin 16) : ∀ a, (![0, 0, 0, h.val, 0] : Fin 5 → Nat) a + S1x256x1x1x64.size a ≤ S1x256x1x16x64.size a := by
  intro a
  match a with
  | ⟨0, _⟩ => show 0 + 1 ≤ 1; omega
  | ⟨1, _⟩ => show 0 + 256 ≤ 256; omega
  | ⟨2, _⟩ => show 0 + 1 ≤ 1; omega
  | ⟨3, _⟩ => show h.val + 1 ≤ 16; omega
  | ⟨4, _⟩ => show 0 + 64 ≤ 64; omega

/-- … and inside a key or value block. -/
theorem inbK (h : Fin 16) : ∀ a, (![0, 0, 0, h.val, 0] : Fin 5 → Nat) a + S1x2048x1x1x64.size a ≤ S1x2048x1x16x64.size a := by
  intro a
  match a with
  | ⟨0, _⟩ => show 0 + 1 ≤ 1; omega
  | ⟨1, _⟩ => show 0 + 2048 ≤ 2048; omega
  | ⟨2, _⟩ => show 0 + 1 ≤ 1; omega
  | ⟨3, _⟩ => show h.val + 1 ≤ 16; omega
  | ⟨4, _⟩ => show 0 + 64 ≤ 64; omega

abbrev castQ (v : Vec Ideal S1x256x1x1x64 .bf16) : FVec Ideal S256x64 .bf16 := shapeCast S256x64 v shapeCasts_S1x256x1x1x64_S256x64
abbrev castK (v : Vec Ideal S1x2048x1x1x64 .bf16) : FVec Ideal S2048x64 .bf16 := shapeCast S2048x64 v shapeCasts_S1x2048x1x1x64_S2048x64

/-- Head h's 256 query rows, as a [256, 64] matrix. -/
def qRows (xq : Vec Ideal S1x256x1x16x64 .bf16) (h : Fin 16) : FVec Ideal S256x64 .bf16 :=
  castQ (View.ld xq (Rect.unit ![0, 0, 0, h.val, 0] S1x256x1x1x64.size (inbQ h)))

/-- Head h's 2048 key (or value) rows, as a [2048, 64] matrix. -/
def kRows (xk : Vec Ideal S1x2048x1x16x64 .bf16) (h : Fin 16) : FVec Ideal S2048x64 .bf16 :=
  castK (View.ld xk (Rect.unit ![0, 0, 0, h.val, 0] S1x2048x1x1x64.size (inbK h)))

theorem qRows_apply (xq : Vec Ideal S1x256x1x16x64 .bf16) (h : Fin 16) (n : Fin 256) (e : Fin 64) :
    qRows xq h (ix2 n e) = xq (ix5 (0 : Fin 1) n (0 : Fin 1) h e) := by
  unfold qRows
  refine (cast256_apply _ _ n e).trans ?_
  show xq _ = xq _
  refine congrArg xq (funext fun a => Fin.ext ?_)
  match a with
  | ⟨0, _⟩ => show 0 + 1 * 0 = 0; omega
  | ⟨1, _⟩ => show 0 + 1 * n.val = n.val; omega
  | ⟨2, _⟩ => show 0 + 1 * 0 = 0; omega
  | ⟨3, _⟩ => show h.val + 1 * 0 = h.val; omega
  | ⟨4, _⟩ => show 0 + 1 * e.val = e.val; omega

theorem kRows_apply (xk : Vec Ideal S1x2048x1x16x64 .bf16) (h : Fin 16) (m : Fin 2048) (e : Fin 64) :
    kRows xk h (ix2 m e) = xk (ix5 (0 : Fin 1) m (0 : Fin 1) h e) := by
  unfold kRows
  refine (cast2048_apply _ _ m e).trans ?_
  show xk _ = xk _
  refine congrArg xk (funext fun a => Fin.ext ?_)
  match a with
  | ⟨0, _⟩ => show 0 + 1 * 0 = 0; omega
  | ⟨1, _⟩ => show 0 + 1 * m.val = m.val; omega
  | ⟨2, _⟩ => show 0 + 1 * 0 = 0; omega
  | ⟨3, _⟩ => show h.val + 1 * 0 = h.val; omega
  | ⟨4, _⟩ => show 0 + 1 * e.val = e.val; omega

/-! ## The sixteen heads -/

/-- Head h of one grid point: the head expression of its query, key and value rows. -/
def hd (xq : Vec Ideal S1x256x1x16x64 .bf16) (xk xv : Vec Ideal S1x2048x1x16x64 .bf16) (h : Fin 16) : FVec Ideal S256x64 .f32 :=
  headExpr (qRows xq h) (kRows xk h) (kRows xv h)

theorem hd_apply (xq : Vec Ideal S1x256x1x16x64 .bf16) (xk xv : Vec Ideal S1x2048x1x16x64 .bf16) (h : Fin 16) (n : Fin 256) (d : Fin 64) :
    hd xq xk xv h (ix2 n d)
      = ∑ m : Fin 2048, softmaxRow (fun m' : Fin 2048 =>
            (∑ e : Fin 64, xq (ix5 (0 : Fin 1) n (0 : Fin 1) h e) * xk (ix5 (0 : Fin 1) m' (0 : Fin 1) h e)) * Cert.AttnSpec.eighth) m
          * xv (ix5 (0 : Fin 1) m (0 : Fin 1) h d) := by
  unfold hd
  rw [headExpr_apply]
  simp only [qRows_apply, kRows_apply]

/-! ## Each head's payload is the head expression of its three loads -/

theorem pay1_eq (vq : Vec Ideal S1x256x1x1x64 .bf16) (vk vv : Vec Ideal S1x2048x1x1x64 .bf16) :
    k1_pay1 (F := Ideal) vq vk vv = headExpr (castQ vq) (castK vk) (castK vv) := rfl
theorem pay8_eq (vq : Vec Ideal S1x256x1x1x64 .bf16) (vk vv : Vec Ideal S1x2048x1x1x64 .bf16) :
    k1_pay8 (F := Ideal) vq vk vv = headExpr (castQ vq) (castK vk) (castK vv) := rfl
theorem pay15_eq (vq : Vec Ideal S1x256x1x1x64 .bf16) (vk vv : Vec Ideal S1x2048x1x1x64 .bf16) :
    k1_pay15 (F := Ideal) vq vk vv = headExpr (castQ vq) (castK vk) (castK vv) := rfl
theorem pay22_eq (vq : Vec Ideal S1x256x1x1x64 .bf16) (vk vv : Vec Ideal S1x2048x1x1x64 .bf16) :
    k1_pay22 (F := Ideal) vq vk vv = headExpr (castQ vq) (castK vk) (castK vv) := rfl
theorem pay29_eq (vq : Vec Ideal S1x256x1x1x64 .bf16) (vk vv : Vec Ideal S1x2048x1x1x64 .bf16) :
    k1_pay29 (F := Ideal) vq vk vv = headExpr (castQ vq) (castK vk) (castK vv) := rfl
theorem pay35_eq (vq : Vec Ideal S1x256x1x1x64 .bf16) (vk vv : Vec Ideal S1x2048x1x1x64 .bf16) :
    k1_pay35 (F := Ideal) vq vk vv = headExpr (castQ vq) (castK vk) (castK vv) := rfl
theorem pay4_eq (vq : Vec Ideal S1x256x1x1x64 .bf16) (vk vv : Vec Ideal S1x2048x1x1x64 .bf16) :
    k1_pay4 (F := Ideal) (k1_pay2 vq) (k1_pay3 vk) vv = headExpr (castQ vq) (castK vk) (castK vv) := rfl
theorem pay11_eq (vq : Vec Ideal S1x256x1x1x64 .bf16) (vk vv : Vec Ideal S1x2048x1x1x64 .bf16) :
    k1_pay11 (F := Ideal) (k1_pay9 vq) (k1_pay10 vk) vv = headExpr (castQ vq) (castK vk) (castK vv) := rfl
theorem pay18_eq (vq : Vec Ideal S1x256x1x1x64 .bf16) (vk vv : Vec Ideal S1x2048x1x1x64 .bf16) :
    k1_pay18 (F := Ideal) (k1_pay16 vq) (k1_pay17 vk) vv = headExpr (castQ vq) (castK vk) (castK vv) := rfl
theorem pay25_eq (vq : Vec Ideal S1x256x1x1x64 .bf16) (vk vv : Vec Ideal S1x2048x1x1x64 .bf16) :
    k1_pay25 (F := Ideal) (k1_pay23 vq) (k1_pay24 vk) vv = headExpr (castQ vq) (castK vk) (castK vv) := rfl
theorem pay32_eq (vq : Vec Ideal S1x256x1x1x64 .bf16) (vk vv : Vec Ideal S1x2048x1x1x64 .bf16) :
    k1_pay32 (F := Ideal) (k1_pay30 vq) (k1_pay31 vk) vv = headExpr (castQ vq) (castK vk) (castK vv) := rfl
theorem pay7_eq (vq : Vec Ideal S1x256x1x1x64 .bf16) (vk vv : Vec Ideal S1x2048x1x1x64 .bf16) :
    k1_pay7 (F := Ideal) (k1_pay5 vv) (k1_pay6 vq vk) = headExpr (castQ vq) (castK vk) (castK vv) := rfl
theorem pay14_eq (vq : Vec Ideal S1x256x1x1x64 .bf16) (vk vv : Vec Ideal S1x2048x1x1x64 .bf16) :
    k1_pay14 (F := Ideal) (k1_pay12 vv) (k1_pay13 vq vk) = headExpr (castQ vq) (castK vk) (castK vv) := rfl
theorem pay21_eq (vq : Vec Ideal S1x256x1x1x64 .bf16) (vk vv : Vec Ideal S1x2048x1x1x64 .bf16) :
    k1_pay21 (F := Ideal) (k1_pay19 vv) (k1_pay20 vq vk) = headExpr (castQ vq) (castK vk) (castK vv) := rfl
theorem pay28_eq (vq : Vec Ideal S1x256x1x1x64 .bf16) (vk vv : Vec Ideal S1x2048x1x1x64 .bf16) :
    k1_pay28 (F := Ideal) (k1_pay26 vv) (k1_pay27 vq vk) = headExpr (castQ vq) (castK vk) (castK vv) := rfl
theorem pay34_eq (vq : Vec Ideal S1x256x1x1x64 .bf16) (vk vv : Vec Ideal S1x2048x1x1x64 .bf16) :
    matmul (F := Ideal) dot_S256x2048_S2048x64_S256x64_1_0_0_1_n_n none (k1_pay34 vq vk) (k1_pay33 vv)
        (constant (F := Ideal) S256x64 .f32 0x00000000#32)
      = headExpr (castQ vq) (castK vk) (castK vv) := rfl

/-! ## The block: the sixteen heads side by side -/

/-- What one grid point leaves in its [1, 256, 1024] result block. -/
def blockVal (xq : Vec Ideal S1x256x1x16x64 .bf16) (xk xv : Vec Ideal S1x2048x1x16x64 .bf16) : FVec Ideal S1x256x1024 .bf16 :=
  shapeCast S1x256x1024
    (truncf .bf16
      (concatenate S256x1024 (1 : Fin 2)
        (List.ofFn fun h : Fin 16 => (⟨S256x64, hd xq xk xv h⟩ : (s : Shape) × (s.Idx → Ideal .f32)))
        concatenates_S256x64_S256x64_S256x64_S256x64_S256x64_S256x64_S256x64_S256x64_S256x64_S256x64_S256x64_S256x64_S256x64_S256x64_S256x64_S256x64_S256x1024_d1)
      bitsLt_bf16_f32)
    shapeCasts_S256x1024_S1x256x1024

/-- THE BLOCK AT (0, r, h · 64 + d): head h at (r, d). -/
theorem blockVal_apply (xq : Vec Ideal S1x256x1x16x64 .bf16) (xk xv : Vec Ideal S1x2048x1x16x64 .bf16)
    (u : Fin 1) (r : Fin 256) (h : Fin 16) (d : Fin 64) (col : Fin 1024) (hcol : col.val = h.val * 64 + d.val) :
    blockVal xq xk xv (ix3 u r col) = hd xq xk xv h (ix2 r d) := by
  unfold blockVal
  refine (shapeCast_ab_1ab_apply _ _ u r col).trans ?_
  refine (truncf_apply (φ := .f32) (ψ := .bf16) _ bitsLt_bf16_f32 (ix2 r col)).trans ?_
  refine concatenate_ofFn_apply (t := S256x1024) (s₁ := S256x64) (1 : Fin 2) (fun h : Fin 16 => hd xq xk xv h) _ rfl 64 rfl
    (ix2 r col) h ?_ (ix2 r d) ?_ ?_
  · show col.val / 64 = h.val
    have := d.isLt; omega
  · show d.val = col.val % 64
    have := d.isLt; omega
  · intro b hb
    match b with
    | ⟨0, _⟩ => rfl
    | ⟨1, _⟩ => exact absurd rfl hb

/-! ## The found piece is that block -/

theorem hz3 : (![0, 0, 0] : Fin 3 → Nat) = fun _ => 0 := funext fun a => by fin_cases a <;> rfl

/-- What one grid point leaves in the result block, read back from the run's one piece: the block of the sixteen heads. -/
theorem attnOut_eq (c : Dev nD) (i : grid1.Coords)
    (arg2 : Memref sig .tc .vmem S1x256x1x16x64 .bf16) (harg2 : arg2.IsWhole)
    (arg3 : Memref sig .tc .vmem S1x2048x1x16x64 .bf16) (harg3 : arg3.IsWhole)
    (arg4 : Memref sig .tc .vmem S1x2048x1x16x64 .bf16) (harg4 : arg4.IsWhole)
    (arg5 : Memref sig .tc .vmem S1x256x1024 .bf16) (harg5 : arg5.IsWhole)
    (xq : Vec Ideal S1x256x1x16x64 .bf16) (xk : Vec Ideal S1x2048x1x16x64 .bf16) (xv : Vec Ideal S1x2048x1x16x64 .bf16) :
    attnOut (F := Ideal) c i arg2 harg2 arg3 harg3 arg4 harg4 arg5 harg5 xq xk xv = blockVal xq xk xv := by
  unfold attnOut
  rw [View.read_writes_eq_canon _ _ _ (attn_cover c i arg2 harg2 arg3 harg3 arg4 harg4 arg5 harg5 xq xk xv)]
  unfold attnRun
  dsimp only
  sl_unfold_words
  rw [View.canon_unit_zero hz3]
  simp only [View.readAt_eq_ld, harg2.read_unread, harg3.read_unread, harg4.read_unread]
  rw [pay1_eq, pay4_eq, pay7_eq, pay8_eq, pay11_eq, pay14_eq, pay15_eq, pay18_eq, pay21_eq, pay22_eq, pay25_eq, pay28_eq, pay29_eq, pay32_eq, pay34_eq, pay35_eq]
  rfl

end Cert.KernelIdeal.AttnValue

end
-- ==== Proof.AttnValue.lean ====
/-
  The attention region's value: what it leaves in its result array [2, 2048, 1024], as one function of what the array
  of projections [2, 2048, 3, 16, 64] (batch, token, group 0/1/2 = query/key/value, head, feature) held at region entry.
  Grid point t holds batch t / 8 and query tile t % 8: its query block is rows (t % 8) · 256 … of group 0, its key and
  value blocks all 2048 rows of groups 1 and 2, its result block rows (t % 8) · 256 … of the batch. Column c of a result
  row is head c / 64 at feature c % 64. The sixteen points' blocks tile the result array.
-/
import proofs.«140581_j58600533786988_2_alg».proof.Proof.AttnBlock

set_option maxRecDepth 16384

noncomputable section

namespace Cert.KernelIdeal.AttnValue

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Attn Cert.LibDense Cert.LibRowDot

/-! ## The target: attention of the projections' array, entry by entry -/

/-- Head h of batch b at query row n, feature d: the softmax weights of the row's scaled scores against the value rows. -/
def attnAt (A : S2x2048x3x16x64.Idx → EReal) (b : Fin 2) (n : Fin 2048) (h : Fin 16) (d : Fin 64) : EReal :=
  ∑ m : Fin 2048, softmaxRow (fun m' : Fin 2048 =>
        (∑ e : Fin 64, A (ix5 b n (0 : Fin 3) h e) * A (ix5 b m' (1 : Fin 3) h e)) * Cert.AttnSpec.eighth) m
      * A (ix5 b m (2 : Fin 3) h d)

/-- The result array: at (b, n, c), head c / 64 at feature c % 64. -/
def attnG (A : S2x2048x3x16x64.Idx → EReal) : S2x2048x1024.Idx → EReal := fun i =>
  attnAt A ⟨(i 0).val, (i 0).isLt⟩ ⟨(i 1).val, (i 1).isLt⟩
    ⟨(i 2).val / 64, by have h : (i 2).val < 1024 := (i 2).isLt; omega⟩
    ⟨(i 2).val % 64, by omega⟩

theorem attnG_apply (A : S2x2048x3x16x64.Idx → EReal) (b : Fin 2) (n : Fin 2048) (col : Fin 1024) :
    attnG A (ix3 b n col) = attnAt A b n ⟨col.val / 64, by omega⟩ ⟨col.val % 64, by omega⟩ := rfl

/-! ## One point's block is the target's block, given what its three input blocks are -/

/-- With the query block rows qt · 256 … of group 0 of batch bt, and the key and value blocks groups 1 and 2 of that
    batch, the result block at (u, r, col) is the target at (bt, qt · 256 + r, col). -/
theorem blockVal_eq_attnG (A : S2x2048x3x16x64.Idx → EReal)
    (xq : Vec Ideal S1x256x1x16x64 .bf16) (xk xv : Vec Ideal S1x2048x1x16x64 .bf16) (bt : Fin 2) (qt : Fin 8)
    (hq : ∀ (n : Fin 256) (h : Fin 16) (e : Fin 64),
      xq (ix5 (0 : Fin 1) n (0 : Fin 1) h e) = A (ix5 bt (⟨qt.val * 256 + n.val, by omega⟩ : Fin 2048) (0 : Fin 3) h e))
    (hk : ∀ (m : Fin 2048) (h : Fin 16) (e : Fin 64), xk (ix5 (0 : Fin 1) m (0 : Fin 1) h e) = A (ix5 bt m (1 : Fin 3) h e))
    (hv : ∀ (m : Fin 2048) (h : Fin 16) (e : Fin 64), xv (ix5 (0 : Fin 1) m (0 : Fin 1) h e) = A (ix5 bt m (2 : Fin 3) h e))
    (y : S1x256x1024.Idx) (i : S2x2048x1024.Idx) (hi0 : (i 0).val = bt.val) (hi1 : (i 1).val = qt.val * 256 + (y 1).val)
    (hi2 : (i 2).val = (y 2).val) :
    blockVal xq xk xv y = attnG A i := by
  obtain ⟨u, r, col, rfl⟩ : ∃ (u : Fin 1) (r : Fin 256) (col : Fin 1024), y = ix3 u r col := ⟨y 0, y 1, y 2, eq_ix3 y⟩
  rw [blockVal_apply xq xk xv u r ⟨col.val / 64, by omega⟩ ⟨col.val % 64, by omega⟩ col
    (by show col.val = col.val / 64 * 64 + col.val % 64; omega), hd_apply]
  simp only [hq, hk, hv]
  unfold attnG
  have e0 : (⟨(i 0).val, (i 0).isLt⟩ : Fin 2) = bt := Fin.ext hi0
  have e1 : (⟨(i 1).val, (i 1).isLt⟩ : Fin 2048) = ⟨qt.val * 256 + r.val, by omega⟩ := Fin.ext hi1
  have hi2' : (i 2).val = col.val := hi2
  have e2 : (⟨(i 2).val / 64, by have h : (i 2).val < 1024 := (i 2).isLt; omega⟩ : Fin 16) = ⟨col.val / 64, by omega⟩ :=
    Fin.ext (by show (i 2).val / 64 = col.val / 64; rw [hi2'])
  have e3 : (⟨(i 2).val % 64, by omega⟩ : Fin 64) = ⟨col.val % 64, by omega⟩ :=
    Fin.ext (by show (i 2).val % 64 = col.val % 64; rw [hi2'])
  rw [e0, e1, e2, e3]
  rfl

/-! ## The printed index maps over the grid, and the three input blocks as the array -/

theorem tlt (t : Fin cfg1.N) : t.val < 16 := Nat.lt_of_lt_of_eq t.isLt (N_1 : cfg1.N = 16)

/-- The block index of each window at each point, decided over the sixteen points. -/
theorem idx_facts : ∀ t : Fin cfg1.N,
    (win1_0.index t (0 : Fin 5) = t.val / 8 ∧ win1_0.index t (1 : Fin 5) = t.val % 8 ∧ win1_0.index t (2 : Fin 5) = 0
      ∧ win1_0.index t (3 : Fin 5) = 0 ∧ win1_0.index t (4 : Fin 5) = 0)
    ∧ (win1_1.index t (0 : Fin 5) = t.val / 8 ∧ win1_1.index t (1 : Fin 5) = 0 ∧ win1_1.index t (2 : Fin 5) = 1
      ∧ win1_1.index t (3 : Fin 5) = 0 ∧ win1_1.index t (4 : Fin 5) = 0)
    ∧ (win1_2.index t (0 : Fin 5) = t.val / 8 ∧ win1_2.index t (1 : Fin 5) = 0 ∧ win1_2.index t (2 : Fin 5) = 2
      ∧ win1_2.index t (3 : Fin 5) = 0 ∧ win1_2.index t (4 : Fin 5) = 0)
    ∧ (win1_3.index t (0 : Fin 3) = t.val / 8 ∧ win1_3.index t (1 : Fin 3) = t.val % 8 ∧ win1_3.index t (2 : Fin 3) = 0) :=
  (by decide +kernel : ∀ t : Fin grid1.N, _)

/-- Every result block is some point's. -/
theorem idx_onto : ∀ (q0 : Fin 2) (q1 : Fin 8), ∃ t : Fin cfg1.N, win1_3.index t = ![q0.val, q1.val, 0] :=
  (by decide +kernel : ∀ (q0 : Fin 2) (q1 : Fin 8), ∃ t : Fin grid1.N, win1_3.index t = ![q0.val, q1.val, 0])

section Data
variable (V : (c : Dev nD) → (b : Ref sig .tc) → Buf (Elt Ideal) ((c : Thread nD τ).loc b))

/-- The query block at point t: rows (t % 8) · 256 … of group 0 of batch t / 8. -/
theorem iblk0_apply (c : Dev nD) (t : Fin cfg1.N) (n : Fin 256) (h : Fin 16) (e : Fin 64) :
    (iblk V c 0 t : Vec Ideal S1x256x1x16x64 .bf16) (ix5 (0 : Fin 1) n (0 : Fin 1) h e)
      = (V c main_v2 : S2x2048x3x16x64.Idx → EReal)
          (ix5 (⟨t.val / 8, by have := tlt t; omega⟩ : Fin 2) (⟨t.val % 8 * 256 + n.val, by omega⟩ : Fin 2048) (0 : Fin 3) h e) := by
  obtain ⟨⟨f0, f1, f2, f3, f4⟩, -, -, -⟩ := idx_facts t
  unfold iblk
  rw [View.read_apply]
  show V c main_v2 _ = V c main_v2 _
  congr 1
  funext a
  apply Fin.ext
  match a with
  | ⟨0, _⟩ => show win1_0.index t (0 : Fin 5) * 1 + 1 * 0 = t.val / 8; rw [f0]; omega
  | ⟨1, _⟩ => show win1_0.index t (1 : Fin 5) * 256 + 1 * n.val = t.val % 8 * 256 + n.val; rw [f1]; omega
  | ⟨2, _⟩ => show win1_0.index t (2 : Fin 5) * 1 + 1 * 0 = 0; rw [f2]
  | ⟨3, _⟩ => show win1_0.index t (3 : Fin 5) * 16 + 1 * h.val = h.val; rw [f3]; omega
  | ⟨4, _⟩ => show win1_0.index t (4 : Fin 5) * 64 + 1 * e.val = e.val; rw [f4]; omega

/-- The key block at point t: all rows of group 1 of batch t / 8. -/
theorem iblk1_apply (c : Dev nD) (t : Fin cfg1.N) (m : Fin 2048) (h : Fin 16) (e : Fin 64) :
    (iblk V c 1 t : Vec Ideal S1x2048x1x16x64 .bf16) (ix5 (0 : Fin 1) m (0 : Fin 1) h e)
      = (V c main_v2 : S2x2048x3x16x64.Idx → EReal) (ix5 (⟨t.val / 8, by have := tlt t; omega⟩ : Fin 2) m (1 : Fin 3) h e) := by
  obtain ⟨-, ⟨f0, f1, f2, f3, f4⟩, -, -⟩ := idx_facts t
  unfold iblk
  rw [View.read_apply]
  show V c main_v2 _ = V c main_v2 _
  congr 1
  funext a
  apply Fin.ext
  match a with
  | ⟨0, _⟩ => show win1_1.index t (0 : Fin 5) * 1 + 1 * 0 = t.val / 8; rw [f0]; omega
  | ⟨1, _⟩ => show win1_1.index t (1 : Fin 5) * 2048 + 1 * m.val = m.val; rw [f1]; omega
  | ⟨2, _⟩ => show win1_1.index t (2 : Fin 5) * 1 + 1 * 0 = 1; rw [f2]
  | ⟨3, _⟩ => show win1_1.index t (3 : Fin 5) * 16 + 1 * h.val = h.val; rw [f3]; omega
  | ⟨4, _⟩ => show win1_1.index t (4 : Fin 5) * 64 + 1 * e.val = e.val; rw [f4]; omega

/-- The value block at point t: all rows of group 2 of batch t / 8. -/
theorem iblk2_apply (c : Dev nD) (t : Fin cfg1.N) (m : Fin 2048) (h : Fin 16) (e : Fin 64) :
    (iblk V c 2 t : Vec Ideal S1x2048x1x16x64 .bf16) (ix5 (0 : Fin 1) m (0 : Fin 1) h e)
      = (V c main_v2 : S2x2048x3x16x64.Idx → EReal) (ix5 (⟨t.val / 8, by have := tlt t; omega⟩ : Fin 2) m (2 : Fin 3) h e) := by
  obtain ⟨-, -, ⟨f0, f1, f2, f3, f4⟩, -⟩ := idx_facts t
  unfold iblk
  rw [View.read_apply]
  show V c main_v2 _ = V c main_v2 _
  congr 1
  funext a
  apply Fin.ext
  match a with
  | ⟨0, _⟩ => show win1_2.index t (0 : Fin 5) * 1 + 1 * 0 = t.val / 8; rw [f0]; omega
  | ⟨1, _⟩ => show win1_2.index t (1 : Fin 5) * 2048 + 1 * m.val = m.val; rw [f1]; omega
  | ⟨2, _⟩ => show win1_2.index t (2 : Fin 5) * 1 + 1 * 0 = 2; rw [f2]
  | ⟨3, _⟩ => show win1_2.index t (3 : Fin 5) * 16 + 1 * h.val = h.val; rw [f3]; omega
  | ⟨4, _⟩ => show win1_2.index t (4 : Fin 5) * 64 + 1 * e.val = e.val; rw [f4]; omega

/-! ## From blocks to the array -/

/-- What point t leaves in its result block is the block of the sixteen heads of its three input blocks. -/
theorem outAt_eq (c : Dev nD) (t : Fin cfg1.N) :
    outAt (F := Ideal) V c t = blockVal (iblk V c 0 t) (iblk V c 1 t) (iblk V c 2 t) :=
  attnOut_eq c (grid1.coords t) (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_3.stage (cfg1.slots t 3)) (hstage1_3 ((cfg1.slots t 3).cast nbuf1_3))
    (iblk V c 0 t) (iblk V c 1 t) (iblk V c 2 t)

/-- WHAT POINT t WRITES BACK is block t of the target of the projections' array as the region finds it. -/
theorem flushed_eq (c : Dev nD) (t : Fin cfg1.N) :
    (dat (F := Ideal) V c).flushed 3 t
      = ((cfg1.win 3).blk t).view.read (Elt Ideal) (attnG (V c main_v2 : S2x2048x3x16x64.Idx → EReal)) := by
  show (cfg1.win 3).cut (grid1.coords t) ((dat (F := Ideal) V c).after 3 t) = _
  rw [after_3, outAt_eq]
  obtain ⟨-, -, -, ⟨g0, g1, g2⟩⟩ := idx_facts t
  funext y
  rw [View.read_apply]
  refine blockVal_eq_attnG (V c main_v2 : S2x2048x3x16x64.Idx → EReal) (iblk V c 0 t) (iblk V c 1 t) (iblk V c 2 t)
    (⟨t.val / 8, by have := tlt t; omega⟩ : Fin 2) (⟨t.val % 8, by omega⟩ : Fin 8)
    (fun n h e => iblk0_apply V c t n h e) (fun m h e => iblk1_apply V c t m h e) (fun m h e => iblk2_apply V c t m h e)
    y (((cfg1.win 3).blk t).view.emb y) ?_ ?_ ?_
  · show win1_3.index t (0 : Fin 3) * 1 + 1 * (y 0).val = t.val / 8
    have hy : (y 0).val < 1 := (y 0).isLt
    rw [g0]; omega
  · show win1_3.index t (1 : Fin 3) * 256 + 1 * (y 1).val = t.val % 8 * 256 + (y 1).val
    rw [g1]; omega
  · show win1_3.index t (2 : Fin 3) * 1024 + 1 * (y 2).val = (y 2).val
    rw [g2]; omega

/-- An index of the result array is in point t's block iff each coordinate is in the block's range on its axis. -/
theorem mem_blk (t : Fin cfg1.N) (i : S2x2048x1024.Idx) :
    i ∈ ((cfg1.win 3).blk t).view.set ↔ ∀ a : Fin 3, win1_3.index t a * S1x256x1024.size a ≤ (i a).val
      ∧ (i a).val < win1_3.index t a * S1x256x1024.size a + S1x256x1024.size a := by
  show i ∈ ((View.whole main_v3).slice (win1_3.rect t)).set ↔ _
  rw [View.set_slice_whole, Rect.mem_set_unit]
  exact Iff.rfl

/-- The sixteen blocks cover the result array: row n of batch b is in the block of point b · 8 + n / 256. -/
theorem cover (i : S2x2048x1024.Idx) :
    ∃ t : Fin cfg1.N, (cfg1.win 3).flush t = true ∧ i ∈ ((cfg1.win 3).blk t).view.set := by
  have hi0 : (i 0).val < 2 := (i 0).isLt
  have hi1 : (i 1).val < 2048 := (i 1).isLt
  have hi2 : (i 2).val < 1024 := (i 2).isLt
  obtain ⟨t, ht⟩ := idx_onto ⟨(i 0).val, hi0⟩ ⟨(i 1).val / 256, by omega⟩
  have q0 : win1_3.index t (0 : Fin 3) = (i 0).val := congrFun ht 0
  have q1 : win1_3.index t (1 : Fin 3) = (i 1).val / 256 := congrFun ht 1
  have q2 : win1_3.index t (2 : Fin 3) = 0 := congrFun ht 2
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 256 ≤ (i 1).val ∧ (i 1).val < win1_3.index t (1 : Fin 3) * 256 + 256; omega
  | ⟨2, _⟩ => show win1_3.index t (2 : Fin 3) * 1024 ≤ (i 2).val ∧ (i 2).val < win1_3.index t (2 : Fin 3) * 1024 + 1024; omega

/-- THE RESULT ARRAY after the region: attention of the projections' array as the region found it. -/
theorem final (c : Dev nD) :
    (dat (F := Ideal) V c).arrAt 3 cfg1.N = attnG (V c main_v2 : S2x2048x3x16x64.Idx → EReal) :=
  (dat (F := Ideal) V c).arrAt_eq_of_cover 3 (attnG (V c main_v2 : S2x2048x3x16x64.Idx → EReal))
    (fun t _ => flushed_eq V c t) cover

end Data

end Cert.KernelIdeal.AttnValue

end
-- ==== Proof.KernelValue.lean ====
/-
  The kernel's result is the specification. Through the three regions and the reshapes between them, read entry by entry:
  the first region's array at row b·2048 + n, column o is the projection of token (b, n) at column o; reshaped to five axes
  it is the query, key or value feature (g, h, d) of that token, column g·1024 + h·64 + d; the second region's array at
  (b, n, c) is head c / 64's output at feature c % 64; the third region's array at row b·2048 + n, column j is the output
  projection of those plus the bias; reshaped to three axes it is the layer's result at (b, n, j).
-/
import proofs.«140581_j58600533786988_2_alg».proof.Proof.Run
import proofs.«140581_j58600533786988_2_alg».proof.Proof.QkvProjValue
import proofs.«140581_j58600533786988_2_alg».proof.Proof.OutProjValue
import proofs.«140581_j58600533786988_2_alg».proof.Proof.AttnValue
import proofs.«140581_j58600533786988_2_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.KernelValue

open Idealize.ShloMosaic Idealize.ShloMosaic.TcCoe Idealize.ShloMosaic.ValueIdx Idealize.SL.Sem
open Cert.KernelIdeal Cert.KernelIdeal.Gen Cert.KernelIdeal.Run Cert.AttnSpec Cert.LibDense

variable (m : (ℓ : Loc nD τ sig) → Buf (Elt Ideal) ℓ) (c : Dev nD)

/-! ## The reshapes between the regions -/

theorem V1_v0 : V1 m c main_v0 = shapeCast S4096x1024 (m ((c : Thread nD τ).loc main_arg0)) shapeCasts_S2x2048x1024_S4096x1024 := by
  show StableHlo.after hostOps0 (V0 m c) (Proc.devRef .tc main_v0) = _
  after_results
  rfl
theorem W3_v2 : W3 m c main_v2 = shapeCast S2x2048x3x16x64 (W2 m c main_v1) shapeCasts_S4096x3072_S2x2048x3x16x64 := by
  show StableHlo.after hostOps1 (W2 m c) (Proc.devRef .tc main_v2) = _
  after_results
  rfl
theorem W5_v4 : W5 m c main_v4 = shapeCast S4096x1024 (W4 m c main_v3) shapeCasts_S2x2048x1024_S4096x1024 := by
  show StableHlo.after hostOps2 (W4 m c) (Proc.devRef .tc main_v4) = _
  after_results
  rfl
theorem W5_v5 : W5 m c main_v5 = shapeCast S1x1024 (W4 m c main_arg3) shapeCasts_S1024_S1x1024 := by
  show StableHlo.after hostOps2 (W4 m c) (Proc.devRef .tc main_v5) = _
  after_results
  rfl
theorem W7_v7 : W7 m c main_v7 = shapeCast S2x2048x1024 (W6 m c main_v6) shapeCasts_S4096x1024_S2x2048x1024 := by
  show StableHlo.after hostOps3 (W6 m c) (Proc.devRef .tc main_v7) = _
  after_results
  rfl

/-! ## The arguments reach every region as launched -/

theorem V1_arg1 : V1 m c main_arg1 = m ((c : Thread nD τ).loc main_arg1) := (V1_of m c main_arg1 (by decide)).trans rfl
theorem W5_arg2 : W5 m c main_arg2 = m ((c : Thread nD τ).loc main_arg2) :=
  (congrFun (V5_eq m c) _).symm.trans <| (V5_of m (outs m) c main_arg2 (by decide)).trans <| (V4_of m (outs m) c main_arg2 (by decide)).trans <|
    (V3_of m (outs m) c main_arg2 (by decide)).trans <| (V2_of m (outs m) c main_arg2 (by decide)).trans <| (V1_of m c main_arg2 (by decide)).trans rfl
theorem W4_arg3 : W4 m c main_arg3 = m ((c : Thread nD τ).loc main_arg3) :=
  (congrFun (V4_eq m c) _).symm.trans <| (V4_of m (outs m) c main_arg3 (by decide)).trans <|
    (V3_of m (outs m) c main_arg3 (by decide)).trans <| (V2_of m (outs m) c main_arg3 (by decide)).trans <| (V1_of m c main_arg3 (by decide)).trans rfl

/-- The row of token (b, n) in the [4096, ·] arrays. -/
def row (b : Fin 2) (n : Fin 2048) : Fin 4096 := ⟨b.val * 2048 + n.val, by omega⟩

/-- The four argument arrays as launched. -/
abbrev x0 := m ((c : Thread nD τ).loc main_arg0)
abbrev x1 := m ((c : Thread nD τ).loc main_arg1)
abbrev x2 := m ((c : Thread nD τ).loc main_arg2)
abbrev x3 := m ((c : Thread nD τ).loc main_arg3)

/-! ## Region 0: the projection -/

theorem v0_at (b : Fin 2) (n : Fin 2048) (k : Fin 1024) : V1 m c main_v0 (ix2 (row b n) k) = x0 m c (ix3 b n k) := by
  rw [V1_v0]
  refine shapeCast_apply _ _ _ (ix3 b n k) ?_
  show (S2x2048x1024.rowMajor (ix3 b n k)).val = (S4096x1024.rowMajor (ix2 (row b n) k)).val
  rw [Shape.rowMajor_val_three, Shape.rowMajor_val_two]
  show (b.val * 2048 + n.val) * 1024 + k.val = (b.val * 2048 + n.val) * 1024 + k.val
  rfl

theorem o1_at (b : Fin 2) (n : Fin 2048) (o : Fin 3072) : o1 m c (ix2 (row b n) o) = proj (x0 m c) (x1 m c) b n o := by
  unfold o1
  rw [QkvProjValue.final (U1 m) c]
  show QkvProjValue.rowDot (M := 4096) (N := 3072) (K := 1024) (V1 m c main_v0) (V1 m c main_arg1) (ix2 (row b n) o) = _
  rw [QkvProjValue.rowDot_apply, V1_arg1]
  unfold proj
  exact Finset.sum_congr rfl fun k _ => by rw [v0_at]

/-- The projection reshaped to five axes: feature (g, h, d) of token (b, n). -/
theorem v2_at (b : Fin 2) (n : Fin 2048) (g : Fin 3) (h : Fin 16) (d : Fin 64) :
    W3 m c main_v2 (ix5 b n g h d) = proj (x0 m c) (x1 m c) b n (col g h d) := by
  rw [W3_v2, W2_self]
  refine (shapeCast_apply _ _ _ (ix2 (row b n) (col g h d)) ?_).trans (o1_at m c b n (col g h d))
  show (S4096x3072.rowMajor (ix2 (row b n) (col g h d))).val = (S2x2048x3x16x64.rowMajor (ix5 b n g h d)).val
  rw [Shape.rowMajor_val_two, Shape.rowMajor_val_five]
  show (b.val * 2048 + n.val) * 3072 + (g.val * 1024 + h.val * 64 + d.val) = (((b.val * 2048 + n.val) * 3 + g.val) * 16 + h.val) * 64 + d.val
  omega

/-! ## Region 1: attention -/

/-- Attention over an array that holds the projection's features is the heads laid side by side. -/
theorem attnG_of_proj (x : (⟨3, ![2, 2048, 1024]⟩ : Shape).Idx → EReal) (w : (⟨2, ![3072, 1024]⟩ : Shape).Idx → EReal)
    (A : S2x2048x3x16x64.Idx → EReal)
    (hA : ∀ (b : Fin 2) (n : Fin 2048) (g : Fin 3) (h : Fin 16) (d : Fin 64), A (ix5 b n g h d) = proj x w b n (col g h d))
    (b : Fin 2) (n : Fin 2048) (k : Fin 1024) : AttnValue.attnG A (ix3 b n k) = merged x w b n k := by
  rw [AttnValue.attnG_apply]
  unfold AttnValue.attnAt merged head logit
  simp only [hA]

theorem o3_at (b : Fin 2) (n : Fin 2048) (k : Fin 1024) : o3 m c (ix3 b n k) = merged (x0 m c) (x1 m c) b n k := by
  unfold o3
  rw [AttnValue.final (U3 m) c]
  exact attnG_of_proj (x0 m c) (x1 m c) _ (v2_at m c) b n k

/-! ## Region 2: the output projection -/

theorem v4_at (b : Fin 2) (n : Fin 2048) (k : Fin 1024) : W5 m c main_v4 (ix2 (row b n) k) = merged (x0 m c) (x1 m c) b n k := by
  rw [W5_v4, W4_self]
  refine (shapeCast_apply _ _ _ (ix3 b n k) ?_).trans (o3_at m c b n k)
  show (S2x2048x1024.rowMajor (ix3 b n k)).val = (S4096x1024.rowMajor (ix2 (row b n) k)).val
  rw [Shape.rowMajor_val_three, Shape.rowMajor_val_two]
  show (b.val * 2048 + n.val) * 1024 + k.val = (b.val * 2048 + n.val) * 1024 + k.val
  rfl

theorem v5_at (j : Fin 1024) : W5 m c main_v5 (ix2 (0 : Fin 1) j) = x3 m c (ix1 j) := by
  rw [W5_v5, W4_arg3]
  refine shapeCast_apply _ _ _ (ix1 j) ?_
  show (S1024.rowMajor (ix1 j)).val = (S1x1024.rowMajor (ix2 (0 : Fin 1) j)).val
  rw [Shape.rowMajor_val_one, Shape.rowMajor_val_two]
  show j.val = 0 * 1024 + j.val
  omega

theorem o6_at (b : Fin 2) (n : Fin 2048) (j : Fin 1024) : o6 m c (ix2 (row b n) j) = out (x0 m c) (x1 m c) (x2 m c) (x3 m c) b n j := by
  unfold o6
  rw [OutProjValue.final (U5 m) c]
  show OutProjValue.rowDotBias (M := 4096) (N := 1024) (K := 1024) (W5 m c main_v4) (W5 m c main_arg2) (W5 m c main_v5) (ix2 (row b n) j) = _
  rw [OutProjValue.rowDotBias_apply, W5_arg2, v5_at]
  unfold out
  exact congrArg (· + _) (Finset.sum_congr rfl fun k _ => by rw [v4_at])

/-! ## The result -/

/-- The kernel's result array is the specification of the four argument arrays. -/
theorem v7_at (b : Fin 2) (n : Fin 2048) (j : Fin 1024) :
    W7 m c main_v7 (ix3 b n j) = out (x0 m c) (x1 m c) (x2 m c) (x3 m c) b n j := by
  rw [W7_v7, W6_self]
  refine (shapeCast_apply _ _ _ (ix2 (row b n) j) ?_).trans (o6_at m c b n j)
  show (S4096x1024.rowMajor (ix2 (row b n) j)).val = (S2x2048x1024.rowMajor (ix3 b n j)).val
  rw [Shape.rowMajor_val_two, Shape.rowMajor_val_three]
  show (b.val * 2048 + n.val) * 1024 + j.val = (b.val * 2048 + n.val) * 1024 + j.val
  rfl

theorem result_eq : (W7 m c main_v7 : S2x2048x1024.Idx → EReal) = G (x0 m c) (x1 m c) (x2 m c) (x3 m c) := by
  funext i
  obtain ⟨b, n, j, rfl⟩ : ∃ (b : Fin 2) (n : Fin 2048) (j : Fin 1024), i = ix3 b n j := ⟨i 0, i 1, i 2, eq_ix3 i⟩
  rw [G_apply]
  exact v7_at m c b n j

end Cert.KernelIdeal.KernelValue

end
-- ==== Proof.RefProj.lean ====
/-
  The reference's projection stage, read at an index: the product of the tokens with the stacked weight, reshaped to
  [2, 2048, 3, 16, 64], transposed to [3, 2, 16, 2048, 64] and sliced into the query, key and value arrays
  [2, 16, 2048, 64], is at (b, h, n, d) the specification's projection of token (b, n) at the column
  g · 1024 + h · 64 + d of the group g the slice takes.
-/
import proofs.«140581_j58600533786988_2_alg».proof.Proof.Gen.ReferenceIdeal.Read
import proofs.«140581_j58600533786988_2_alg».proof.Proof.Spec

noncomputable section

namespace Cert.RefValue

open Idealize.ShloMosaic Idealize.ShloMosaic.ValueIdx Cert.ReferenceIdeal Cert.ReferenceIdeal.Read Cert.AttnSpec Cert.LibDense

variable (a0 : (⟨S2x2048x1024, .f32⟩ : BufTy).Contents (Elt Ideal)) (a1 : (⟨S3072x1024, .f32⟩ : BufTy).Contents (Elt Ideal))

/-- The product of the tokens with the stacked weight at (b, n, o) is the projection. -/
theorem v0_at (b : Fin 2) (n : Fin 2048) (o : Fin 3072) :
    val_main_v0 (F := Ideal) a0 a1 (ix3 b n o) = proj a0 a1 b n o := by
  rw [val_main_v0_apply]
  unfold proj
  refine Finset.sum_congr rfl fun c _ => ?_
  have el : lidx_main_v0 (ix3 b n o) c = ix3 b n c := by
    funext a; match a with | ⟨0, _⟩ => rfl | ⟨1, _⟩ => rfl | ⟨2, _⟩ => rfl
  have er : ridx_main_v0 (ix3 b n o) c = ix2 o c := by
    funext a; match a with | ⟨0, _⟩ => rfl | ⟨1, _⟩ => rfl
  rw [el, er]

/-- The reshape [2, 2048, 3072] → [2, 2048, 3, 16, 64] reads column g · 1024 + h · 64 + d. -/
theorem idx_v1 (b : Fin 2) (n : Fin 2048) (g : Fin 3) (h : Fin 16) (d : Fin 64) :
    idx_main_v1 (ix5 b n g h d) = ix3 b n (col g h d) := by
  funext a; apply Fin.ext
  match a with
  | ⟨0, _⟩ =>
    show ((((b.val * 2048 + n.val) * 3 + g.val) * 16 + h.val) * 64 + d.val) / 6291456 = b.val
    omega
  | ⟨1, _⟩ =>
    show ((((b.val * 2048 + n.val) * 3 + g.val) * 16 + h.val) * 64 + d.val) / 3072 % 2048 = n.val
    omega
  | ⟨2, _⟩ =>
    show ((((b.val * 2048 + n.val) * 3 + g.val) * 16 + h.val) * 64 + d.val) % 3072 = g.val * 1024 + h.val * 64 + d.val
    omega

/-- The transpose to [3, 2, 16, 2048, 64] reads (b, n, g, h, d) at (g, b, h, n, d). -/
theorem idx_v2 (g : Fin 3) (b : Fin 2) (h : Fin 16) (n : Fin 2048) (d : Fin 64) :
    idx_main_v2 (ix5 g b h n d) = ix5 b n g h d := by
  funext a; match a with | ⟨0, _⟩ => rfl | ⟨1, _⟩ => rfl | ⟨2, _⟩ => rfl | ⟨3, _⟩ => rfl | ⟨4, _⟩ => rfl

/-- The three slices read group 0, 1 and 2. -/
theorem idx_v3 (u : Fin 1) (b : Fin 2) (h : Fin 16) (n : Fin 2048) (d : Fin 64) :
    idx_main_v3 (ix5 u b h n d) = ix5 (0 : Fin 3) b h n d := by
  funext a; apply Fin.ext
  match a with
  | ⟨0, _⟩ => show u.val = 0; omega
  | ⟨1, _⟩ => rfl | ⟨2, _⟩ => rfl | ⟨3, _⟩ => rfl | ⟨4, _⟩ => rfl
theorem idx_v5 (u : Fin 1) (b : Fin 2) (h : Fin 16) (n : Fin 2048) (d : Fin 64) :
    idx_main_v5 (ix5 u b h n d) = ix5 (1 : Fin 3) b h n d := by
  funext a; apply Fin.ext
  match a with
  | ⟨0, _⟩ => show 1 + u.val = 1; omega
  | ⟨1, _⟩ => rfl | ⟨2, _⟩ => rfl | ⟨3, _⟩ => rfl | ⟨4, _⟩ => rfl
theorem idx_v7 (u : Fin 1) (b : Fin 2) (h : Fin 16) (n : Fin 2048) (d : Fin 64) :
    idx_main_v7 (ix5 u b h n d) = ix5 (2 : Fin 3) b h n d := by
  funext a; apply Fin.ext
  match a with
  | ⟨0, _⟩ => show 2 + u.val = 2; omega
  | ⟨1, _⟩ => rfl | ⟨2, _⟩ => rfl | ⟨3, _⟩ => rfl | ⟨4, _⟩ => rfl

/-- The reshape [1, 2, 16, 2048, 64] → [2, 16, 2048, 64] drops the leading axis of size one. -/
theorem idx_v4 (b : Fin 2) (h : Fin 16) (n : Fin 2048) (d : Fin 64) :
    idx_main_v4 (ix4 b h n d) = ix5 (0 : Fin 1) b h n d := by
  funext a; apply Fin.ext
  match a with
  | ⟨0, _⟩ => rfl
  | ⟨1, _⟩ =>
    show (((b.val * 16 + h.val) * 2048 + n.val) * 64 + d.val) / 2097152 % 2 = b.val
    omega
  | ⟨2, _⟩ =>
    show (((b.val * 16 + h.val) * 2048 + n.val) * 64 + d.val) / 131072 % 16 = h.val
    omega
  | ⟨3, _⟩ =>
    show (((b.val * 16 + h.val) * 2048 + n.val) * 64 + d.val) / 64 % 2048 = n.val
    omega
  | ⟨4, _⟩ =>
    show (((b.val * 16 + h.val) * 2048 + n.val) * 64 + d.val) % 64 = d.val
    omega
theorem idx_v6 (b : Fin 2) (h : Fin 16) (n : Fin 2048) (d : Fin 64) :
    idx_main_v6 (ix4 b h n d) = ix5 (0 : Fin 1) b h n d := idx_v4 b h n d
theorem idx_v8 (b : Fin 2) (h : Fin 16) (n : Fin 2048) (d : Fin 64) :
    idx_main_v8 (ix4 b h n d) = ix5 (0 : Fin 1) b h n d := idx_v4 b h n d

/-- The transposed array at (g, b, h, n, d) is the projection at column (g, h, d). -/
theorem v2_at (g : Fin 3) (b : Fin 2) (h : Fin 16) (n : Fin 2048) (d : Fin 64) :
    val_main_v2 (F := Ideal) a0 a1 (ix5 g b h n d) = proj a0 a1 b n (col g h d) := by
  rw [val_main_v2_apply, idx_v2, val_main_v1_apply, idx_v1, v0_at]

/-- The query array at (b, h, n, d). -/
theorem v4_at (b : Fin 2) (h : Fin 16) (n : Fin 2048) (d : Fin 64) :
    val_main_v4 (F := Ideal) a0 a1 (ix4 b h n d) = proj a0 a1 b n (col 0 h d) := by
  rw [val_main_v4_apply, idx_v4, val_main_v3_apply, idx_v3, v2_at]

/-- The key array at (b, h, n, d). -/
theorem v6_at (b : Fin 2) (h : Fin 16) (n : Fin 2048) (d : Fin 64) :
    val_main_v6 (F := Ideal) a0 a1 (ix4 b h n d) = proj a0 a1 b n (col 1 h d) := by
  rw [val_main_v6_apply, idx_v6, val_main_v5_apply, idx_v5, v2_at]

/-- The value array at (b, h, n, d). -/
theorem v8_at (b : Fin 2) (h : Fin 16) (n : Fin 2048) (d : Fin 64) :
    val_main_v8 (F := Ideal) a0 a1 (ix4 b h n d) = proj a0 a1 b n (col 2 h d) := by
  rw [val_main_v8_apply, idx_v8, val_main_v7_apply, idx_v7, v2_at]

end Cert.RefValue

end
-- ==== Proof.RefLogit.lean ====
/-
  The reference's scores, read at an index: the product of the query and key arrays over the 64 features, divided by
  the f32 word of 8, is at (b, h, n, m) the specification's scaled score, which multiplies by the word of one eighth:
  the two words denote the reals 8 and 1/8, and division by a nonzero real is multiplication by its reciprocal at
  every extended real.
-/
import proofs.«140581_j58600533786988_2_alg».proof.Proof.RefProj

noncomputable section

namespace Cert.RefValue

open Idealize.ShloMosaic Idealize.ShloMosaic.ValueIdx Cert.ReferenceIdeal Cert.ReferenceIdeal.Read Cert.AttnSpec Cert.LibDense

variable (a0 : (⟨S2x2048x1024, .f32⟩ : BufTy).Contents (Elt Ideal)) (a1 : (⟨S3072x1024, .f32⟩ : BufTy).Contents (Elt Ideal))

/-- The f32 word 0x41000000 denotes the real 8. -/
theorem ofBits_eight : Ideal.ofBits .f32 0x41000000#32 = ((8 : ℝ) : EReal) := by
  simp [Ideal.ofBits, Ideal.ieee, -EReal.coe_mul]; norm_num

/-- The f32 word 0x3E000000 denotes the real 1/8. -/
theorem ofBits_eighth : Ideal.ofBits .f32 0x3E000000#32 = (((1 : ℝ) / 8 : ℝ) : EReal) := by
  simp [Ideal.ofBits, Ideal.ieee, -EReal.coe_mul]; norm_num

/-- Dividing by the word of 8 is multiplying by the word of one eighth, at every extended real. -/
theorem div_eight (x : EReal) : Ideal.div x (Ideal.ofBits .f32 0x41000000#32) = x * eighth := by
  rw [ofBits_eight, Ideal.div_coe (by norm_num), ← ofBits_eighth]

/-- The unscaled scores at (b, h, n, m): the sum over the head's 64 features of query times key. -/
theorem v9_at (b : Fin 2) (h : Fin 16) (n m : Fin 2048) :
    val_main_v9 (F := Ideal) a0 a1 (ix4 b h n m)
      = ∑ d : Fin 64, proj a0 a1 b n (col 0 h d) * proj a0 a1 b m (col 1 h d) := by
  rw [val_main_v9_apply]
  refine Finset.sum_congr rfl fun d _ => ?_
  have el : lidx_main_v9 (ix4 b h n m) d = ix4 b h n d := by
    funext a; match a with | ⟨0, _⟩ => rfl | ⟨1, _⟩ => rfl | ⟨2, _⟩ => rfl | ⟨3, _⟩ => rfl
  have er : ridx_main_v9 (ix4 b h n m) d = ix4 b h m d := by
    funext a; match a with | ⟨0, _⟩ => rfl | ⟨1, _⟩ => rfl | ⟨2, _⟩ => rfl | ⟨3, _⟩ => rfl
  rw [el, er, v4_at, v6_at]

/-- The scaled scores at (b, h, n, m) are the specification's. -/
theorem v11_at (b : Fin 2) (h : Fin 16) (n m : Fin 2048) :
    val_main_v11 (F := Ideal) a0 a1 (ix4 b h n m) = logit a0 a1 b h n m := by
  rw [val_main_v11_apply, val_main_v10_apply, val_main_cst_apply, v9_at]
  show Ideal.div _ (Ideal.ofBits .f32 0x41000000#32) = _
  rw [div_eight]
  rfl

end Cert.RefValue

end
-- ==== Proof.RefSoftmax.lean ====
/-
  The reference's softmax, read at an index. The maximum over the keys of a row of scaled scores, folded from the word
  of minus infinity and taken once more against that word, is the row's top; each score less the top, exponentiated,
  over the sum of those exponentials from the zero word (which denotes 0), is the specification's softmax row.
-/
import proofs.«140581_j58600533786988_2_alg».proof.Proof.RefLogit

noncomputable section

namespace Cert.RefValue

open Idealize.ShloMosaic Idealize.ShloMosaic.ValueIdx Cert.ReferenceIdeal Cert.ReferenceIdeal.Read Cert.AttnSpec Cert.LibDense

variable (a0 : (⟨S2x2048x1024, .f32⟩ : BufTy).Contents (Elt Ideal)) (a1 : (⟨S3072x1024, .f32⟩ : BufTy).Contents (Elt Ideal))

/-- The index of a [2, 16, 2048, 2048] array that drops to (b, h, n) when the last axis is reduced, with k put on that
    axis, is (b, h, n, k). -/
theorem lift_last (hR : S2x16x2048x2048.Reduces [3] S2x16x2048) (b : Fin 2) (h : Fin 16) (n k : Fin 2048) :
    hR.lift (ix3 b h n) k = ix4 b h n k := by
  funext a
  apply Fin.ext
  match a with
  | ⟨0, _⟩ => rfl
  | ⟨1, _⟩ => rfl
  | ⟨2, _⟩ => rfl
  | ⟨3, _⟩ => rfl

/-- The maximum over the keys at (b, h, n): the fold of max from minus infinity's word over the row of scores. -/
theorem v12_at (b : Fin 2) (h : Fin 16) (n : Fin 2048) :
    val_main_v12 (F := Ideal) a0 a1 (ix3 b h n)
      = (Finset.univ : Finset (Fin 2048)).fold max negInfWord (fun m => logit a0 a1 b h n m) := by
  unfold val_main_v12
  have hR : S2x16x2048x2048.Reduces [3] S2x16x2048 := by decide
  refine (Host.reduce_eq_fold_single _ _ _ _ hR _ (ix3 b h n)).trans ?_
  have e : (val_main_v11 (F := Ideal) a0 a1 ∘ hR.lift (ix3 b h n)) = fun m => logit a0 a1 b h n m :=
    funext fun m => (congrArg (val_main_v11 (F := Ideal) a0 a1) (lift_last hR b h n m)).trans (v11_at a0 a1 b h n m)
  rw [e]
  rfl

/-- The maximum once more against minus infinity's word: the row's top. -/
theorem v14_at (b : Fin 2) (h : Fin 16) (n : Fin 2048) :
    val_main_v14 (F := Ideal) a0 a1 (ix3 b h n) = rowTop (logit a0 a1 b h n) := by
  rw [val_main_v14_apply, val_main_v13_apply, val_main_cst_1_apply, v12_at]
  rfl

/-- The top broadcast along the keys. -/
theorem v16_at (b : Fin 2) (h : Fin 16) (n m : Fin 2048) :
    val_main_v16 (F := Ideal) a0 a1 (ix4 b h n m) = rowTop (logit a0 a1 b h n) := by
  have e : idx_main_v15 (idx_main_v16 (ix4 b h n m)) = ix3 b h n := by
    funext a; match a with | ⟨0, _⟩ => rfl | ⟨1, _⟩ => rfl | ⟨2, _⟩ => rfl
  rw [val_main_v16_apply, val_main_v15_apply, e, v14_at]

/-- Each score less its row's top, exponentiated. -/
theorem v18_at (b : Fin 2) (h : Fin 16) (n m : Fin 2048) :
    val_main_v18 (F := Ideal) a0 a1 (ix4 b h n m)
      = Ideal.exp (logit a0 a1 b h n m - rowTop (logit a0 a1 b h n)) := by
  rw [val_main_v18_apply, val_main_v17_apply, v11_at, v16_at]
  rfl

/-- The sum of the row's exponentials, from the zero word. -/
theorem v19_at (b : Fin 2) (h : Fin 16) (n : Fin 2048) :
    val_main_v19 (F := Ideal) a0 a1 (ix3 b h n)
      = ∑ u : Fin 2048, Ideal.exp (logit a0 a1 b h n u - rowTop (logit a0 a1 b h n)) := by
  rw [val_main_v19_apply, val_main_cst_2_apply]
  show Ideal.ofBits .f32 0x00000000#32 + _ = _
  rw [Ideal.ofBits_zero_f32, zero_add]
  refine Finset.sum_congr rfl fun u _ => ?_
  have e : idx_main_v19 (ix3 b h n) u = ix4 b h n u := by
    funext a; match a with | ⟨0, _⟩ => rfl | ⟨1, _⟩ => rfl | ⟨2, _⟩ => rfl | ⟨3, _⟩ => rfl
  rw [e, v18_at]

/-- The sum broadcast along the keys. -/
theorem v21_at (b : Fin 2) (h : Fin 16) (n m : Fin 2048) :
    val_main_v21 (F := Ideal) a0 a1 (ix4 b h n m)
      = ∑ u : Fin 2048, Ideal.exp (logit a0 a1 b h n u - rowTop (logit a0 a1 b h n)) := by
  have e : idx_main_v20 (idx_main_v21 (ix4 b h n m)) = ix3 b h n := by
    funext a; match a with | ⟨0, _⟩ => rfl | ⟨1, _⟩ => rfl | ⟨2, _⟩ => rfl
  rw [val_main_v21_apply, val_main_v20_apply, e, v19_at]

/-- The softmax weights at (b, h, n, m) are the specification's softmax row of the scores. -/
theorem v22_at (b : Fin 2) (h : Fin 16) (n m : Fin 2048) :
    val_main_v22 (F := Ideal) a0 a1 (ix4 b h n m) = softmaxRow (logit a0 a1 b h n) m := by
  rw [val_main_v22_apply, v18_at, v21_at]
  rfl

end Cert.RefValue

end
-- ==== Proof.RefValue.lean ====
/-
  The reference program's result is the attention layer's specification, entry by entry: the softmax weights times the
  value array over the keys are the heads' outputs; transposed and reshaped to [2, 2048, 1024] they lie side by side
  (feature c is head c / 64, feature c % 64 of it); their product with the output weight over the 1024 features, plus
  the bias broadcast over the tokens, is the layer's result.
-/
import proofs.«140581_j58600533786988_2_alg».proof.Proof.RefSoftmax

noncomputable section

namespace Cert.RefValue

open Idealize.ShloMosaic Idealize.ShloMosaic.ValueIdx Cert.ReferenceIdeal Cert.ReferenceIdeal.Read Cert.AttnSpec Cert.LibDense

variable (a0 : (⟨S2x2048x1024, .f32⟩ : BufTy).Contents (Elt Ideal)) (a1 : (⟨S3072x1024, .f32⟩ : BufTy).Contents (Elt Ideal))
  (a2 : (⟨S1024x1024, .f32⟩ : BufTy).Contents (Elt Ideal)) (a3 : (⟨S1024, .f32⟩ : BufTy).Contents (Elt Ideal))

/-- The heads' outputs at (b, h, n, d). -/
theorem v23_at (b : Fin 2) (h : Fin 16) (n : Fin 2048) (d : Fin 64) :
    val_main_v23 (F := Ideal) a0 a1 (ix4 b h n d) = head a0 a1 b h n d := by
  rw [val_main_v23_apply]
  unfold head
  refine Finset.sum_congr rfl fun m _ => ?_
  have el : lidx_main_v23 (ix4 b h n d) m = ix4 b h n m := by
    funext a; match a with | ⟨0, _⟩ => rfl | ⟨1, _⟩ => rfl | ⟨2, _⟩ => rfl | ⟨3, _⟩ => rfl
  have er : ridx_main_v23 (ix4 b h n d) m = ix4 b h m d := by
    funext a; match a with | ⟨0, _⟩ => rfl | ⟨1, _⟩ => rfl | ⟨2, _⟩ => rfl | ⟨3, _⟩ => rfl
  rw [el, er, v22_at, v8_at]

/-- The transpose to [2, 2048, 16, 64] reads (b, h, n, d) at (b, n, h, d). -/
theorem idx_v24 (b : Fin 2) (n : Fin 2048) (h : Fin 16) (d : Fin 64) :
    idx_main_v24 (ix4 b n h d) = ix4 b h n d := by
  funext a; match a with | ⟨0, _⟩ => rfl | ⟨1, _⟩ => rfl | ⟨2, _⟩ => rfl | ⟨3, _⟩ => rfl

/-- The reshape [2, 2048, 16, 64] → [2, 2048, 1024] reads feature c at head c / 64, feature c % 64. -/
theorem idx_v25 (b : Fin 2) (n : Fin 2048) (c : Fin 1024) :
    idx_main_v25 (ix3 b n c) = ix4 b n (⟨c.val / 64, by omega⟩ : Fin 16) (⟨c.val % 64, by omega⟩ : Fin 64) := by
  funext a; apply Fin.ext
  match a with
  | ⟨0, _⟩ =>
    show ((b.val * 2048 + n.val) * 1024 + c.val) / 2097152 = b.val
    omega
  | ⟨1, _⟩ =>
    show ((b.val * 2048 + n.val) * 1024 + c.val) / 1024 % 2048 = n.val
    omega
  | ⟨2, _⟩ =>
    show ((b.val * 2048 + n.val) * 1024 + c.val) / 64 % 16 = c.val / 64
    omega
  | ⟨3, _⟩ =>
    show ((b.val * 2048 + n.val) * 1024 + c.val) % 64 = c.val % 64
    omega

/-- The heads laid side by side at (b, n, c). -/
theorem v25_at (b : Fin 2) (n : Fin 2048) (c : Fin 1024) :
    val_main_v25 (F := Ideal) a0 a1 (ix3 b n c) = merged a0 a1 b n c := by
  rw [val_main_v25_apply, idx_v25, val_main_v24_apply, idx_v24, v23_at]
  rfl

/-- The output product at (b, n, j). -/
theorem v26_at (b : Fin 2) (n : Fin 2048) (j : Fin 1024) :
    val_main_v26 (F := Ideal) a0 a1 a2 (ix3 b n j) = ∑ c : Fin 1024, merged a0 a1 b n c * a2 (ix2 j c) := by
  rw [val_main_v26_apply]
  refine Finset.sum_congr rfl fun c _ => ?_
  have el : lidx_main_v26 (ix3 b n j) c = ix3 b n c := by
    funext a; match a with | ⟨0, _⟩ => rfl | ⟨1, _⟩ => rfl | ⟨2, _⟩ => rfl
  have er : ridx_main_v26 (ix3 b n j) c = ix2 j c := by
    funext a; match a with | ⟨0, _⟩ => rfl | ⟨1, _⟩ => rfl
  rw [el, er, v25_at]

/-- The bias broadcast over the tokens at (b, n, j). -/
theorem v28_at (b : Fin 2) (n : Fin 2048) (j : Fin 1024) :
    val_main_v28 (F := Ideal) a3 (ix3 b n j) = a3 (ix1 j) := by
  have e : idx_main_v27 (idx_main_v28 (ix3 b n j)) = ix1 j := by
    funext a; match a with | ⟨0, _⟩ => rfl
  rw [val_main_v28_apply, val_main_v27_apply, e]

/-- The reference's result at (b, n, j) is the layer's. -/
theorem v29_at (b : Fin 2) (n : Fin 2048) (j : Fin 1024) :
    val_main_v29 (F := Ideal) a0 a1 a2 a3 (ix3 b n j) = out a0 a1 a2 a3 b n j := by
  rw [val_main_v29_apply, v26_at, v28_at]
  rfl

/-- The reference program's result, as the generated reading names its last stage, is the specification. -/
theorem ref_eq : val_main_v29 (F := Ideal) a0 a1 a2 a3 = G a0 a1 a2 a3 := by
  funext i
  rw [eq_ix3 i]
  exact (v29_at a0 a1 a2 a3 (i 0) (i 1) (i 2)).trans (G_apply a0 a1 a2 a3 (i 0) (i 1) (i 2)).symm

end Cert.RefValue

end
-- ==== Proof.lean ====
/-
  The certificate of the attention layer: the kernel (three regions among reshapes — the stacked query/key/value
  projection, attention head by head, the output projection with its bias) against the reference (one projection,
  a softmax over the scaled scores, the weighted values, the output projection).
  The frames: each of the kernel's two printed programs runs as its seven items, every region entered from the buffers'
  contents before it and left with its result array at what its grid points wrote back, so every argument array ends
  as launched; the reference's frame is its run with the result dropped.
  The value: at the exact instance both programs end with the layer's result, entry by entry,
    out(b, n, j) = Σ_c head(b, c / 64, n, c % 64) · w_proj(j, c) + bias(j),
  the kernel's scale by the word 0.125 being the reference's quotient by the word 8 on every extended real, and the
  kernel's single maximum over a row being the reference's maximum taken once more against minus infinity.
  The idealization rewrote nothing, so its claim is trivial.
-/
import proofs.«140581_j58600533786988_2_alg».proof.Defs
import proofs.«140581_j58600533786988_2_alg».proof.Proof.Gen.Kernel
import proofs.«140581_j58600533786988_2_alg».proof.Proof.Gen.KernelIdeal
import proofs.«140581_j58600533786988_2_alg».proof.Proof.Gen.ReferenceIdeal
import proofs.«140581_j58600533786988_2_alg».proof.Proof.Gen.Pre_finite_inputs
import proofs.«140581_j58600533786988_2_alg».proof.Proof.RunBits
import proofs.«140581_j58600533786988_2_alg».proof.Proof.Run
import proofs.«140581_j58600533786988_2_alg».proof.Proof.KernelValue
import proofs.«140581_j58600533786988_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Run.frame (F := Bits) m ρ

theorem frame_ki : Cert.frame_KernelIdeal := fun m ρ _ => Cert.KernelIdeal.Run.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the layer's result of the argument arrays, which agree. -/
theorem algebraic : Cert.algebraic_KernelIdeal_ReferenceIdeal := by
  intro m ρ m' ρ' _ hagree
  refine ⟨fun c => Cert.AttnSpec.G (Cert.KernelIdeal.KernelValue.x0 m c) (Cert.KernelIdeal.KernelValue.x1 m c)
      (Cert.KernelIdeal.KernelValue.x2 m c) (Cert.KernelIdeal.KernelValue.x3 m c), ?_, ?_⟩
  · exact (θ_run Cert.KernelIdeal.defs _ _).mono
      (fun r h c => ⟨(h c).1.trans (Cert.KernelIdeal.KernelValue.result_eq m c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v29_eq, Cert.RefValue.ref_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
